-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S50000x3x3 : Shape := ⟨3, ![50000, 3, 3]⟩
abbrev S2x400000 : Shape := ⟨2, ![2, 400000]⟩
abbrev S32x128 : Shape := ⟨2, ![32, 128]⟩
abbrev S128 : Shape := ⟨1, ![128]⟩
abbrev S128x16 : Shape := ⟨2, ![128, 16]⟩
abbrev S16 : Shape := ⟨1, ![16]⟩
abbrev S2x256x128 : Shape := ⟨3, ![2, 256, 128]⟩
abbrev S2x128 : Shape := ⟨2, ![2, 128]⟩
abbrev S2x128x128 : Shape := ⟨3, ![2, 128, 128]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S50000x3x3 : S_.BroadcastsInDim S50000x3x3 (![] : Fin 0 → Fin S50000x3x3.rank)
  reducesTo_S50000x3x3_S_d0_1_2 : S50000x3x3.ReducesTo [0, 1, 2] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part4 {F : FTy → Type} [FloatOps F] (main_arg15 : FVec F S2x128x128 .f32) (main_arg16 : FVec F S2x128 .f32) (main_v63 : IVec S_ 1) (main_v67 : IVec S_ 1) : IVec S_ 1 :=
  let main_v68 : IVec S_ 1 := andi main_v63 main_v67
  let main_v69 : FVec F S2x128x128 .f32 := Host.absf main_arg15
  let main_cst_26 : FVec F S_ .f32 := constant S_ .f32 0x7F800000#32
  let main_v70 : FVec F S2x128x128 .f32 := broadcastInDim S2x128x128 ![] bcast_S_S2x128x128 main_cst_26
  let main_v71 : IVec S2x128x128 1 := cmpf .olt main_v69 main_v70
  let main_c_27 : IVec S_ 1 := constantI S_ 1 1#1
  let main_v72 : IVec S_ 1 := (fun x v => Host.reduce IntOp.andi x v reducesTo_S2x128x128_S_d0_1_2 h_S_) main_v71 main_c_27
  let main_v73 : IVec S_ 1 := andi main_v68 main_v72
  let main_v74 : FVec F S2x128 .f32 := Host.absf main_arg16
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  main_v78

def fn_part3 {F : FTy → Type} [FloatOps F] (main_arg12 : FVec F S2x128 .f32) (main_arg13 : FVec F S2x128x128 .f32) (main_arg14 : FVec F S2x128 .f32) (main_arg15 : FVec F S2x128x128 .f32) (main_arg16 : FVec F S2x128 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S2x128 .f32 := Host.absf main_arg12
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128x128 .f32 := Host.absf main_arg13
  let main_cst_22 : FVec F S_ .f32 := constant S_ .f32 0x7F800000#32
  let main_v60 : FVec F S2x128x128 .f32 := broadcastInDim S2x128x128 ![] bcast_S_S2x128x128 main_cst_22
  let main_v61 : IVec S2x128x128 1 := cmpf .olt main_v59 main_v60
  let main_c_23 : IVec S_ 1 := constantI S_ 1 1#1
  let main_v62 : IVec S_ 1 := (fun x v => Host.reduce IntOp.andi x v reducesTo_S2x128x128_S_d0_1_2 h_S_) main_v61 main_c_23
  let main_v63 : IVec S_ 1 := andi main_v58 main_v62
  let main_v64 : FVec F S2x128 .f32 := Host.absf main_arg14
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg15 main_arg16 main_v63 main_v67

def fn_part2 {F : FTy → Type} [FloatOps F] (main_arg8 : FVec F S2x128 .f32) (main_arg9 : FVec F S2x128x128 .f32) (main_arg10 : FVec F S2x128 .f32) (main_arg11 : FVec F S2x128x128 .f32) (main_arg12 : FVec F S2x128 .f32) (main_arg13 : FVec F S2x128x128 .f32) (main_arg14 : FVec F S2x128 .f32) (main_arg15 : FVec F S2x128x128 .f32) (main_arg16 : FVec F S2x128 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x128 .f32 := Host.absf main_arg11
  let main_cst_18 : FVec F S_ .f32 := constant S_ .f32 0x7F800000#32
  let main_v50 : FVec F S2x128x128 .f32 := broadcastInDim S2x128x128 ![] bcast_S_S2x128x128 main_cst_18
  fn_part3 (F := F) main_arg12 main_arg13 main_arg14 main_arg15 main_arg16 main_v48 main_v49 main_v50

def fn_part1 {F : FTy → Type} [FloatOps F] (main_arg5 : FVec F S128x16 .f32) (main_arg6 : FVec F S16 .f32) (main_arg7 : FVec F S2x256x128 .f32) (main_arg8 : FVec F S2x128 .f32) (main_arg9 : FVec F S2x128x128 .f32) (main_arg10 : FVec F S2x128 .f32) (main_arg11 : FVec F S2x128x128 .f32) (main_arg12 : FVec F S2x128 .f32) (main_arg13 : FVec F S2x128x128 .f32) (main_arg14 : FVec F S2x128 .f32) (main_arg15 : FVec F S2x128x128 .f32) (main_arg16 : FVec F S2x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S2x256x128 .f32 := Host.absf main_arg7
  let main_cst_10 : FVec F S_ .f32 := constant S_ .f32 0x7F800000#32
  let main_v30 : FVec F S2x256x128 .f32 := broadcastInDim S2x256x128 ![] bcast_S_S2x256x128 main_cst_10
  let main_v31 : IVec S2x256x128 1 := cmpf .olt main_v29 main_v30
  let main_c_11 : IVec S_ 1 := constantI S_ 1 1#1
  let main_v32 : IVec S_ 1 := (fun x v => Host.reduce IntOp.andi x v reducesTo_S2x256x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x32 .f32) (main_arg1 : FVec F S50000x3x3 .f32) (main_arg2 : IVec S2x400000 32) (main_arg3 : FVec F S32x128 .f32) (main_arg4 : FVec F S128 .f32) (main_arg5 : FVec F S128x16 .f32) (main_arg6 : FVec F S16 .f32) (main_arg7 : FVec F S2x256x128 .f32) (main_arg8 : FVec F S2x128 .f32) (main_arg9 : FVec F S2x128x128 .f32) (main_arg10 : FVec F S2x128 .f32) (main_arg11 : FVec F S2x128x128 .f32) (main_arg12 : FVec F S2x128 .f32) (main_arg13 : FVec F S2x128x128 .f32) (main_arg14 : FVec F S2x128 .f32) (main_arg15 : FVec F S2x128x128 .f32) (main_arg16 : FVec F S2x128 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S50000x3x3 .f32 := Host.absf main_arg1
  let main_cst_0 : FVec F S_ .f32 := constant S_ .f32 0x7F800000#32
  let main_v5 : FVec F S50000x3x3 .f32 := broadcastInDim S50000x3x3 ![] bcast_S_S50000x3x3 main_cst_0
  let main_v6 : IVec S50000x3x3 1 := cmpf .olt main_v4 main_v5
  let main_c_1 : IVec S_ 1 := constantI S_ 1 1#1
  let main_v7 : IVec S_ 1 := (fun x v => Host.reduce IntOp.andi x v reducesTo_S50000x3x3_S_d0_1_2 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x32 : Shape := ⟨2, ![50000, 32]⟩
abbrev S50000x3x3 : Shape := ⟨3, ![50000, 3, 3]⟩
abbrev S2x400000 : Shape := ⟨2, ![2, 400000]⟩
abbrev S32x128 : Shape := ⟨2, ![32, 128]⟩
abbrev S128 : Shape := ⟨1, ![128]⟩
abbrev S128x16 : Shape := ⟨2, ![128, 16]⟩
abbrev S16 : Shape := ⟨1, ![16]⟩
abbrev S2x256x128 : Shape := ⟨3, ![2, 256, 128]⟩
abbrev S2x128 : Shape := ⟨2, ![2, 128]⟩
abbrev S2x128x128 : Shape := ⟨3, ![2, 128, 128]⟩
abbrev S1x400000 : Shape := ⟨2, ![1, 400000]⟩
abbrev S400000 : Shape := ⟨1, ![400000]⟩
abbrev S1x128 : Shape := ⟨2, ![1, 128]⟩
abbrev S50000x128 : Shape := ⟨2, ![50000, 128]⟩
abbrev S5000x32 : Shape := ⟨2, ![5000, 32]⟩
abbrev S5000x128 : Shape := ⟨2, ![5000, 128]⟩
abbrev S_ : Shape := ⟨0, ![]⟩
abbrev S400000x1 : Shape := ⟨2, ![400000, 1]⟩
abbrev S400000x128 : Shape := ⟨2, ![400000, 128]⟩
abbrev S1x128x128 : Shape := ⟨3, ![1, 128, 128]⟩
abbrev S128x128 : Shape := ⟨2, ![128, 128]⟩
abbrev S4000x128 : Shape := ⟨2, ![4000, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 127
  | .vmem => 54
  | .smem => 0
  | _ => 0

abbrev bufTy : (tb : Table) → Fin (tcTables nBuf tb) → BufTy
  | .hbm, ⟨0, _⟩ => ⟨S50000x32, .f32⟩
  | .hbm, ⟨1, _⟩ => ⟨S50000x3x3, .f32⟩
  | .hbm, ⟨2, _⟩ => ⟨S2x400000, .i32⟩
  | .hbm, ⟨3, _⟩ => ⟨S32x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S2x256x128, .f32⟩
  | .hbm, ⟨8, _⟩ => ⟨S2x128, .f32⟩
  | .hbm, ⟨9, _⟩ => ⟨S2x128x128, .f32⟩
  | .hbm, ⟨10, _⟩ => ⟨S2x128, .f32⟩
  | .hbm, ⟨11, _⟩ => ⟨S2x128x128, .f32⟩
  | .hbm, ⟨12, _⟩ => ⟨S2x128, .f32⟩
  | .hbm, ⟨13, _⟩ => ⟨S2x128x128, .f32⟩
  | .hbm, ⟨14, _⟩ => ⟨S2x128, .f32⟩
  | .hbm, ⟨15, _⟩ => ⟨S2x128x128, .f32⟩
  | .hbm, ⟨16, _⟩ => ⟨S2x128, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S1x128, .f32⟩
  | .hbm, ⟨22, _⟩ => ⟨S50000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x128, .f32⟩
  | .hbm, ⟨41, _⟩ => ⟨S1x128x128, .f32⟩
  | .hbm, ⟨42, _⟩ => ⟨S128x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S400000x128, .f32⟩
  | .hbm, ⟨59, _⟩ => ⟨S_, .f32⟩
  | .hbm, ⟨60, _⟩ => ⟨S50000x128, .f32⟩
  | .hbm, ⟨61, _⟩ => ⟨S400000x1, .i32⟩
  | .hbm, ⟨62, _⟩ => ⟨S50000x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S50000x128, .f32⟩
  | .hbm, ⟨74, _⟩ => ⟨S_, .i32⟩
  | .hbm, ⟨75, _⟩ => ⟨S400000, .i32⟩
  | .hbm, ⟨76, _⟩ => ⟨S400000, .i1⟩
  | .hbm, ⟨77, _⟩ => ⟨S_, .i32⟩
  | .hbm, ⟨78, _⟩ => ⟨S400000, .i32⟩
  | .hbm, ⟨79, _⟩ => ⟨S400000, .i32⟩
  | .hbm, ⟨80, _⟩ => ⟨S400000, .i32⟩
  | .hbm, ⟨81, _⟩ => ⟨S400000x1, .i32⟩
  | .hbm, ⟨82, _⟩ => ⟨S400000x128, .f32⟩
  | .hbm, ⟨83, _⟩ => ⟨S_, .i32⟩
  | .hbm, ⟨84, _⟩ => ⟨S400000, .i32⟩
  | .hbm, ⟨85, _⟩ => ⟨S400000, .i1⟩
  | .hbm, ⟨86, _⟩ => ⟨S_, .i32⟩
  | .hbm, ⟨87, _⟩ => ⟨S400000, .i32⟩
  | .hbm, ⟨88, _⟩ => ⟨S400000, .i32⟩
  | .hbm, ⟨89, _⟩ => ⟨S400000, .i32⟩
  | .hbm, ⟨90, _⟩ => ⟨S400000x1, .i32⟩
  | .hbm, ⟨91, _⟩ => ⟨S400000x128, .f32⟩
  | .hbm, ⟨92, _⟩ => ⟨S1x128x128, .f32⟩
  | .hbm, ⟨93, _⟩ => ⟨S128x128, .f32⟩
  | .hbm, ⟨94, _⟩ => ⟨S1x128x128, .f32⟩
  | .hbm, ⟨95, _⟩ => ⟨S128x128, .f32⟩
  | .hbm, ⟨96, _⟩ => ⟨S1x128, .f32⟩
  | .hbm, ⟨97, _⟩ => ⟨S128, .f32⟩
  | .hbm, ⟨98, _⟩ => ⟨S1x128x128, .f32⟩
  | .hbm, ⟨99, _⟩ => ⟨S128x128, .f32⟩
  | .hbm, ⟨100, _⟩ => ⟨S1x128, .f32⟩
  | .hbm, ⟨101, _⟩ => ⟨S128, .f32⟩
  | .hbm, ⟨102, _⟩ => ⟨S1x128x128, .f32⟩
  | .hbm, ⟨103, _⟩ => ⟨S128x128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S400000x128, .f32⟩
  | .hbm, ⟨110, _⟩ => ⟨S_, .f32⟩
  | .hbm, ⟨111, _⟩ => ⟨S50000x128, .f32⟩
  | .hbm, ⟨112, _⟩ => ⟨S400000x1, .i32⟩
  | .hbm, ⟨113, _⟩ => ⟨S50000x128, .f32⟩
  | .hbm, ⟨114, _⟩ => ⟨S1x128x128, .f32⟩
  | .hbm, ⟨115, _⟩ => ⟨S128x128, .f32⟩
  | .hbm, ⟨116, _⟩ => ⟨S1x128, .f32⟩
  | .hbm, ⟨117, _⟩ => ⟨S128, .f32⟩
  | .hbm, ⟨118, _⟩ => ⟨S1x128x128, .f32⟩
  | .hbm, ⟨119, _⟩ => ⟨S128x128, .f32⟩
  | .hbm, ⟨120, _⟩ => ⟨S1x128, .f32⟩
  | .hbm, ⟨121, _⟩ => ⟨S128, .f32⟩
  | .hbm, ⟨122, _⟩ => ⟨S1x128, .f32⟩
  | .hbm, ⟨123, _⟩ => ⟨S1x128, .f32⟩
  | .hbm, ⟨124, _⟩ => ⟨S50000x128, .f32⟩
  | .hbm, ⟨125, _⟩ => ⟨S1x16, .f32⟩
  | .hbm, ⟨126, _⟩ => ⟨S50000x16, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x16, .f32⟩
  | .local _ .vmem, ⟨51, _⟩ => ⟨S1x16, .f32⟩
  | .local _ .vmem, ⟨52, _⟩ => ⟨S5000x16, .f32⟩
  | .local _ .vmem, ⟨53, _⟩ => ⟨S5000x16, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_3 : Ref sig .tc := ⟨.hbm, 74, rfl⟩
abbrev main_v52 : Ref sig .tc := ⟨.hbm, 75, rfl⟩
abbrev main_v53 : Ref sig .tc := ⟨.hbm, 76, rfl⟩
abbrev main_c_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_5 : Ref sig .tc := ⟨.hbm, 83, rfl⟩
abbrev main_v59 : Ref sig .tc := ⟨.hbm, 84, rfl⟩
abbrev main_v60 : Ref sig .tc := ⟨.hbm, 85, rfl⟩
abbrev main_c_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_7 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S400000 : S_.BroadcastsInDim S400000 (![] : Fin 0 → Fin S400000.rank)
  bcast_S400000_S400000x1_0 : S400000.BroadcastsInDim S400000x1 (![0] : Fin 1 → Fin S400000x1.rank)
  slices_S2x256x128_S1x128x128_0_0_0 : S2x256x128.Slices ![0, 0, 0] S1x128x128
  shapeCasts_S1x128x128_S128x128 : S1x128x128.ShapeCasts S128x128
  slices_S2x256x128_S1x128x128_0_128_0 : S2x256x128.Slices ![0, 128, 0] S1x128x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  bcast_S_S50000x128 : S_.BroadcastsInDim S50000x128 (![] : Fin 0 → Fin S50000x128.rank)
  shapeCasts_S5000x128_S5000x128 : S5000x128.ShapeCasts S5000x128
  slices_S2x256x128_S1x128x128_1_0_0 : S2x256x128.Slices ![1, 0, 0] S1x128x128
  slices_S2x256x128_S1x128x128_1_128_0 : S2x256x128.Slices ![1, 128, 0] S1x128x128
  slices_S2x128_S1x128_1_0 : S2x128.Slices ![1, 0] S1x128
  slices_S2x128x128_S1x128x128_1_0_0 : S2x128x128.Slices ![1, 0, 0] S1x128x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S5000x32_S32x128_S5000x128_1_0_0_1_n_n_wf : DotDims.WF S5000x32 S32x128 S5000x128 [1] [0] [0] [1] [] []
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  scatter_S50000x128_S400000x1_S400000x128_1_0_0_1_wf : ScatterDims.WF S50000x128 S400000x1 S400000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .f32 = 32 ∨ (Rect.block (s := S400000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .f32 = 32 ∨ (Rect.block (s := S400000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S400000x128.size a
  hwx1_9 : ∀ i : grid1.Coords, EltTy.bits .f32 = 32 ∨ (Rect.block (s := S400000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S400000x128.size a
  hwx3_0 : ∀ i : grid3.Coords, EltTy.bits .f32 = 32 ∨ (Rect.block (s := S400000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S400000x128.size a
  hwx3_1 : ∀ i : grid3.Coords, EltTy.bits .f32 = 32 ∨ (Rect.block (s := S400000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S400000x128.size a
  hwx3_9 : ∀ i : grid3.Coords, EltTy.bits .f32 = 32 ∨ (Rect.block (s := S400000x128) S4000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x16.size a ≤ S128x16.size a
  hwx5_1 : ∀ i : grid5.Coords, EltTy.bits .f32 = 32 ∨ (Rect.block (s := S128x16) S128x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S50000x16.size a
  hwx5_3 : ∀ i : grid5.Coords, EltTy.bits .f32 = 32 ∨ (Rect.block (s := S50000x16) S5000x16.size (cc5_transform_3 i) (hinb5_3 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v82) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S4000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v86) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v97) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S128x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S5000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x32 : Shape := ⟨2, ![50000, 32]⟩
abbrev S50000x3x3 : Shape := ⟨3, ![50000, 3, 3]⟩
abbrev S2x400000 : Shape := ⟨2, ![2, 400000]⟩
abbrev S32x128 : Shape := ⟨2, ![32, 128]⟩
abbrev S128 : Shape := ⟨1, ![128]⟩
abbrev S128x16 : Shape := ⟨2, ![128, 16]⟩
abbrev S16 : Shape := ⟨1, ![16]⟩
abbrev S2x256x128 : Shape := ⟨3, ![2, 256, 128]⟩
abbrev S2x128 : Shape := ⟨2, ![2, 128]⟩
abbrev S2x128x128 : Shape := ⟨3, ![2, 128, 128]⟩
abbrev S1x400000 : Shape := ⟨2, ![1, 400000]⟩
abbrev S400000 : Shape := ⟨1, ![400000]⟩
abbrev S50000x128 : Shape := ⟨2, ![50000, 128]⟩
abbrev S1x128 : Shape := ⟨2, ![1, 128]⟩
abbrev S_ : Shape := ⟨0, ![]⟩
abbrev S400000x1 : Shape := ⟨2, ![400000, 1]⟩
abbrev S400000x128 : Shape := ⟨2, ![400000, 128]⟩
abbrev S400000x256 : Shape := ⟨2, ![400000, 256]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S50000x16 : Shape := ⟨2, ![50000, 16]⟩
abbrev S1x16 : Shape := ⟨2, ![1, 16]⟩

abbrev nBuf : Space → Nat
  | .hbm => 173
  | .vmem => 0
  | .smem => 0
  | _ => 0

abbrev hbmTy0_0 (i : Nat) : BufTy := match i % 128 with
  | 0 => ⟨S50000x32, .f32⟩
  | 1 => ⟨S50000x3x3, .f32⟩
  | 2 => ⟨S2x400000, .i32⟩
  | 3 => ⟨S32x128, .f32⟩
  | 4 => ⟨S128, .f32⟩
  | 5 => ⟨S128x16, .f32⟩
  | 6 => ⟨S16, .f32⟩
  | 7 => ⟨S2x256x128, .f32⟩
  | 8 => ⟨S2x128, .f32⟩
  | 9 => ⟨S2x128x128, .f32⟩
  | 10 => ⟨S2x128, .f32⟩
  | 11 => ⟨S2x128x128, .f32⟩
  | 12 => ⟨S2x128, .f32⟩
  | 13 => ⟨S2x128x128, .f32⟩
  | 14 => ⟨S2x128, .f32⟩
  | 15 => ⟨S2x128x128, .f32⟩
  | 16 => ⟨S2x128, .f32⟩
  | 17 => ⟨S1x400000, .i32⟩
  | 18 => ⟨S400000, .i32⟩
  | 19 => ⟨S1x400000, .i32⟩
  | 20 => ⟨S400000, .i32⟩
  | 21 => ⟨S50000x128, .f32⟩
  | 22 => ⟨S1x128, .f32⟩
  | 23 => ⟨S50000x128, .f32⟩
  | 24 => ⟨S50000x128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x128, .f32⟩
  | 43 => ⟨S400000x256, .f32⟩
  | 44 => ⟨S1x256x128, .f32⟩
  | 45 => ⟨S256x128, .f32⟩
  | 46 => ⟨S400000x128, .f32⟩
  | 47 => ⟨S1x128, .f32⟩
  | 48 => ⟨S128, .f32⟩
  | 49 => ⟨S1x128, .f32⟩
  | 50 => ⟨S400000x128, .f32⟩
  | 51 => ⟨S400000x128, .f32⟩
  | 52 => ⟨S_, .f32⟩
  | 53 => ⟨S400000x128, .f32⟩
  | 54 => ⟨S400000x128, .f32⟩
  | 55 => ⟨S1x128x128, .f32⟩
  | 56 => ⟨S128x128, .f32⟩
  | 57 => ⟨S400000x128, .f32⟩
  | 58 => ⟨S1x128, .f32⟩
  | 59 => ⟨S128, .f32⟩
  | 60 => ⟨S1x128, .f32⟩
  | 61 => ⟨S400000x128, .f32⟩
  | 62 => ⟨S400000x128, .f32⟩
  | 63 => ⟨S_, .f32⟩
  | 64 => ⟨S400000x128, .f32⟩
  | 65 => ⟨S400000x128, .f32⟩
  | 66 => ⟨S1x128x128, .f32⟩
  | 67 => ⟨S128x128, .f32⟩
  | 68 => ⟨S400000x128, .f32⟩
  | 69 => ⟨S1x128, .f32⟩
  | 70 => ⟨S128, .f32⟩
  | 71 => ⟨S1x128, .f32⟩
  | 72 => ⟨S400000x128, .f32⟩
  | 73 => ⟨S400000x128, .f32⟩
  | 74 => ⟨S_, .f32⟩
  | 75 => ⟨S50000x128, .f32⟩
  | 76 => ⟨S400000x1, .i32⟩
  | 77 => ⟨S50000x128, .f32⟩
  | 78 => ⟨S1x128x128, .f32⟩
  | 79 => ⟨S128x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000x128, .f32⟩
  | 115 => ⟨S400000x256, .f32⟩
  | 116 => ⟨S1x256x128, .f32⟩
  | 117 => ⟨S256x128, .f32⟩
  | 118 => ⟨S400000x128, .f32⟩
  | 119 => ⟨S1x128, .f32⟩
  | 120 => ⟨S128, .f32⟩
  | 121 => ⟨S1x128, .f32⟩
  | 122 => ⟨S400000x128, .f32⟩
  | 123 => ⟨S400000x128, .f32⟩
  | 124 => ⟨S_, .f32⟩
  | 125 => ⟨S400000x128, .f32⟩
  | 126 => ⟨S400000x128, .f32⟩
  | 127 => ⟨S1x128x128, .f32⟩
  | _ => ⟨S50000x32, .f32⟩

abbrev hbmTy0_1 (i : Nat) : BufTy := match i % 128 with
  | 0 => ⟨S128x128, .f32⟩
  | 1 => ⟨S400000x128, .f32⟩
  | 2 => ⟨S1x128, .f32⟩
  | 3 => ⟨S128, .f32⟩
  | 4 => ⟨S1x128, .f32⟩
  | 5 => ⟨S400000x128, .f32⟩
  | 6 => ⟨S400000x128, .f32⟩
  | 7 => ⟨S_, .f32⟩
  | 8 => ⟨S400000x128, .f32⟩
  | 9 => ⟨S400000x128, .f32⟩
  | 10 => ⟨S1x128x128, .f32⟩
  | 11 => ⟨S128x128, .f32⟩
  | 12 => ⟨S400000x128, .f32⟩
  | 13 => ⟨S1x128, .f32⟩
  | 14 => ⟨S128, .f32⟩
  | 15 => ⟨S1x128, .f32⟩
  | 16 => ⟨S400000x128, .f32⟩
  | 17 => ⟨S400000x128, .f32⟩
  | 18 => ⟨S_, .f32⟩
  | 19 => ⟨S50000x128, .f32⟩
  | 20 => ⟨S400000x1, .i32⟩
  | 21 => ⟨S50000x128, .f32⟩
  | 22 => ⟨S1x128x128, .f32⟩
  | 23 => ⟨S128x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S50000x16, .f32⟩
  | 42 => ⟨S1x16, .f32⟩
  | 43 => ⟨S50000x16, .f32⟩
  | 44 => ⟨S50000x16, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_cst : Ref sig .tc := ⟨.hbm, 63, rfl⟩
abbrev main_call1_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_3 : Ref sig .tc := ⟨.hbm, 97, rfl⟩
abbrev main_v69 : Ref sig .tc := ⟨.hbm, 98, rfl⟩
abbrev main_v70 : Ref sig .tc := ⟨.hbm, 99, rfl⟩
abbrev main_c_4 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_5 : Ref sig .tc := ⟨.hbm, 106, rfl⟩
abbrev main_v76 : Ref sig .tc := ⟨.hbm, 107, rfl⟩
abbrev main_v77 : Ref sig .tc := ⟨.hbm, 108, rfl⟩
abbrev main_c_6 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call3_cst : Ref sig .tc := ⟨.hbm, 124, rfl⟩
abbrev main_call3_v0 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_call4_cst : Ref sig .tc := ⟨.hbm, 135, rfl⟩
abbrev main_call4_v0 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_7 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_call5_cst : Ref sig .tc := ⟨.hbm, 158, rfl⟩
abbrev main_call5_v0 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  slices_S2x256x128_S1x256x128_0_0_0 : S2x256x128.Slices ![0, 0, 0] S1x256x128
  shapeCasts_S1x256x128_S256x128 : S1x256x128.ShapeCasts S256x128
  slices_S2x128_S1x128_0_0 : S2x128.Slices ![0, 0] S1x128
  shapeCasts_S1x128_S128 : S1x128.ShapeCasts S128
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S2x128x128_S1x128x128_0_0_0 : S2x128x128.Slices ![0, 0, 0] S1x128x128
  shapeCasts_S1x128x128_S128x128 : S1x128x128.ShapeCasts S128x128
  bcast_S_S50000x128 : S_.BroadcastsInDim S50000x128 (![] : Fin 0 → Fin S50000x128.rank)
  slices_S2x256x128_S1x256x128_1_0_0 : S2x256x128.Slices ![1, 0, 0] S1x256x128
  slices_S2x128_S1x128_1_0 : S2x128.Slices ![1, 0] S1x128
  slices_S2x128x128_S1x128x128_1_0_0 : S2x128x128.Slices ![1, 0, 0] S1x128x128
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x32_S32x128_S50000x128_1_0_0_1_n_n_wf : DotDims.WF S50000x32 S32x128 S50000x128 [1] [0] [0] [1] [] []
  gather_S50000x128_S400000x1_S400000x128_1_0_n_n_0_1_1128_wf : GatherDims.WF S50000x128 S400000x1 S400000x128 [1] [0] [] [0] [] 1 ![1, 128]
  dot_S400000x256_S256x128_S400000x128_1_0_0_1_n_n_wf : DotDims.WF S400000x256 S256x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KRun.lean ====
/-
  The idealized kernel's run with its LAST memory named.

  The program is six pipelined regions among stretches of host operations. Its run is described by the contents
  of the TensorCore's buffers at every boundary between two segments: after a host stretch the contents are the
  stretch's operations applied to the contents before it, and after a region each of the region's arrays holds
  what the region's grid points wrote back while every other buffer is as it was. Folding this through the twelve
  segments gives the contents `W12` at the return. Every weakly fair execution terminates without a fault in a
  state whose unscoped buffers are exactly `W12`: that is the statement here, and both "the arguments end
  unchanged" and "the result buffer ends at `W12` of its reference" are read off it.
-/
import proofs.«146966_j79087527788652_1_alg».proof.Proof.Gen.KernelIdeal.Frame

set_option maxRecDepth 16384

noncomputable section

namespace Cert.KernelIdeal.Last

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from `m` terminates, nothing faulting, in a state where every
    unscoped buffer of every core holds the last boundary's contents `W12`. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The result buffer is among the buffers the last state names. -/
theorem result_mem : Proc.devRef .tc main_v99 ∈ Pipeline.ucRefs τ sig := mem_uc main_v99 (by decide)

end Cert.KernelIdeal.Last

end
-- ==== Proof.KEntryA.lean ====
/-
  What the buffers hold when a pipelined region is entered, part one: the buffers nothing writes, and the arrays the
  host operations build from the edge list.

  The program alternates stretches of host operations with six pipelined regions. The contents of the TensorCore's
  buffers at the boundaries are a fold from the launch memory: a host stretch rewrites the buffers its operations
  write, a region rewrites its output array. Reading a buffer at a boundary therefore walks back through the fold:
  past a region that does not own the buffer, past a stretch that does not write it, until the launch memory or the
  operation that wrote it is reached.
-/
import proofs.«146966_j79087527788652_1_alg».proof.Proof.Gen.KernelIdeal.Frame
import Idealize.ShloMosaic.Lib.Pipeline.Value
import Idealize.ShloMosaic.Lib.ValueIdx

set_option maxRecDepth 16384

noncomputable section

namespace Cert.KernelIdeal.Entry

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The goal `StableHlo.after ops V b = r` becomes `V b = r` when no operation of the stretch `ops` writes the buffer `b`:
    each operation writes one buffer, and that buffer's name differs from `b`'s. -/
macro "host_keeps " ops:ident : tactic =>
  `(tactic| refine (StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans ?_)

/-! ## Buffers that are never written, walked back to the launch memory

A region leaves every buffer that is not one of its windows' arrays as it found it, and a host stretch leaves every buffer
that none of its operations writes. The arguments are written by nothing, so at every boundary they still hold the launch
memory; the two index rows the first stretch computes are written by nothing afterwards. -/

theorem W1_main_arg0 (c : Dev nD) : W1 m ρ c (Proc.devRef .tc main_arg0) = m ((c : Thread nD τ).loc main_arg0) := by
  host_keeps hostOps0
  rfl
theorem W1_main_arg3 (c : Dev nD) : W1 m ρ c (Proc.devRef .tc main_arg3) = m ((c : Thread nD τ).loc main_arg3) := by
  host_keeps hostOps0
  rfl

theorem W2_main_arg7 (c : Dev nD) : W2 m ρ c (Proc.devRef .tc main_arg7) = m ((c : Thread nD τ).loc main_arg7) := by
  refine (W2_of_ne m ρ c main_arg7 (by decide)).trans ?_
  host_keeps hostOps0
  rfl
theorem W6_main_arg7 (c : Dev nD) : W6 m ρ c (Proc.devRef .tc main_arg7) = m ((c : Thread nD τ).loc main_arg7) := by
  refine (W6_of_ne m ρ c main_arg7 (by decide)).trans ?_
  host_keeps hostOps2
  refine (W4_of_ne m ρ c main_arg7 (by decide)).trans ?_
  host_keeps hostOps1
  exact W2_main_arg7 m ρ c
theorem W2_main_arg8 (c : Dev nD) : W2 m ρ c (Proc.devRef .tc main_arg8) = m ((c : Thread nD τ).loc main_arg8) := by
  refine (W2_of_ne m ρ c main_arg8 (by decide)).trans ?_
  host_keeps hostOps0
  rfl
theorem W6_main_arg8 (c : Dev nD) : W6 m ρ c (Proc.devRef .tc main_arg8) = m ((c : Thread nD τ).loc main_arg8) := by
  refine (W6_of_ne m ρ c main_arg8 (by decide)).trans ?_
  host_keeps hostOps2
  refine (W4_of_ne m ρ c main_arg8 (by decide)).trans ?_
  host_keeps hostOps1
  exact W2_main_arg8 m ρ c
theorem W2_main_arg9 (c : Dev nD) : W2 m ρ c (Proc.devRef .tc main_arg9) = m ((c : Thread nD τ).loc main_arg9) := by
  refine (W2_of_ne m ρ c main_arg9 (by decide)).trans ?_
  host_keeps hostOps0
  rfl
theorem W6_main_arg9 (c : Dev nD) : W6 m ρ c (Proc.devRef .tc main_arg9) = m ((c : Thread nD τ).loc main_arg9) := by
  refine (W6_of_ne m ρ c main_arg9 (by decide)).trans ?_
  host_keeps hostOps2
  refine (W4_of_ne m ρ c main_arg9 (by decide)).trans ?_
  host_keeps hostOps1
  exact W2_main_arg9 m ρ c
theorem W2_main_arg10 (c : Dev nD) : W2 m ρ c (Proc.devRef .tc main_arg10) = m ((c : Thread nD τ).loc main_arg10) := by
  refine (W2_of_ne m ρ c main_arg10 (by decide)).trans ?_
  host_keeps hostOps0
  rfl
theorem W6_main_arg10 (c : Dev nD) : W6 m ρ c (Proc.devRef .tc main_arg10) = m ((c : Thread nD τ).loc main_arg10) := by
  refine (W6_of_ne m ρ c main_arg10 (by decide)).trans ?_
  host_keeps hostOps2
  refine (W4_of_ne m ρ c main_arg10 (by decide)).trans ?_
  host_keeps hostOps1
  exact W2_main_arg10 m ρ c
theorem W2_main_arg11 (c : Dev nD) : W2 m ρ c (Proc.devRef .tc main_arg11) = m ((c : Thread nD τ).loc main_arg11) := by
  refine (W2_of_ne m ρ c main_arg11 (by decide)).trans ?_
  host_keeps hostOps0
  rfl
theorem W6_main_arg11 (c : Dev nD) : W6 m ρ c (Proc.devRef .tc main_arg11) = m ((c : Thread nD τ).loc main_arg11) := by
  refine (W6_of_ne m ρ c main_arg11 (by decide)).trans ?_
  host_keeps hostOps2
  refine (W4_of_ne m ρ c main_arg11 (by decide)).trans ?_
  host_keeps hostOps1
  exact W2_main_arg11 m ρ c
theorem W2_main_arg12 (c : Dev nD) : W2 m ρ c (Proc.devRef .tc main_arg12) = m ((c : Thread nD τ).loc main_arg12) := by
  refine (W2_of_ne m ρ c main_arg12 (by decide)).trans ?_
  host_keeps hostOps0
  rfl
theorem W6_main_arg12 (c : Dev nD) : W6 m ρ c (Proc.devRef .tc main_arg12) = m ((c : Thread nD τ).loc main_arg12) := by
  refine (W6_of_ne m ρ c main_arg12 (by decide)).trans ?_
  host_keeps hostOps2
  refine (W4_of_ne m ρ c main_arg12 (by decide)).trans ?_
  host_keeps hostOps1
  exact W2_main_arg12 m ρ c

theorem W4_main_arg13 (c : Dev nD) : W4 m ρ c (Proc.devRef .tc main_arg13) = m ((c : Thread nD τ).loc main_arg13) := by
  refine (W4_of_ne m ρ c main_arg13 (by decide)).trans ?_
  host_keeps hostOps1
  refine (W2_of_ne m ρ c main_arg13 (by decide)).trans ?_
  host_keeps hostOps0
  rfl
theorem W8_main_arg13 (c : Dev nD) : W8 m ρ c (Proc.devRef .tc main_arg13) = m ((c : Thread nD τ).loc main_arg13) := by
  refine (W8_of_ne m ρ c main_arg13 (by decide)).trans ?_
  host_keeps hostOps3
  refine (W6_of_ne m ρ c main_arg13 (by decide)).trans ?_
  host_keeps hostOps2
  exact W4_main_arg13 m ρ c
theorem W4_main_arg14 (c : Dev nD) : W4 m ρ c (Proc.devRef .tc main_arg14) = m ((c : Thread nD τ).loc main_arg14) := by
  refine (W4_of_ne m ρ c main_arg14 (by decide)).trans ?_
  host_keeps hostOps1
  refine (W2_of_ne m ρ c main_arg14 (by decide)).trans ?_
  host_keeps hostOps0
  rfl
theorem W8_main_arg14 (c : Dev nD) : W8 m ρ c (Proc.devRef .tc main_arg14) = m ((c : Thread nD τ).loc main_arg14) := by
  refine (W8_of_ne m ρ c main_arg14 (by decide)).trans ?_
  host_keeps hostOps3
  refine (W6_of_ne m ρ c main_arg14 (by decide)).trans ?_
  host_keeps hostOps2
  exact W4_main_arg14 m ρ c
theorem W4_main_arg15 (c : Dev nD) : W4 m ρ c (Proc.devRef .tc main_arg15) = m ((c : Thread nD τ).loc main_arg15) := by
  refine (W4_of_ne m ρ c main_arg15 (by decide)).trans ?_
  host_keeps hostOps1
  refine (W2_of_ne m ρ c main_arg15 (by decide)).trans ?_
  host_keeps hostOps0
  rfl
theorem W8_main_arg15 (c : Dev nD) : W8 m ρ c (Proc.devRef .tc main_arg15) = m ((c : Thread nD τ).loc main_arg15) := by
  refine (W8_of_ne m ρ c main_arg15 (by decide)).trans ?_
  host_keeps hostOps3
  refine (W6_of_ne m ρ c main_arg15 (by decide)).trans ?_
  host_keeps hostOps2
  exact W4_main_arg15 m ρ c
theorem W4_main_arg16 (c : Dev nD) : W4 m ρ c (Proc.devRef .tc main_arg16) = m ((c : Thread nD τ).loc main_arg16) := by
  refine (W4_of_ne m ρ c main_arg16 (by decide)).trans ?_
  host_keeps hostOps1
  refine (W2_of_ne m ρ c main_arg16 (by decide)).trans ?_
  host_keeps hostOps0
  rfl
theorem W8_main_arg16 (c : Dev nD) : W8 m ρ c (Proc.devRef .tc main_arg16) = m ((c : Thread nD τ).loc main_arg16) := by
  refine (W8_of_ne m ρ c main_arg16 (by decide)).trans ?_
  host_keeps hostOps3
  refine (W6_of_ne m ρ c main_arg16 (by decide)).trans ?_
  host_keeps hostOps2
  exact W4_main_arg16 m ρ c

theorem W10_main_arg5 (c : Dev nD) : W10 m ρ c (Proc.devRef .tc main_arg5) = m ((c : Thread nD τ).loc main_arg5) := by
  refine (W10_of_ne m ρ c main_arg5 (by decide)).trans ?_
  host_keeps hostOps4
  refine (W8_of_ne m ρ c main_arg5 (by decide)).trans ?_
  host_keeps hostOps3
  refine (W6_of_ne m ρ c main_arg5 (by decide)).trans ?_
  host_keeps hostOps2
  refine (W4_of_ne m ρ c main_arg5 (by decide)).trans ?_
  host_keeps hostOps1
  refine (W2_of_ne m ρ c main_arg5 (by decide)).trans ?_
  host_keeps hostOps0
  rfl
theorem W10_main_arg6 (c : Dev nD) : W10 m ρ c (Proc.devRef .tc main_arg6) = m ((c : Thread nD τ).loc main_arg6) := by
  refine (W10_of_ne m ρ c main_arg6 (by decide)).trans ?_
  host_keeps hostOps4
  refine (W8_of_ne m ρ c main_arg6 (by decide)).trans ?_
  host_keeps hostOps3
  refine (W6_of_ne m ρ c main_arg6 (by decide)).trans ?_
  host_keeps hostOps2
  refine (W4_of_ne m ρ c main_arg6 (by decide)).trans ?_
  host_keeps hostOps1
  refine (W2_of_ne m ρ c main_arg6 (by decide)).trans ?_
  host_keeps hostOps0
  rfl

/-! The two rows of the edge list, computed once by the first stretch and read by the later ones. -/

theorem W2_main_v1 (c : Dev nD) : W2 m ρ c (Proc.devRef .tc main_v1) = W1 m ρ c (Proc.devRef .tc main_v1) := by
  exact W2_of_ne m ρ c main_v1 (by decide)
theorem W6_main_v1 (c : Dev nD) : W6 m ρ c (Proc.devRef .tc main_v1) = W1 m ρ c (Proc.devRef .tc main_v1) := by
  refine (W6_of_ne m ρ c main_v1 (by decide)).trans ?_
  host_keeps hostOps2
  refine (W4_of_ne m ρ c main_v1 (by decide)).trans ?_
  host_keeps hostOps1
  exact W2_main_v1 m ρ c
theorem W2_main_v3 (c : Dev nD) : W2 m ρ c (Proc.devRef .tc main_v3) = W1 m ρ c (Proc.devRef .tc main_v3) := by
  exact W2_of_ne m ρ c main_v3 (by decide)
theorem W4_main_v3 (c : Dev nD) : W4 m ρ c (Proc.devRef .tc main_v3) = W1 m ρ c (Proc.devRef .tc main_v3) := by
  refine (W4_of_ne m ρ c main_v3 (by decide)).trans ?_
  host_keeps hostOps1
  exact W2_main_v3 m ρ c
theorem W6_main_v3 (c : Dev nD) : W6 m ρ c (Proc.devRef .tc main_v3) = W1 m ρ c (Proc.devRef .tc main_v3) := by
  refine (W6_of_ne m ρ c main_v3 (by decide)).trans ?_
  host_keeps hostOps2
  exact W4_main_v3 m ρ c
theorem W8_main_v3 (c : Dev nD) : W8 m ρ c (Proc.devRef .tc main_v3) = W1 m ρ c (Proc.devRef .tc main_v3) := by
  refine (W8_of_ne m ρ c main_v3 (by decide)).trans ?_
  host_keeps hostOps3
  exact W6_main_v3 m ρ c

/-- The first stretch cuts the edge list into its two rows. -/
theorem W1_main_v1 (c : Dev nD) : W1 m ρ c (Proc.devRef .tc main_v1)
    = shapeCast S400000 (extractStridedSlice S1x400000 ![0, 0] (m ((c : Thread nD τ).loc main_arg2)) slices_S2x400000_S1x400000_0_0) shapeCasts_S1x400000_S400000 := by
  show StableHlo.after hostOps0 (W0 m ρ c) (Proc.devRef .tc main_v1) = _
  after_results
  rfl
theorem W1_main_v3 (c : Dev nD) : W1 m ρ c (Proc.devRef .tc main_v3)
    = shapeCast S400000 (extractStridedSlice S1x400000 ![1, 0] (m ((c : Thread nD τ).loc main_arg2)) slices_S2x400000_S1x400000_1_0) shapeCasts_S1x400000_S400000 := by
  show StableHlo.after hostOps0 (W0 m ρ c) (Proc.devRef .tc main_v3) = _
  after_results
  rfl

end Cert.KernelIdeal.Entry

end
-- ==== Proof.KEntryB.lean ====
/-
  What the buffers hold when a pipelined region is entered, part two: the arrays the host operations build from the
  edge list, and the gathered and scattered arrays the layers' regions read.
-/
import proofs.«146966_j79087527788652_1_alg».proof.Proof.KEntryA
import Idealize.ShloMosaic.Lib.Pipeline.Value
import Idealize.ShloMosaic.Lib.ValueIdx

set_option maxRecDepth 16384

noncomputable section

namespace Cert.KernelIdeal.Entry

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The arrays the host operations build from the edge list

Which rows a gather reads and where a scatter adds depends on the integer edge list only. The index arrays are written
here as functions of the edge list, operation by operation as the host stretches compute them: a row of the list, a
negative entry moved up by the number of nodes, the result set as a column. They are never opened: both layers use the
same three arrays, and that is all the comparison needs. -/

/-- The contents of the edge list, of one of its rows, and of a column of row indices. -/
abbrev Edges := (⟨S2x400000, .i32⟩ : BufTy).Contents (Elt Ideal)
abbrev EdgeRow := (⟨S400000, .i32⟩ : BufTy).Contents (Elt Ideal)
abbrev EdgeCol := (⟨S400000x1, .i32⟩ : BufTy).Contents (Elt Ideal)

/-- Row 0 of the edge list (the sources) and row 1 (the targets). -/
def row0 (e : Edges) : EdgeRow :=
  shapeCast S400000 (extractStridedSlice S1x400000 ![0, 0] e slices_S2x400000_S1x400000_0_0) shapeCasts_S1x400000_S400000
def row1 (e : Edges) : EdgeRow :=
  shapeCast S400000 (extractStridedSlice S1x400000 ![1, 0] e slices_S2x400000_S1x400000_1_0) shapeCasts_S1x400000_S400000

/-- A row with every negative entry moved up by 50000, set as a column: the start indices of a gather. -/
def wrapCol (v : EdgeRow) : EdgeCol :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 50000#32))) v)

/-- The gather indices of the edges' sources and of their targets, and the scatter indices of their targets. -/
def srcIdx (e : Edges) : EdgeCol := wrapCol (row0 e)
def dstIdx (e : Edges) : EdgeCol := wrapCol (row1 e)
def dstRaw (e : Edges) : EdgeCol := broadcastInDim S400000x1 ![0] bcast_S400000_S400000x1_0 (row1 e)

/-- The all-zero array a scatter adds into. -/
def zeros : FVec Ideal S50000x128 .f32 :=
  broadcastInDim S50000x128 ![] bcast_S_S50000x128 (constant (F := Ideal) S_ .f32 0x00000000#32)

theorem W1_main_v1_row (c : Dev nD) : W1 m ρ c (Proc.devRef .tc main_v1) = row0 (m ((c : Thread nD τ).loc main_arg2)) :=
  W1_main_v1 m ρ c
theorem W1_main_v3_row (c : Dev nD) : W1 m ρ c (Proc.devRef .tc main_v3) = row1 (m ((c : Thread nD τ).loc main_arg2)) :=
  W1_main_v3 m ρ c

/-- Layer 0 gathers the rows of the input projection's result at the sources … -/
theorem V3_main_v12 (c : Dev nD) : V3 m ρ c main_v12
    = Host.gather gather_S50000x128_S400000x1_S400000x128_1_0_n_n_0_1_1128 (W2 m ρ c (Proc.devRef .tc main_v5))
        (srcIdx (m ((c : Thread nD τ).loc main_arg2))) := by
  show StableHlo.after hostOps1 (W2 m ρ c) (Proc.devRef .tc main_v12) = _
  after_results
  rw [W2_main_v1, W1_main_v1_row]
  rfl
/-- … and at the targets. -/
theorem V3_main_v19 (c : Dev nD) : V3 m ρ c main_v19
    = Host.gather gather_S50000x128_S400000x1_S400000x128_1_0_n_n_0_1_1128 (W2 m ρ c (Proc.devRef .tc main_v5))
        (dstIdx (m ((c : Thread nD τ).loc main_arg2))) := by
  show StableHlo.after hostOps1 (W2 m ρ c) (Proc.devRef .tc main_v19) = _
  after_results_simp
  rw [W2_main_v3, W1_main_v3_row]
  rfl
/-- Layer 0 adds its edge messages into the zero array at the targets. -/
theorem V5_main_v40 (c : Dev nD) : V5 m ρ c main_v40
    = Host.scatterAdd (F := Ideal) (φ := .f32) scatter_S50000x128_S400000x1_S400000x128_1_0_0_1 zeros (dstRaw (m ((c : Thread nD τ).loc main_arg2)))
        (W4 m ρ c (Proc.devRef .tc main_v37)) := by
  show StableHlo.after hostOps2 (W4 m ρ c) (Proc.devRef .tc main_v40) = _
  after_results
  rw [W4_main_v3, W1_main_v3_row]
  rfl
/-- Layer 1 gathers the rows of layer 0's result with the same index arrays … -/
theorem V7_main_v58 (c : Dev nD) : V7 m ρ c main_v58
    = Host.gather gather_S50000x128_S400000x1_S400000x128_1_0_n_n_0_1_1128 (W6 m ρ c (Proc.devRef .tc main_v51))
        (srcIdx (m ((c : Thread nD τ).loc main_arg2))) := by
  show StableHlo.after hostOps3 (W6 m ρ c) (Proc.devRef .tc main_v58) = _
  after_results_simp
  rw [W6_main_v1, W1_main_v1_row]
  rfl
theorem V7_main_v65 (c : Dev nD) : V7 m ρ c main_v65
    = Host.gather gather_S50000x128_S400000x1_S400000x128_1_0_n_n_0_1_1128 (W6 m ρ c (Proc.devRef .tc main_v51))
        (dstIdx (m ((c : Thread nD τ).loc main_arg2))) := by
  show StableHlo.after hostOps3 (W6 m ρ c) (Proc.devRef .tc main_v65) = _
  after_results_simp
  rw [W6_main_v3, W1_main_v3_row]
  rfl
/-- … and adds its edge messages at the same targets. -/
theorem V9_main_v86 (c : Dev nD) : V9 m ρ c main_v86
    = Host.scatterAdd (F := Ideal) (φ := .f32) scatter_S50000x128_S400000x1_S400000x128_1_0_0_1 zeros (dstRaw (m ((c : Thread nD τ).loc main_arg2)))
        (W8 m ρ c (Proc.devRef .tc main_v83)) := by
  show StableHlo.after hostOps4 (W8 m ρ c) (Proc.devRef .tc main_v86) = _
  after_results
  rw [W8_main_v3, W1_main_v3_row]
  rfl
/-- The last stretch leaves layer 1's result where the last region reads it. -/
theorem V11_main_v97 (c : Dev nD) : V11 m ρ c main_v97 = W10 m ρ c (Proc.devRef .tc main_v97) := by
  show StableHlo.after hostOps5 (W10 m ρ c) (Proc.devRef .tc main_v97) = _
  host_keeps hostOps5
  rfl

end Cert.KernelIdeal.Entry

end
-- ==== Proof.Spec.lean ====
/-
  The function both programs compute, stated once over plain coordinates and importing neither program.

  A node feature matrix is sent through an input projection, two message-passing layers and an output projection.
  Every dense stage is an AFFINE MAP applied row by row: entry `j` of the image of a row `x` is
  `∑ k, x k * w k j + b j` on the extended reals. A layer gathers, for every edge, the feature rows of its two
  end points, sends the pair through a three-stage perceptron whose first stage acts on the two rows laid side by
  side, adds the edge messages into their target nodes, and sends each node's total through a two-stage perceptron.

  The first stage of the edge perceptron is where the two programs are arranged differently: one lays the two rows
  side by side (256 numbers) and takes ONE sum over 256 products against the whole weight matrix; the other takes
  the sum over the first 128 rows of the weights against the first row and the sum over the last 128 against the
  second, and adds. A finite sum over `Fin 256` splits into the sums over its two halves in any commutative monoid,
  so the two agree on the extended reals with no finiteness asked (`sum_halves`, `affine_halves`).

  Which rows are gathered and where messages are added depends on the integer edge list only; both programs use
  the same host operations for it, so the three maps are carried as parameters (`Graph`) and never opened.
-/
import Idealize.ShloMosaic.PureOps.Ideal
import Idealize.ShloMosaic.Lib.ValueIdx

noncomputable section

namespace Cert.GraphNet

open Idealize.ShloMosaic Idealize.ShloMosaic.ValueIdx

/-- Arrays of extended reals over literal shapes of rank one, two and three. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal

/-- A rank-two array from its entries by coordinates; `toArr f (ix2 r j) = f r j` by definition. -/
def toArr {M N : Nat} (f : Fin M → Fin N → EReal) : Arr2 M N := fun i => f (i 0) (i 1)

theorem toArr_ix2 {M N : Nat} (f : Fin M → Fin N → EReal) (r : Fin M) (j : Fin N) : toArr f (ix2 r j) = f r j := rfl

/-- An array is determined by its entries at `ix2 r j`. -/
theorem arr2_ext {M N : Nat} (A : Arr2 M N) (f : Fin M → Fin N → EReal) (h : ∀ r j, A (ix2 r j) = f r j) : A = toArr f := by
  funext i
  rw [eq_ix2 i]
  exact h (i 0) (i 1)

/-- The zero both programs compare against in their rectifiers: the all-zero 32-bit float word. -/
def zero : EReal := Ideal.ofBits .f32 0x00000000#32

/-- The rectifier. -/
def relu (v : EReal) : EReal := max v zero

/-- Entry `j` of the affine image of a row: `∑ k, x k * w k j + b j`. -/
def affine {K N : Nat} (x : Fin K → EReal) (w : Fin K → Fin N → EReal) (b : Fin N → EReal) (j : Fin N) : EReal :=
  ∑ k : Fin K, x k * w k j + b j

/-- The first and the second half of `Fin 256`. -/
def lo (k : Fin 128) : Fin 256 := ⟨k.val, by omega⟩
def hi (k : Fin 128) : Fin 256 := ⟨128 + k.val, by omega⟩

/-- Two rows of 128 laid side by side. -/
def beside (u v : Fin 128 → EReal) (k : Fin 256) : EReal :=
  if h : k.val < 128 then u ⟨k.val, h⟩ else v ⟨k.val - 128, by omega⟩

theorem beside_lo (u v : Fin 128 → EReal) (k : Fin 128) : beside u v (lo k) = u k := by
  unfold beside lo
  rw [dif_pos (show (⟨k.val, _⟩ : Fin 256).val < 128 from k.isLt)]

theorem beside_hi (u v : Fin 128 → EReal) (k : Fin 128) : beside u v (hi k) = v k := by
  unfold beside hi
  rw [dif_neg (show ¬ (⟨128 + k.val, _⟩ : Fin 256).val < 128 from by simp)]
  exact congrArg v (Fin.ext (by simp))

/-- A sum over `Fin 256` is the sum over its first half plus the sum over its second half: only commutativity and
    associativity of addition, so it holds on the extended reals as on any commutative monoid. -/
theorem sum_halves {M : Type*} [AddCommMonoid M] (f : Fin 256 → M) :
    ∑ k : Fin 256, f k = ∑ k : Fin 128, f (lo k) + ∑ k : Fin 128, f (hi k) :=
  Fin.sum_univ_add (a := 128) (b := 128) f

/-- The affine image of two rows laid side by side is the first row against the upper half of the weights plus the
    second row against the lower half, plus the bias. -/
theorem affine_halves {N : Nat} (u v : Fin 128 → EReal) (w : Fin 256 → Fin N → EReal) (b : Fin N → EReal) (j : Fin N) :
    affine (beside u v) w b j
      = ∑ k : Fin 128, u k * w (lo k) j + ∑ k : Fin 128, v k * w (hi k) j + b j := by
  unfold affine
  rw [sum_halves]
  simp only [beside_lo, beside_hi]

/-- The edge perceptron on the rows of an edge's two end points: the split first stage, the rectifier, a second
    affine stage, the rectifier, a third affine stage. -/
def edge (xj xi : Fin 128 → EReal) (wt wb : Fin 128 → Fin 128 → EReal) (b1 : Fin 128 → EReal)
    (w2 : Fin 128 → Fin 128 → EReal) (b2 : Fin 128 → EReal) (w3 : Fin 128 → Fin 128 → EReal) (b3 : Fin 128 → EReal) :
    Fin 128 → EReal :=
  affine (fun j => relu (affine (fun j => relu (∑ k : Fin 128, xj k * wt k j + ∑ k : Fin 128, xi k * wb k j + b1 j)) w2 b2 j)) w3 b3

/-- The node perceptron on a node's total message: affine, rectifier, affine. -/
def node (a : Fin 128 → EReal) (w1 : Fin 128 → Fin 128 → EReal) (b1 : Fin 128 → EReal)
    (w2 : Fin 128 → Fin 128 → EReal) (b2 : Fin 128 → EReal) : Fin 128 → EReal :=
  affine (fun j => relu (affine a w1 b1 j)) w2 b2

/-- The edge perceptron with its first stage written as ONE affine map of the two rows laid side by side. -/
theorem edge_of_beside (xj xi : Fin 128 → EReal) (w1 : Fin 256 → Fin 128 → EReal) (b1 : Fin 128 → EReal)
    (w2 : Fin 128 → Fin 128 → EReal) (b2 : Fin 128 → EReal) (w3 : Fin 128 → Fin 128 → EReal) (b3 : Fin 128 → EReal) :
    affine (fun j => relu (affine (fun j => relu (affine (beside xj xi) w1 b1 j)) w2 b2 j)) w3 b3
      = edge xj xi (fun k j => w1 (lo k) j) (fun k j => w1 (hi k) j) b1 w2 b2 w3 b3 := by
  unfold edge
  simp only [affine_halves]

/-- The three host maps that depend on the edge list only: the feature rows of every edge's source, those of its
    target, and the addition of edge messages into their target nodes. -/
structure Graph where
  src : Arr2 50000 128 → Arr2 400000 128
  dst : Arr2 50000 128 → Arr2 400000 128
  add : Arr2 400000 128 → Arr2 50000 128

/-- The input projection: every node's 32 input numbers to 128 features. -/
def embed (x : Arr2 50000 32) (w : Arr2 32 128) (b : Arr1 128) : Arr2 50000 128 :=
  toArr fun r j => affine (fun k => x (ix2 r k)) (fun k j => w (ix2 k j)) (fun j => b (ix1 j)) j

/-- The messages of layer `l`: the edge perceptron on the two gathered arrays, with the layer's slices of the
    stacked weights. -/
def messages (l : Fin 2) (xs xd : Arr2 400000 128) (w1a : Arr3 2 256 128) (b1a : Arr2 2 128) (w1b : Arr3 2 128 128)
    (b1b : Arr2 2 128) (w1c : Arr3 2 128 128) (b1c : Arr2 2 128) : Arr2 400000 128 :=
  toArr fun e j => edge (fun k => xs (ix2 e k)) (fun k => xd (ix2 e k))
    (fun k j => w1a (ix3 l (lo k) j)) (fun k j => w1a (ix3 l (hi k) j)) (fun j => b1a (ix2 l j))
    (fun k j => w1b (ix3 l k j)) (fun j => b1b (ix2 l j)) (fun k j => w1c (ix3 l k j)) (fun j => b1c (ix2 l j)) j

/-- The node update of layer `l` on the totals. -/
def update (l : Fin 2) (agg : Arr2 50000 128) (w2a : Arr3 2 128 128) (b2a : Arr2 2 128) (w2b : Arr3 2 128 128)
    (b2b : Arr2 2 128) : Arr2 50000 128 :=
  toArr fun r j => node (fun k => agg (ix2 r k)) (fun k j => w2a (ix3 l k j)) (fun j => b2a (ix2 l j))
    (fun k j => w2b (ix3 l k j)) (fun j => b2b (ix2 l j)) j

/-- One message-passing layer. -/
def layer (G : Graph) (l : Fin 2) (x : Arr2 50000 128) (w1a : Arr3 2 256 128) (b1a : Arr2 2 128) (w1b : Arr3 2 128 128)
    (b1b : Arr2 2 128) (w1c : Arr3 2 128 128) (b1c : Arr2 2 128) (w2a : Arr3 2 128 128) (b2a : Arr2 2 128)
    (w2b : Arr3 2 128 128) (b2b : Arr2 2 128) : Arr2 50000 128 :=
  update l (G.add (messages l (G.src x) (G.dst x) w1a b1a w1b b1b w1c b1c)) w2a b2a w2b b2b

/-- The output projection: 128 features to 16 numbers per node. -/
def project (x : Arr2 50000 128) (w : Arr2 128 16) (b : Arr1 16) : Arr2 50000 16 :=
  toArr fun r j => affine (fun k => x (ix2 r k)) (fun k j => w (ix2 k j)) (fun j => b (ix1 j)) j

/-- The whole network. -/
def net (G : Graph) (x : Arr2 50000 32) (win : Arr2 32 128) (bin : Arr1 128) (wout : Arr2 128 16) (bout : Arr1 16)
    (w1a : Arr3 2 256 128) (b1a : Arr2 2 128) (w1b : Arr3 2 128 128) (b1b : Arr2 2 128) (w1c : Arr3 2 128 128)
    (b1c : Arr2 2 128) (w2a : Arr3 2 128 128) (b2a : Arr2 2 128) (w2b : Arr3 2 128 128) (b2b : Arr2 2 128) : Arr2 50000 16 :=
  project (layer G 1 (layer G 0 (embed x win bin) w1a b1a w1b b1b w1c b1c w2a b2a w2b b2b)
    w1a b1a w1b b1b w1c b1c w2a b2a w2b b2b) wout bout

end Cert.GraphNet

end
-- ==== Proof.KEntryC.lean ====
/-
  What the buffers hold when a pipelined region is entered, part three: the weight and bias windows.

  Before each region a host stretch cuts the layer's slab out of every stacked weight array and the layer's row out of
  every stacked bias array, and the region reads the result through a window. Read at an index, each window is the
  launch memory's stacked array at the layer and the same coordinates.
-/
import proofs.«146966_j79087527788652_1_alg».proof.Proof.KEntryA
import proofs.«146966_j79087527788652_1_alg».proof.Proof.Spec
import Idealize.ShloMosaic.Lib.Pipeline.Value
import Idealize.ShloMosaic.Lib.ValueIdx

set_option maxRecDepth 16384

noncomputable section

namespace Cert.KernelIdeal.Entry

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## Slices and reshapes read at an index

Every weight window is a slab of a stacked array — the slice `[l : l+1, …]` of a `[2, …]` array viewed without its leading
unit axis — and every bias window is a row of a `[2, 128]` array. A reshape keeps the row-major position and a
unit-stride slice adds its offsets, so an entry of the window is the entry of the stacked array at layer `l`; the slab
of the lower half of the `[2, 256, 128]` weights starts at row 128. -/

section Layout
variable {α : Type}

/-- The upper half (rows 0 to 127) of layer 0 of a `[2, 256, 128]` array. -/
theorem slab256_0_lo (x : S2x256x128.Idx → α) (k j : Fin 128) :
    shapeCast S128x128 (extractStridedSlice S1x128x128 ![0, 0, 0] x slices_S2x256x128_S1x128x128_0_0_0) shapeCasts_S1x128x128_S128x128 (ix2 k j)
      = x (ix3 0 (Cert.GraphNet.lo k) j) := by
  refine (shapeCast_apply _ shapeCasts_S1x128x128_S128x128 (ix2 k j) (ix3 0 k j) ?_).trans ?_
  · rw [Shape.rowMajor_val_three, Shape.rowMajor_val_two]
    show (0 * 128 + k.val) * 128 + j.val = k.val * 128 + j.val
    omega
  · exact extractStridedSlice_apply ![0, 0, 0] x slices_S2x256x128_S1x128x128_0_0_0 (ix3 0 k j) (ix3 0 (Cert.GraphNet.lo k) j) (fun a => match a with
      | ⟨0, _⟩ => by show (0 : ℕ) = 0 + 0; rfl
      | ⟨1, _⟩ => by show k.val = 0 + k.val; omega
      | ⟨2, _⟩ => by show j.val = 0 + j.val; omega)

/-- The lower half (rows 128 to 255) of layer 0 of a `[2, 256, 128]` array. -/
theorem slab256_0_hi (x : S2x256x128.Idx → α) (k j : Fin 128) :
    shapeCast S128x128 (extractStridedSlice S1x128x128 ![0, 128, 0] x slices_S2x256x128_S1x128x128_0_128_0) shapeCasts_S1x128x128_S128x128 (ix2 k j)
      = x (ix3 0 (Cert.GraphNet.hi k) j) := by
  refine (shapeCast_apply _ shapeCasts_S1x128x128_S128x128 (ix2 k j) (ix3 0 k j) ?_).trans ?_
  · rw [Shape.rowMajor_val_three, Shape.rowMajor_val_two]
    show (0 * 128 + k.val) * 128 + j.val = k.val * 128 + j.val
    omega
  · exact extractStridedSlice_apply ![0, 128, 0] x slices_S2x256x128_S1x128x128_0_128_0 (ix3 0 k j) (ix3 0 (Cert.GraphNet.hi k) j) (fun a => match a with
      | ⟨0, _⟩ => by show (0 : ℕ) = 0 + 0; rfl
      | ⟨1, _⟩ => by show 128 + k.val = 128 + k.val; omega
      | ⟨2, _⟩ => by show j.val = 0 + j.val; omega)

/-- The upper half (rows 0 to 127) of layer 1 of a `[2, 256, 128]` array. -/
theorem slab256_1_lo (x : S2x256x128.Idx → α) (k j : Fin 128) :
    shapeCast S128x128 (extractStridedSlice S1x128x128 ![1, 0, 0] x slices_S2x256x128_S1x128x128_1_0_0) shapeCasts_S1x128x128_S128x128 (ix2 k j)
      = x (ix3 1 (Cert.GraphNet.lo k) j) := by
  refine (shapeCast_apply _ shapeCasts_S1x128x128_S128x128 (ix2 k j) (ix3 0 k j) ?_).trans ?_
  · rw [Shape.rowMajor_val_three, Shape.rowMajor_val_two]
    show (0 * 128 + k.val) * 128 + j.val = k.val * 128 + j.val
    omega
  · exact extractStridedSlice_apply ![1, 0, 0] x slices_S2x256x128_S1x128x128_1_0_0 (ix3 0 k j) (ix3 1 (Cert.GraphNet.lo k) j) (fun a => match a with
      | ⟨0, _⟩ => by show (1 : ℕ) = 1 + 0; rfl
      | ⟨1, _⟩ => by show k.val = 0 + k.val; omega
      | ⟨2, _⟩ => by show j.val = 0 + j.val; omega)

/-- The lower half (rows 128 to 255) of layer 1 of a `[2, 256, 128]` array. -/
theorem slab256_1_hi (x : S2x256x128.Idx → α) (k j : Fin 128) :
    shapeCast S128x128 (extractStridedSlice S1x128x128 ![1, 128, 0] x slices_S2x256x128_S1x128x128_1_128_0) shapeCasts_S1x128x128_S128x128 (ix2 k j)
      = x (ix3 1 (Cert.GraphNet.hi k) j) := by
  refine (shapeCast_apply _ shapeCasts_S1x128x128_S128x128 (ix2 k j) (ix3 0 k j) ?_).trans ?_
  · rw [Shape.rowMajor_val_three, Shape.rowMajor_val_two]
    show (0 * 128 + k.val) * 128 + j.val = k.val * 128 + j.val
    omega
  · exact extractStridedSlice_apply ![1, 128, 0] x slices_S2x256x128_S1x128x128_1_128_0 (ix3 0 k j) (ix3 1 (Cert.GraphNet.hi k) j) (fun a => match a with
      | ⟨0, _⟩ => by show (1 : ℕ) = 1 + 0; rfl
      | ⟨1, _⟩ => by show 128 + k.val = 128 + k.val; omega
      | ⟨2, _⟩ => by show j.val = 0 + j.val; omega)

/-- Layer 0 of a `[2, 128, 128]` array. -/
theorem slab128_0 (x : S2x128x128.Idx → α) (k j : Fin 128) :
    shapeCast S128x128 (extractStridedSlice S1x128x128 ![0, 0, 0] x slices_S2x128x128_S1x128x128_0_0_0) shapeCasts_S1x128x128_S128x128 (ix2 k j)
      = x (ix3 0 k j) := by
  refine (shapeCast_apply _ shapeCasts_S1x128x128_S128x128 (ix2 k j) (ix3 0 k j) ?_).trans ?_
  · rw [Shape.rowMajor_val_three, Shape.rowMajor_val_two]
    show (0 * 128 + k.val) * 128 + j.val = k.val * 128 + j.val
    omega
  · exact extractStridedSlice_apply ![0, 0, 0] x slices_S2x128x128_S1x128x128_0_0_0 (ix3 0 k j) (ix3 0 k j) (fun a => match a with
      | ⟨0, _⟩ => by show (0 : ℕ) = 0 + 0; rfl
      | ⟨1, _⟩ => by show k.val = 0 + k.val; omega
      | ⟨2, _⟩ => by show j.val = 0 + j.val; omega)

/-- Layer 1 of a `[2, 128, 128]` array. -/
theorem slab128_1 (x : S2x128x128.Idx → α) (k j : Fin 128) :
    shapeCast S128x128 (extractStridedSlice S1x128x128 ![1, 0, 0] x slices_S2x128x128_S1x128x128_1_0_0) shapeCasts_S1x128x128_S128x128 (ix2 k j)
      = x (ix3 1 k j) := by
  refine (shapeCast_apply _ shapeCasts_S1x128x128_S128x128 (ix2 k j) (ix3 0 k j) ?_).trans ?_
  · rw [Shape.rowMajor_val_three, Shape.rowMajor_val_two]
    show (0 * 128 + k.val) * 128 + j.val = k.val * 128 + j.val
    omega
  · exact extractStridedSlice_apply ![1, 0, 0] x slices_S2x128x128_S1x128x128_1_0_0 (ix3 0 k j) (ix3 1 k j) (fun a => match a with
      | ⟨0, _⟩ => by show (1 : ℕ) = 1 + 0; rfl
      | ⟨1, _⟩ => by show k.val = 0 + k.val; omega
      | ⟨2, _⟩ => by show j.val = 0 + j.val; omega)

/-- Row 0 of a `[2, 128]` array, flattened and set as one row again. -/
theorem biasRow_0 (x : S2x128.Idx → α) (j : Fin 128) :
    shapeCast S1x128 (shapeCast S128 (extractStridedSlice S1x128 ![0, 0] x slices_S2x128_S1x128_0_0) shapeCasts_S1x128_S128) shapeCasts_S128_S1x128 (ix2 0 j)
      = x (ix2 0 j) := by
  rw [shapeCast_shapeCast]
  exact extractStridedSlice_apply ![0, 0] x slices_S2x128_S1x128_0_0 (ix2 0 j) (ix2 0 j) (fun a => match a with
    | ⟨0, _⟩ => by show (0 : ℕ) = 0 + 0; rfl
    | ⟨1, _⟩ => by show j.val = 0 + j.val; omega)

/-- Row 1 of a `[2, 128]` array, flattened and set as one row again. -/
theorem biasRow_1 (x : S2x128.Idx → α) (j : Fin 128) :
    shapeCast S1x128 (shapeCast S128 (extractStridedSlice S1x128 ![1, 0] x slices_S2x128_S1x128_1_0) shapeCasts_S1x128_S128) shapeCasts_S128_S1x128 (ix2 0 j)
      = x (ix2 1 j) := by
  rw [shapeCast_shapeCast]
  exact extractStridedSlice_apply ![1, 0] x slices_S2x128_S1x128_1_0 (ix2 0 j) (ix2 1 j) (fun a => match a with
    | ⟨0, _⟩ => by show (1 : ℕ) = 1 + 0; rfl
    | ⟨1, _⟩ => by show j.val = 0 + j.val; omega)

/-- A vector of 128 set as one row. -/
theorem asRow128 (x : S128.Idx → α) (j : Fin 128) : shapeCast S1x128 x shapeCasts_S128_S1x128 (ix2 0 j) = x (ix1 j) := by
  refine shapeCast_apply x shapeCasts_S128_S1x128 (ix2 0 j) (ix1 j) ?_
  rw [Shape.rowMajor_val_one, Shape.rowMajor_val_two]
  show j.val = 0 * 128 + j.val
  omega
/-- A vector of 16 set as one row. -/
theorem asRow16 (x : S16.Idx → α) (j : Fin 16) : shapeCast S1x16 x shapeCasts_S16_S1x16 (ix2 0 j) = x (ix1 j) := by
  refine shapeCast_apply x shapeCasts_S16_S1x16 (ix2 0 j) (ix1 j) ?_
  rw [Shape.rowMajor_val_one, Shape.rowMajor_val_two]
  show j.val = 0 * 16 + j.val
  omega

end Layout

/-! ## The windows of the six regions -/

/-! ### Region 0: the input projection -/

theorem V1_main_arg0 (c : Dev nD) : V1 m ρ c main_arg0 = m ((c : Thread nD τ).loc main_arg0) := W1_main_arg0 m ρ c
theorem V1_main_arg3 (c : Dev nD) : V1 m ρ c main_arg3 = m ((c : Thread nD τ).loc main_arg3) := W1_main_arg3 m ρ c
theorem V1_main_v4 (c : Dev nD) (j : Fin 128) :
    (V1 m ρ c main_v4 : S1x128.Idx → EReal) (ix2 0 j) = (m ((c : Thread nD τ).loc main_arg4) : S128.Idx → EReal) (ix1 j) := by
  have e : (V1 m ρ c main_v4 : S1x128.Idx → EReal) = shapeCast S1x128 (m ((c : Thread nD τ).loc main_arg4) : S128.Idx → EReal) shapeCasts_S128_S1x128 := by
    show StableHlo.after hostOps0 (W0 m ρ c) (Proc.devRef .tc main_v4) = _
    after_results
    rfl
  exact (congrFun e _).trans (asRow128 _ j)

/-! ### Region 1: layer 0's edge perceptron -/

theorem V3_main_v21 (c : Dev nD) (k j : Fin 128) :
    (V3 m ρ c main_v21 : S128x128.Idx → EReal) (ix2 k j) = (m ((c : Thread nD τ).loc main_arg7) : S2x256x128.Idx → EReal) (ix3 0 (Cert.GraphNet.lo k) j) := by
  have e : (V3 m ρ c main_v21 : S128x128.Idx → EReal) = shapeCast S128x128 (extractStridedSlice S1x128x128 ![0, 0, 0] (m ((c : Thread nD τ).loc main_arg7) : S2x256x128.Idx → EReal) slices_S2x256x128_S1x128x128_0_0_0) shapeCasts_S1x128x128_S128x128 := by
    show StableHlo.after hostOps1 (W2 m ρ c) (Proc.devRef .tc main_v21) = _
    after_results
    rw [W2_main_arg7]
    rfl
  exact (congrFun e _).trans (slab256_0_lo _ k j)
theorem V3_main_v23 (c : Dev nD) (k j : Fin 128) :
    (V3 m ρ c main_v23 : S128x128.Idx → EReal) (ix2 k j) = (m ((c : Thread nD τ).loc main_arg7) : S2x256x128.Idx → EReal) (ix3 0 (Cert.GraphNet.hi k) j) := by
  have e : (V3 m ρ c main_v23 : S128x128.Idx → EReal) = shapeCast S128x128 (extractStridedSlice S1x128x128 ![0, 128, 0] (m ((c : Thread nD τ).loc main_arg7) : S2x256x128.Idx → EReal) slices_S2x256x128_S1x128x128_0_128_0) shapeCasts_S1x128x128_S128x128 := by
    show StableHlo.after hostOps1 (W2 m ρ c) (Proc.devRef .tc main_v23) = _
    after_results
    rw [W2_main_arg7]
    rfl
  exact (congrFun e _).trans (slab256_0_hi _ k j)
theorem V3_main_v34 (c : Dev nD) (j : Fin 128) :
    (V3 m ρ c main_v34 : S1x128.Idx → EReal) (ix2 0 j) = (m ((c : Thread nD τ).loc main_arg8) : S2x128.Idx → EReal) (ix2 0 j) := by
  have e : (V3 m ρ c main_v34 : S1x128.Idx → EReal) = shapeCast S1x128 (shapeCast S128 (extractStridedSlice S1x128 ![0, 0] (m ((c : Thread nD τ).loc main_arg8) : S2x128.Idx → EReal) slices_S2x128_S1x128_0_0) shapeCasts_S1x128_S128) shapeCasts_S128_S1x128 := by
    show StableHlo.after hostOps1 (W2 m ρ c) (Proc.devRef .tc main_v34) = _
    after_results
    rw [W2_main_arg8]
    rfl
  exact (congrFun e _).trans (biasRow_0 _ j)
theorem V3_main_v27 (c : Dev nD) (k j : Fin 128) :
    (V3 m ρ c main_v27 : S128x128.Idx → EReal) (ix2 k j) = (m ((c : Thread nD τ).loc main_arg9) : S2x128x128.Idx → EReal) (ix3 0 k j) := by
  have e : (V3 m ρ c main_v27 : S128x128.Idx → EReal) = shapeCast S128x128 (extractStridedSlice S1x128x128 ![0, 0, 0] (m ((c : Thread nD τ).loc main_arg9) : S2x128x128.Idx → EReal) slices_S2x128x128_S1x128x128_0_0_0) shapeCasts_S1x128x128_S128x128 := by
    show StableHlo.after hostOps1 (W2 m ρ c) (Proc.devRef .tc main_v27) = _
    after_results
    rw [W2_main_arg9]
    rfl
  exact (congrFun e _).trans (slab128_0 _ k j)
theorem V3_main_v35 (c : Dev nD) (j : Fin 128) :
    (V3 m ρ c main_v35 : S1x128.Idx → EReal) (ix2 0 j) = (m ((c : Thread nD τ).loc main_arg10) : S2x128.Idx → EReal) (ix2 0 j) := by
  have e : (V3 m ρ c main_v35 : S1x128.Idx → EReal) = shapeCast S1x128 (shapeCast S128 (extractStridedSlice S1x128 ![0, 0] (m ((c : Thread nD τ).loc main_arg10) : S2x128.Idx → EReal) slices_S2x128_S1x128_0_0) shapeCasts_S1x128_S128) shapeCasts_S128_S1x128 := by
    show StableHlo.after hostOps1 (W2 m ρ c) (Proc.devRef .tc main_v35) = _
    after_results
    rw [W2_main_arg10]
    rfl
  exact (congrFun e _).trans (biasRow_0 _ j)
theorem V3_main_v31 (c : Dev nD) (k j : Fin 128) :
    (V3 m ρ c main_v31 : S128x128.Idx → EReal) (ix2 k j) = (m ((c : Thread nD τ).loc main_arg11) : S2x128x128.Idx → EReal) (ix3 0 k j) := by
  have e : (V3 m ρ c main_v31 : S128x128.Idx → EReal) = shapeCast S128x128 (extractStridedSlice S1x128x128 ![0, 0, 0] (m ((c : Thread nD τ).loc main_arg11) : S2x128x128.Idx → EReal) slices_S2x128x128_S1x128x128_0_0_0) shapeCasts_S1x128x128_S128x128 := by
    show StableHlo.after hostOps1 (W2 m ρ c) (Proc.devRef .tc main_v31) = _
    after_results
    rw [W2_main_arg11]
    rfl
  exact (congrFun e _).trans (slab128_0 _ k j)
theorem V3_main_v36 (c : Dev nD) (j : Fin 128) :
    (V3 m ρ c main_v36 : S1x128.Idx → EReal) (ix2 0 j) = (m ((c : Thread nD τ).loc main_arg12) : S2x128.Idx → EReal) (ix2 0 j) := by
  have e : (V3 m ρ c main_v36 : S1x128.Idx → EReal) = shapeCast S1x128 (shapeCast S128 (extractStridedSlice S1x128 ![0, 0] (m ((c : Thread nD τ).loc main_arg12) : S2x128.Idx → EReal) slices_S2x128_S1x128_0_0) shapeCasts_S1x128_S128) shapeCasts_S128_S1x128 := by
    show StableHlo.after hostOps1 (W2 m ρ c) (Proc.devRef .tc main_v36) = _
    after_results
    rw [W2_main_arg12]
    rfl
  exact (congrFun e _).trans (biasRow_0 _ j)

/-! ### Region 2: layer 0's node perceptron -/

theorem V5_main_v42 (c : Dev nD) (k j : Fin 128) :
    (V5 m ρ c main_v42 : S128x128.Idx → EReal) (ix2 k j) = (m ((c : Thread nD τ).loc main_arg13) : S2x128x128.Idx → EReal) (ix3 0 k j) := by
  have e : (V5 m ρ c main_v42 : S128x128.Idx → EReal) = shapeCast S128x128 (extractStridedSlice S1x128x128 ![0, 0, 0] (m ((c : Thread nD τ).loc main_arg13) : S2x128x128.Idx → EReal) slices_S2x128x128_S1x128x128_0_0_0) shapeCasts_S1x128x128_S128x128 := by
    show StableHlo.after hostOps2 (W4 m ρ c) (Proc.devRef .tc main_v42) = _
    after_results
    rw [W4_main_arg13]
    rfl
  exact (congrFun e _).trans (slab128_0 _ k j)
theorem V5_main_v49 (c : Dev nD) (j : Fin 128) :
    (V5 m ρ c main_v49 : S1x128.Idx → EReal) (ix2 0 j) = (m ((c : Thread nD τ).loc main_arg14) : S2x128.Idx → EReal) (ix2 0 j) := by
  have e : (V5 m ρ c main_v49 : S1x128.Idx → EReal) = shapeCast S1x128 (shapeCast S128 (extractStridedSlice S1x128 ![0, 0] (m ((c : Thread nD τ).loc main_arg14) : S2x128.Idx → EReal) slices_S2x128_S1x128_0_0) shapeCasts_S1x128_S128) shapeCasts_S128_S1x128 := by
    show StableHlo.after hostOps2 (W4 m ρ c) (Proc.devRef .tc main_v49) = _
    after_results
    rw [W4_main_arg14]
    rfl
  exact (congrFun e _).trans (biasRow_0 _ j)
theorem V5_main_v46 (c : Dev nD) (k j : Fin 128) :
    (V5 m ρ c main_v46 : S128x128.Idx → EReal) (ix2 k j) = (m ((c : Thread nD τ).loc main_arg15) : S2x128x128.Idx → EReal) (ix3 0 k j) := by
  have e : (V5 m ρ c main_v46 : S128x128.Idx → EReal) = shapeCast S128x128 (extractStridedSlice S1x128x128 ![0, 0, 0] (m ((c : Thread nD τ).loc main_arg15) : S2x128x128.Idx → EReal) slices_S2x128x128_S1x128x128_0_0_0) shapeCasts_S1x128x128_S128x128 := by
    show StableHlo.after hostOps2 (W4 m ρ c) (Proc.devRef .tc main_v46) = _
    after_results
    rw [W4_main_arg15]
    rfl
  exact (congrFun e _).trans (slab128_0 _ k j)
theorem V5_main_v50 (c : Dev nD) (j : Fin 128) :
    (V5 m ρ c main_v50 : S1x128.Idx → EReal) (ix2 0 j) = (m ((c : Thread nD τ).loc main_arg16) : S2x128.Idx → EReal) (ix2 0 j) := by
  have e : (V5 m ρ c main_v50 : S1x128.Idx → EReal) = shapeCast S1x128 (shapeCast S128 (extractStridedSlice S1x128 ![0, 0] (m ((c : Thread nD τ).loc main_arg16) : S2x128.Idx → EReal) slices_S2x128_S1x128_0_0) shapeCasts_S1x128_S128) shapeCasts_S128_S1x128 := by
    show StableHlo.after hostOps2 (W4 m ρ c) (Proc.devRef .tc main_v50) = _
    after_results
    rw [W4_main_arg16]
    rfl
  exact (congrFun e _).trans (biasRow_0 _ j)

/-! ### Region 3: layer 1's edge perceptron -/

theorem V7_main_v67 (c : Dev nD) (k j : Fin 128) :
    (V7 m ρ c main_v67 : S128x128.Idx → EReal) (ix2 k j) = (m ((c : Thread nD τ).loc main_arg7) : S2x256x128.Idx → EReal) (ix3 1 (Cert.GraphNet.lo k) j) := by
  have e : (V7 m ρ c main_v67 : S128x128.Idx → EReal) = shapeCast S128x128 (extractStridedSlice S1x128x128 ![1, 0, 0] (m ((c : Thread nD τ).loc main_arg7) : S2x256x128.Idx → EReal) slices_S2x256x128_S1x128x128_1_0_0) shapeCasts_S1x128x128_S128x128 := by
    show StableHlo.after hostOps3 (W6 m ρ c) (Proc.devRef .tc main_v67) = _
    after_results
    rw [W6_main_arg7]
    rfl
  exact (congrFun e _).trans (slab256_1_lo _ k j)
theorem V7_main_v69 (c : Dev nD) (k j : Fin 128) :
    (V7 m ρ c main_v69 : S128x128.Idx → EReal) (ix2 k j) = (m ((c : Thread nD τ).loc main_arg7) : S2x256x128.Idx → EReal) (ix3 1 (Cert.GraphNet.hi k) j) := by
  have e : (V7 m ρ c main_v69 : S128x128.Idx → EReal) = shapeCast S128x128 (extractStridedSlice S1x128x128 ![1, 128, 0] (m ((c : Thread nD τ).loc main_arg7) : S2x256x128.Idx → EReal) slices_S2x256x128_S1x128x128_1_128_0) shapeCasts_S1x128x128_S128x128 := by
    show StableHlo.after hostOps3 (W6 m ρ c) (Proc.devRef .tc main_v69) = _
    after_results
    rw [W6_main_arg7]
    rfl
  exact (congrFun e _).trans (slab256_1_hi _ k j)
theorem V7_main_v80 (c : Dev nD) (j : Fin 128) :
    (V7 m ρ c main_v80 : S1x128.Idx → EReal) (ix2 0 j) = (m ((c : Thread nD τ).loc main_arg8) : S2x128.Idx → EReal) (ix2 1 j) := by
  have e : (V7 m ρ c main_v80 : S1x128.Idx → EReal) = shapeCast S1x128 (shapeCast S128 (extractStridedSlice S1x128 ![1, 0] (m ((c : Thread nD τ).loc main_arg8) : S2x128.Idx → EReal) slices_S2x128_S1x128_1_0) shapeCasts_S1x128_S128) shapeCasts_S128_S1x128 := by
    show StableHlo.after hostOps3 (W6 m ρ c) (Proc.devRef .tc main_v80) = _
    after_results
    rw [W6_main_arg8]
    rfl
  exact (congrFun e _).trans (biasRow_1 _ j)
theorem V7_main_v73 (c : Dev nD) (k j : Fin 128) :
    (V7 m ρ c main_v73 : S128x128.Idx → EReal) (ix2 k j) = (m ((c : Thread nD τ).loc main_arg9) : S2x128x128.Idx → EReal) (ix3 1 k j) := by
  have e : (V7 m ρ c main_v73 : S128x128.Idx → EReal) = shapeCast S128x128 (extractStridedSlice S1x128x128 ![1, 0, 0] (m ((c : Thread nD τ).loc main_arg9) : S2x128x128.Idx → EReal) slices_S2x128x128_S1x128x128_1_0_0) shapeCasts_S1x128x128_S128x128 := by
    show StableHlo.after hostOps3 (W6 m ρ c) (Proc.devRef .tc main_v73) = _
    after_results
    rw [W6_main_arg9]
    rfl
  exact (congrFun e _).trans (slab128_1 _ k j)
theorem V7_main_v81 (c : Dev nD) (j : Fin 128) :
    (V7 m ρ c main_v81 : S1x128.Idx → EReal) (ix2 0 j) = (m ((c : Thread nD τ).loc main_arg10) : S2x128.Idx → EReal) (ix2 1 j) := by
  have e : (V7 m ρ c main_v81 : S1x128.Idx → EReal) = shapeCast S1x128 (shapeCast S128 (extractStridedSlice S1x128 ![1, 0] (m ((c : Thread nD τ).loc main_arg10) : S2x128.Idx → EReal) slices_S2x128_S1x128_1_0) shapeCasts_S1x128_S128) shapeCasts_S128_S1x128 := by
    show StableHlo.after hostOps3 (W6 m ρ c) (Proc.devRef .tc main_v81) = _
    after_results
    rw [W6_main_arg10]
    rfl
  exact (congrFun e _).trans (biasRow_1 _ j)
theorem V7_main_v77 (c : Dev nD) (k j : Fin 128) :
    (V7 m ρ c main_v77 : S128x128.Idx → EReal) (ix2 k j) = (m ((c : Thread nD τ).loc main_arg11) : S2x128x128.Idx → EReal) (ix3 1 k j) := by
  have e : (V7 m ρ c main_v77 : S128x128.Idx → EReal) = shapeCast S128x128 (extractStridedSlice S1x128x128 ![1, 0, 0] (m ((c : Thread nD τ).loc main_arg11) : S2x128x128.Idx → EReal) slices_S2x128x128_S1x128x128_1_0_0) shapeCasts_S1x128x128_S128x128 := by
    show StableHlo.after hostOps3 (W6 m ρ c) (Proc.devRef .tc main_v77) = _
    after_results
    rw [W6_main_arg11]
    rfl
  exact (congrFun e _).trans (slab128_1 _ k j)
theorem V7_main_v82 (c : Dev nD) (j : Fin 128) :
    (V7 m ρ c main_v82 : S1x128.Idx → EReal) (ix2 0 j) = (m ((c : Thread nD τ).loc main_arg12) : S2x128.Idx → EReal) (ix2 1 j) := by
  have e : (V7 m ρ c main_v82 : S1x128.Idx → EReal) = shapeCast S1x128 (shapeCast S128 (extractStridedSlice S1x128 ![1, 0] (m ((c : Thread nD τ).loc main_arg12) : S2x128.Idx → EReal) slices_S2x128_S1x128_1_0) shapeCasts_S1x128_S128) shapeCasts_S128_S1x128 := by
    show StableHlo.after hostOps3 (W6 m ρ c) (Proc.devRef .tc main_v82) = _
    after_results
    rw [W6_main_arg12]
    rfl
  exact (congrFun e _).trans (biasRow_1 _ j)

/-! ### Region 4: layer 1's node perceptron -/

theorem V9_main_v88 (c : Dev nD) (k j : Fin 128) :
    (V9 m ρ c main_v88 : S128x128.Idx → EReal) (ix2 k j) = (m ((c : Thread nD τ).loc main_arg13) : S2x128x128.Idx → EReal) (ix3 1 k j) := by
  have e : (V9 m ρ c main_v88 : S128x128.Idx → EReal) = shapeCast S128x128 (extractStridedSlice S1x128x128 ![1, 0, 0] (m ((c : Thread nD τ).loc main_arg13) : S2x128x128.Idx → EReal) slices_S2x128x128_S1x128x128_1_0_0) shapeCasts_S1x128x128_S128x128 := by
    show StableHlo.after hostOps4 (W8 m ρ c) (Proc.devRef .tc main_v88) = _
    after_results
    rw [W8_main_arg13]
    rfl
  exact (congrFun e _).trans (slab128_1 _ k j)
theorem V9_main_v95 (c : Dev nD) (j : Fin 128) :
    (V9 m ρ c main_v95 : S1x128.Idx → EReal) (ix2 0 j) = (m ((c : Thread nD τ).loc main_arg14) : S2x128.Idx → EReal) (ix2 1 j) := by
  have e : (V9 m ρ c main_v95 : S1x128.Idx → EReal) = shapeCast S1x128 (shapeCast S128 (extractStridedSlice S1x128 ![1, 0] (m ((c : Thread nD τ).loc main_arg14) : S2x128.Idx → EReal) slices_S2x128_S1x128_1_0) shapeCasts_S1x128_S128) shapeCasts_S128_S1x128 := by
    show StableHlo.after hostOps4 (W8 m ρ c) (Proc.devRef .tc main_v95) = _
    after_results
    rw [W8_main_arg14]
    rfl
  exact (congrFun e _).trans (biasRow_1 _ j)
theorem V9_main_v92 (c : Dev nD) (k j : Fin 128) :
    (V9 m ρ c main_v92 : S128x128.Idx → EReal) (ix2 k j) = (m ((c : Thread nD τ).loc main_arg15) : S2x128x128.Idx → EReal) (ix3 1 k j) := by
  have e : (V9 m ρ c main_v92 : S128x128.Idx → EReal) = shapeCast S128x128 (extractStridedSlice S1x128x128 ![1, 0, 0] (m ((c : Thread nD τ).loc main_arg15) : S2x128x128.Idx → EReal) slices_S2x128x128_S1x128x128_1_0_0) shapeCasts_S1x128x128_S128x128 := by
    show StableHlo.after hostOps4 (W8 m ρ c) (Proc.devRef .tc main_v92) = _
    after_results
    rw [W8_main_arg15]
    rfl
  exact (congrFun e _).trans (slab128_1 _ k j)
theorem V9_main_v96 (c : Dev nD) (j : Fin 128) :
    (V9 m ρ c main_v96 : S1x128.Idx → EReal) (ix2 0 j) = (m ((c : Thread nD τ).loc main_arg16) : S2x128.Idx → EReal) (ix2 1 j) := by
  have e : (V9 m ρ c main_v96 : S1x128.Idx → EReal) = shapeCast S1x128 (shapeCast S128 (extractStridedSlice S1x128 ![1, 0] (m ((c : Thread nD τ).loc main_arg16) : S2x128.Idx → EReal) slices_S2x128_S1x128_1_0) shapeCasts_S1x128_S128) shapeCasts_S128_S1x128 := by
    show StableHlo.after hostOps4 (W8 m ρ c) (Proc.devRef .tc main_v96) = _
    after_results
    rw [W8_main_arg16]
    rfl
  exact (congrFun e _).trans (biasRow_1 _ j)

/-! ### Region 5: the output projection -/

theorem V11_main_arg5 (c : Dev nD) : V11 m ρ c main_arg5 = m ((c : Thread nD τ).loc main_arg5) := by
  show StableHlo.after hostOps5 (W10 m ρ c) (Proc.devRef .tc main_arg5) = _
  host_keeps hostOps5
  exact W10_main_arg5 m ρ c
theorem V11_main_v98 (c : Dev nD) (j : Fin 16) :
    (V11 m ρ c main_v98 : S1x16.Idx → EReal) (ix2 0 j) = (m ((c : Thread nD τ).loc main_arg6) : S16.Idx → EReal) (ix1 j) := by
  have e : (V11 m ρ c main_v98 : S1x16.Idx → EReal) = shapeCast S1x16 (m ((c : Thread nD τ).loc main_arg6) : S16.Idx → EReal) shapeCasts_S16_S1x16 := by
    show StableHlo.after hostOps5 (W10 m ρ c) (Proc.devRef .tc main_v98) = _
    after_results
    rw [W10_main_arg6]
    rfl
  exact (congrFun e _).trans (asRow16 _ j)

end Cert.KernelIdeal.Entry

end
-- ==== Proof.KEntry.lean ====
/-
  What each pipelined region of the idealized kernel finds in its windows' arrays when it is entered: the buffers
  nothing writes (part one), the arrays the host operations build from the edge list (part two), and the weight and
  bias windows read at an index (part three).
-/
import proofs.«146966_j79087527788652_1_alg».proof.Proof.KEntryA
import proofs.«146966_j79087527788652_1_alg».proof.Proof.KEntryB
import proofs.«146966_j79087527788652_1_alg».proof.Proof.KEntryC
-- ==== Proof.KPay.lean ====
/-
  Each kernel body of the idealized kernel, read at one entry of the block it stores.

  On the extended reals a change of float format is the identity and a product of two arrays accumulated into the
  zero array is, entry by entry, the exact sum over the shared axis of the products of a row with a column. So every
  body is, row by row, one of the maps of the specification: the input and the output projection an affine map, the
  edge body the three-stage perceptron whose first stage adds the products against the upper and the lower half of
  the weights, the node body the two-stage perceptron. The statements are at an entry `(p, q)` of the stored block
  and hold for arbitrary contents of the blocks read.
-/
import proofs.«146966_j79087527788652_1_alg».proof.Proof.Gen.KernelIdeal.Skeleton
import proofs.«146966_j79087527788652_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KPay

open Idealize.ShloMosaic Idealize.ShloMosaic.ValueIdx Cert.KernelIdeal Cert.KernelIdeal.Gen

/-! ## A product into the zero array, read at an index

One statement per pair of operand shapes: the contraction has one axis, so its index is one coordinate, and the sum
over the contraction index is the sum over that coordinate. -/

/-! ### The input projection's product: 5000×32 by 32×128 -/

theorem mm0_lhs0 (i : S5000x128.Idx) (c : dot_S5000x32_S32x128_S5000x128_1_0_0_1_n_n.contr.Idx) :
    (dot_S5000x32_S32x128_S5000x128_1_0_0_1_n_n.lhsIdx i c 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem mm0_lhs1 (i : S5000x128.Idx) (c : dot_S5000x32_S32x128_S5000x128_1_0_0_1_n_n.contr.Idx) :
    (dot_S5000x32_S32x128_S5000x128_1_0_0_1_n_n.lhsIdx i c 1).val = (c ⟨0, by decide⟩).val :=
  dot_S5000x32_S32x128_S5000x128_1_0_0_1_n_n.lhsIdx_val_of_single rfl i c

theorem mm0_rhs0 (i : S5000x128.Idx) (c : dot_S5000x32_S32x128_S5000x128_1_0_0_1_n_n.contr.Idx) :
    (dot_S5000x32_S32x128_S5000x128_1_0_0_1_n_n.rhsIdx i c 0).val = (c ⟨0, by decide⟩).val :=
  dot_S5000x32_S32x128_S5000x128_1_0_0_1_n_n.rhsIdx_val_of_single rfl i c

theorem mm0_rhs1 (i : S5000x128.Idx) (c : dot_S5000x32_S32x128_S5000x128_1_0_0_1_n_n.contr.Idx) :
    (dot_S5000x32_S32x128_S5000x128_1_0_0_1_n_n.rhsIdx i c 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- Entry `(p, q)` of the product accumulated into the zero array is the sum over the shared axis of the products
    of row `p` of the left operand with column `q` of the right one. -/
theorem mm0 {φ₁ φ₂ : FTy} (lhs : FVec Ideal S5000x32 φ₁) (rhs : FVec Ideal S32x128 φ₂) (p : Fin 5000) (q : Fin 128) :
    matmul (F := Ideal) dot_S5000x32_S32x128_S5000x128_1_0_0_1_n_n none lhs rhs (constant (F := Ideal) S5000x128 .f32 0x00000000#32) (ix2 p q)
      = ∑ k : Fin 32, lhs (ix2 p k) * rhs (ix2 k q) := by
  show FloatOps.matmul dot_S5000x32_S32x128_S5000x128_1_0_0_1_n_n none lhs rhs (constant S5000x128 .f32 0x00000000#32) (ix2 p q) = _
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun a => Fin.ext (by
    match a with
    | ⟨0, _⟩ => exact mm0_lhs0 _ _
    | ⟨1, _⟩ => exact (mm0_lhs1 _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun a => Fin.ext (by
    match a with
    | ⟨0, _⟩ => exact (mm0_rhs0 _ _).trans hk
    | ⟨1, _⟩ => exact mm0_rhs1 _ _)
  rw [el, er]

/-! ### The edge stages' product: 4000×128 by 128×128 -/

theorem mm1_lhs0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

theorem mm1_lhs1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c

theorem mm1_rhs0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c

theorem mm1_rhs1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(p, q)` of the product accumulated into the zero array is the sum over the shared axis of the products
    of row `p` of the left operand with column `q` of the right one. -/
theorem mm1 {φ₁ φ₂ : FTy} (lhs : FVec Ideal S4000x128 φ₁) (rhs : FVec Ideal S128x128 φ₂) (p : Fin 4000) (q : Fin 128) :
    matmul (F := Ideal) dot_S4000x128_S128x128_S4000x128_1_0_0_1_n_n none lhs rhs (constant (F := Ideal) S4000x128 .f32 0x00000000#32) (ix2 p q)
      = ∑ k : Fin 128, lhs (ix2 p k) * rhs (ix2 k q) := by
  show FloatOps.matmul dot_S4000x128_S128x128_S4000x128_1_0_0_1_n_n none lhs rhs (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact mm1_lhs0 _ _
    | ⟨1, _⟩ => exact (mm1_lhs1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (mm1_rhs0 _ _).trans hk
    | ⟨1, _⟩ => exact mm1_rhs1 _ _)
  rw [el, er]

/-! ### The node stages' product: 5000×128 by 128×128 -/

theorem mm2_lhs0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem mm2_lhs1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

theorem mm2_rhs0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

theorem mm2_rhs1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of the product accumulated into the zero array is the sum over the shared axis of the products
    of row `p` of the left operand with column `q` of the right one. -/
theorem mm2 {φ₁ φ₂ : FTy} (lhs : FVec Ideal S5000x128 φ₁) (rhs : FVec Ideal S128x128 φ₂) (p : Fin 5000) (q : Fin 128) :
    matmul (F := Ideal) dot_S5000x128_S128x128_S5000x128_1_0_0_1_n_n none lhs rhs (constant (F := Ideal) S5000x128 .f32 0x00000000#32) (ix2 p q)
      = ∑ k : Fin 128, lhs (ix2 p k) * rhs (ix2 k q) := by
  show FloatOps.matmul dot_S5000x128_S128x128_S5000x128_1_0_0_1_n_n none lhs rhs (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm2_lhs0 _ _
    | ⟨1, _⟩ => exact (mm2_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm2_rhs0 _ _).trans hk
    | ⟨1, _⟩ => exact mm2_rhs1 _ _)
  rw [el, er]

/-! ### The output projection's product: 5000×128 by 128×16 -/

theorem mm5_lhs0 (i : S5000x16.Idx) (c : dot_S5000x128_S128x16_S5000x16_1_0_0_1_n_n.contr.Idx) :
    (dot_S5000x128_S128x16_S5000x16_1_0_0_1_n_n.lhsIdx i c 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl

theorem mm5_lhs1 (i : S5000x16.Idx) (c : dot_S5000x128_S128x16_S5000x16_1_0_0_1_n_n.contr.Idx) :
    (dot_S5000x128_S128x16_S5000x16_1_0_0_1_n_n.lhsIdx i c 1).val = (c ⟨0, by decide⟩).val :=
  dot_S5000x128_S128x16_S5000x16_1_0_0_1_n_n.lhsIdx_val_of_single rfl i c

theorem mm5_rhs0 (i : S5000x16.Idx) (c : dot_S5000x128_S128x16_S5000x16_1_0_0_1_n_n.contr.Idx) :
    (dot_S5000x128_S128x16_S5000x16_1_0_0_1_n_n.rhsIdx i c 0).val = (c ⟨0, by decide⟩).val :=
  dot_S5000x128_S128x16_S5000x16_1_0_0_1_n_n.rhsIdx_val_of_single rfl i c

theorem mm5_rhs1 (i : S5000x16.Idx) (c : dot_S5000x128_S128x16_S5000x16_1_0_0_1_n_n.contr.Idx) :
    (dot_S5000x128_S128x16_S5000x16_1_0_0_1_n_n.rhsIdx i c 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Entry `(p, q)` of the product accumulated into the zero array is the sum over the shared axis of the products
    of row `p` of the left operand with column `q` of the right one. -/
theorem mm5 {φ₁ φ₂ : FTy} (lhs : FVec Ideal S5000x128 φ₁) (rhs : FVec Ideal S128x16 φ₂) (p : Fin 5000) (q : Fin 16) :
    matmul (F := Ideal) dot_S5000x128_S128x16_S5000x16_1_0_0_1_n_n none lhs rhs (constant (F := Ideal) S5000x16 .f32 0x00000000#32) (ix2 p q)
      = ∑ k : Fin 128, lhs (ix2 p k) * rhs (ix2 k q) := by
  show FloatOps.matmul dot_S5000x128_S128x16_S5000x16_1_0_0_1_n_n none lhs rhs (constant S5000x16 .f32 0x00000000#32) (ix2 p q) = _
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact mm5_lhs0 _ _
    | ⟨1, _⟩ => exact (mm5_lhs1 _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (mm5_rhs0 _ _).trans hk
    | ⟨1, _⟩ => exact mm5_rhs1 _ _)
  rw [el, er]

/-! ## The bodies at an index

Every format change is the identity on the extended reals, a cast to the same shape is the identity, a bias row
broadcast over the rows reads its one row, and the rectifier's zero is the same word on both sides; what is left
of each body is the affine maps of the specification, row by row. -/

/-- The input projection's block: entry `(p, q)` is the affine image of row `p` of the block. -/
theorem pay0 (x0 : Vec Ideal S5000x32 .f32) (x1 : Vec Ideal S32x128 .f32) (x2 : Vec Ideal S1x128 .f32) (p : Fin 5000) (q : Fin 128) :
    k0_pay1 (F := Ideal) x0 x1 x2 (ix2 p q)
      = Cert.GraphNet.affine (fun k => x0 (ix2 p k)) (fun k j => x1 (ix2 k j)) (fun j => x2 (ix2 0 j)) q := by
  unfold k0_pay1
  simp only [addf_apply, maximumf_apply, truncf_apply, broadcast_apply, shapeCast_self, broadcastTo_1b_ab_apply, mm0]
  rfl

/-- The edge perceptron's block: entry `(p, q)` is the edge perceptron of rows `p` of the two gathered blocks. The first
    stage is the two products against the upper and the lower weights added, then the bias; each later stage a
    product, the bias, and between stages the rectifier. -/
theorem pay1 (x0 x1 : Vec Ideal S4000x128 .f32) (x2 x3 : Vec Ideal S128x128 .f32) (x4 : Vec Ideal S1x128 .f32)
    (x5 : Vec Ideal S128x128 .f32) (x6 : Vec Ideal S1x128 .f32) (x7 : Vec Ideal S128x128 .f32) (x8 : Vec Ideal S1x128 .f32)
    (p : Fin 4000) (q : Fin 128) :
    k1_pay1 (F := Ideal) (k1_pay2 (F := Ideal) x0 x1 x2 x3 x4 x5 x6 x7) x8 (ix2 p q)
      = Cert.GraphNet.edge (fun k => x0 (ix2 p k)) (fun k => x1 (ix2 p k)) (fun k j => x2 (ix2 k j)) (fun k j => x3 (ix2 k j))
          (fun j => x4 (ix2 0 j)) (fun k j => x5 (ix2 k j)) (fun j => x6 (ix2 0 j)) (fun k j => x7 (ix2 k j))
          (fun j => x8 (ix2 0 j)) q := by
  unfold k1_pay1 k1_pay2
  simp only [addf_apply, maximumf_apply, truncf_apply, broadcast_apply, shapeCast_self, broadcastTo_1b_ab_apply, mm1]
  rfl

/-- The node perceptron's block: entry `(p, q)` is the node perceptron of row `p` of the block of totals. -/
theorem pay2 (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k2_pay1 (F := Ideal) x0 x1 x2 x3 x4 (ix2 p q)
      = Cert.GraphNet.node (fun k => x0 (ix2 p k)) (fun k j => x1 (ix2 k j)) (fun j => x2 (ix2 0 j)) (fun k j => x3 (ix2 k j))
          (fun j => x4 (ix2 0 j)) q := by
  unfold k2_pay1
  simp only [addf_apply, maximumf_apply, truncf_apply, broadcast_apply, shapeCast_self, broadcastTo_1b_ab_apply, mm2]
  rfl

/-- The edge perceptron's block: entry `(p, q)` is the edge perceptron of rows `p` of the two gathered blocks. The first
    stage is the two products against the upper and the lower weights added, then the bias; each later stage a
    product, the bias, and between stages the rectifier. -/
theorem pay3 (x0 x1 : Vec Ideal S4000x128 .f32) (x2 x3 : Vec Ideal S128x128 .f32) (x4 : Vec Ideal S1x128 .f32)
    (x5 : Vec Ideal S128x128 .f32) (x6 : Vec Ideal S1x128 .f32) (x7 : Vec Ideal S128x128 .f32) (x8 : Vec Ideal S1x128 .f32)
    (p : Fin 4000) (q : Fin 128) :
    k3_pay1 (F := Ideal) (k3_pay2 (F := Ideal) x0 x1 x2 x3 x4 x5 x6 x7) x8 (ix2 p q)
      = Cert.GraphNet.edge (fun k => x0 (ix2 p k)) (fun k => x1 (ix2 p k)) (fun k j => x2 (ix2 k j)) (fun k j => x3 (ix2 k j))
          (fun j => x4 (ix2 0 j)) (fun k j => x5 (ix2 k j)) (fun j => x6 (ix2 0 j)) (fun k j => x7 (ix2 k j))
          (fun j => x8 (ix2 0 j)) q := by
  unfold k3_pay1 k3_pay2
  simp only [addf_apply, maximumf_apply, truncf_apply, broadcast_apply, shapeCast_self, broadcastTo_1b_ab_apply, mm1]
  rfl

/-- The node perceptron's block: entry `(p, q)` is the node perceptron of row `p` of the block of totals. -/
theorem pay4 (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k4_pay1 (F := Ideal) x0 x1 x2 x3 x4 (ix2 p q)
      = Cert.GraphNet.node (fun k => x0 (ix2 p k)) (fun k j => x1 (ix2 k j)) (fun j => x2 (ix2 0 j)) (fun k j => x3 (ix2 k j))
          (fun j => x4 (ix2 0 j)) q := by
  unfold k4_pay1
  simp only [addf_apply, maximumf_apply, truncf_apply, broadcast_apply, shapeCast_self, broadcastTo_1b_ab_apply, mm2]
  rfl

/-- The output projection's block: entry `(p, q)` is the affine image of row `p` of the block. -/
theorem pay5 (x0 : Vec Ideal S5000x128 .f32) (x1 : Vec Ideal S128x16 .f32) (x2 : Vec Ideal S1x16 .f32) (p : Fin 5000) (q : Fin 16) :
    k5_pay1 (F := Ideal) x0 x1 x2 (ix2 p q)
      = Cert.GraphNet.affine (fun k => x0 (ix2 p k)) (fun k j => x1 (ix2 k j)) (fun j => x2 (ix2 0 j)) q := by
  unfold k5_pay1
  simp only [addf_apply, maximumf_apply, truncf_apply, broadcast_apply, shapeCast_self, broadcastTo_1b_ab_apply, mm5]
  rfl

end Cert.KPay

end
-- ==== Proof.KReg0.lean ====
/-
  The input projection region, in closed form.

  The region's grid has ten points; point `t` loads rows `5000 t … 5000 t + 4999` of the node inputs, the whole
  weight matrix and the bias row, and stores the affine image of every loaded row. The ten stored blocks tile
  the output array, so after the region the array is the affine image of every row of the inputs.
-/
import proofs.«146966_j79087527788652_1_alg».proof.Proof.Gen.KernelIdeal.Frame
import proofs.«146966_j79087527788652_1_alg».proof.Proof.Spec
import proofs.«146966_j79087527788652_1_alg».proof.Proof.KPay
import Idealize.ShloMosaic.Lib.Pipeline.Value
import Idealize.ShloMosaic.Lib.ValueIdx

set_option maxRecDepth 16384

noncomputable section

namespace Cert.KernelIdeal.Region0

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the corner of its buffer. -/
theorem origin : (![0, 0] : Fin 2 → Nat) = fun _ => 0 := funext fun a => by fin_cases a <;> rfl

/-- Row `r` of grid point `t`'s block is row `t * 5000 + r` of the array: the 10 blocks of 5000 rows tile its 50000 rows. -/
def rowOf (t : Fin cfg0.N) (r : Fin 5000) : Fin 50000 :=
  ⟨t.val * 5000 + r.val, by have hN := N_0; have ht : t.val < grid0.N := t.isLt; have hr := r.isLt; omega⟩

/-- The region's output as one function of the arrays it finds: row `r` of the inputs through the affine map. -/
def G (A0 : S50000x32.Idx → EReal) (A1 : S32x128.Idx → EReal) (A2 : S1x128.Idx → EReal) : S50000x128.Idx → EReal :=
  toArr fun r j => affine (fun k => A0 (ix2 r k)) (fun k j => A1 (ix2 k j)) (fun j => A2 (ix2 0 j)) j

/-- The affine map's value depends only on the values of its row, weights and bias. -/
theorem stage_congr {K N : Nat} {x x' : Fin K → EReal} {w w' : Fin K → Fin N → EReal} {b b' : Fin N → EReal}
    (h0 : ∀ k, x k = x' k) (h1 : ∀ k j, w k j = w' k j) (h2 : ∀ j, b j = b' j) (q : Fin N) :
    affine x w b q = affine x' w' b' q := by
  obtain rfl : x = x' := funext h0
  obtain rfl : w = w' := funext fun k => funext (h1 k)
  obtain rfl : b = b' := funext h2
  rfl

/-- The windows' block indices at every grid point, decided over the grid: a window that moves takes block `t` of
    rows and all columns; a weight or bias window always takes its one whole block. -/
theorem idx : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

-- reading one block's index in the array costs the same for every window; with many windows the sum passes the default budget
set_option maxHeartbeats 2000000 in
/-- What grid point `t` writes back is block `t` of `G` of the arrays the region finds: the body's stored value at
    row `r`, column `j` of the block is the row function of row `r` of the moving blocks and of the whole weight
    blocks, and row `r` of block `t` is row `t * 5000 + r` of the array. -/
theorem flushed (c : Dev nD) (t : Fin cfg0.N) :
    (dat0 V c).flushed 3 t = ((cfg0.win 3).blk t).view.read (Elt Ideal) (G (V c main_arg0) (V c main_arg3) (V c main_v4)) := by
  show (cfg0.win 3).cut (grid0.coords t) ((dat0 V c).after 3 t) = _
  rw [after0_3]
  unfold out0_3
  rw [View.canon_unit_zero origin]
  simp only [View.ld_unit_zero (S := S5000x32) origin, View.ld_unit_zero (S := S32x128) origin, View.ld_unit_zero (S := S1x128) origin]
  obtain ⟨e0a, e0b, e1a, e1b, e2a, e2b, eoa, eob⟩ := idx t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (ix2 p q) = G _ _ _ (((cfg0.win 3).blk t).view.emb (ix2 p q))
  refine (Cert.KPay.pay0 _ _ _ p q).trans ?_
  have ho : ((cfg0.win 3).blk t).view.emb (ix2 p q) = ix2 (rowOf t p) q :=
    funext fun a => Fin.ext (by
      match a with
      | ⟨0, _⟩ => show win0_3.index t (0 : Fin 2) * 5000 + 1 * p.val = t.val * 5000 + p.val; omega
      | ⟨1, _⟩ => show win0_3.index t (1 : Fin 2) * 128 + 1 * q.val = q.val; omega)
  have h0 : ∀ k : Fin 32, iblk0 V c 0 t (ix2 p k) = V c main_arg0 (ix2 (rowOf t p) k) := fun k =>
    congrArg (V c main_arg0) (funext fun a => Fin.ext (by
      match a with
      | ⟨0, _⟩ => show win0_0.index t (0 : Fin 2) * 5000 + 1 * p.val = t.val * 5000 + p.val; omega
      | ⟨1, _⟩ => show win0_0.index t (1 : Fin 2) * 32 + 1 * k.val = k.val; omega))
  have h1 : ∀ (k : Fin 32) (j : Fin 128), iblk0 V c 1 t (ix2 k j) = V c main_arg3 (ix2 k j) := fun k j =>
    congrArg (V c main_arg3) (funext fun a => Fin.ext (by
      match a with
      | ⟨0, _⟩ => show win0_1.index t (0 : Fin 2) * 32 + 1 * k.val = k.val; omega
      | ⟨1, _⟩ => show win0_1.index t (1 : Fin 2) * 128 + 1 * j.val = j.val; omega))
  have h2 : ∀ j : Fin 128, iblk0 V c 2 t (ix2 0 j) = V c main_v4 (ix2 0 j) := fun j =>
    congrArg (V c main_v4) (funext fun a => Fin.ext (by
      match a with
      | ⟨0, _⟩ => show win0_2.index t (0 : Fin 2) * 1 + 1 * 0 = 0; omega
      | ⟨1, _⟩ => show win0_2.index t (1 : Fin 2) * 128 + 1 * j.val = j.val; omega))
  rw [ho]
  simp only [G, toArr_ix2]
  exact stage_congr h0 h1 h2 q

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Every index of the array lies in the block of the grid point numbered by its row divided by 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN := N_0
  let t : Fin cfg0.N := ⟨(i 0).val / 5000, by show (i 0).val / 5000 < grid0.N; omega⟩
  obtain ⟨e0a, e0b, e1a, e1b, e2a, e2b, eoa, eob⟩ := idx t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [eoa]
    show (i 0).val / 5000 * 5000 ≤ (i 0).val ∧ (i 0).val < (i 0).val / 5000 * 5000 + 5000
    omega
  | ⟨1, _⟩ =>
    show win0_3.index t (1 : Fin 2) * 128 ≤ (i 1).val ∧ (i 1).val < win0_3.index t (1 : Fin 2) * 128 + 128
    rw [eob]
    omega

/-- The region's output array after its last grid point is `G` of the arrays the region found. -/
theorem final (c : Dev nD) : (dat0 V c).arrAt 3 cfg0.N = G (V c main_arg0) (V c main_arg3) (V c main_v4) :=
  (dat0 V c).arrAt_eq_of_cover 3 _ (fun t _ => flushed V c t) cover

end Cert.KernelIdeal.Region0

end
-- ==== Proof.KReg1.lean ====
/-
  The edge perceptron region of layer 0, in closed form.

  The region's grid has a hundred points; point `t` loads rows `4000 t … 4000 t + 3999` of the two gathered
  arrays (the feature rows of every edge's source and of its target) and the whole weight and bias blocks, and
  stores, for every loaded edge, the three-stage perceptron of its pair of rows, the first stage taken as the source
  row against the upper weights plus the target row against the lower weights. The hundred stored blocks tile the
  output array, so after the region row `e` of the array is the perceptron of row `e` of the two gathered arrays.
-/
import proofs.«146966_j79087527788652_1_alg».proof.Proof.Gen.KernelIdeal.Frame
import proofs.«146966_j79087527788652_1_alg».proof.Proof.Spec
import proofs.«146966_j79087527788652_1_alg».proof.Proof.KPay
import Idealize.ShloMosaic.Lib.Pipeline.Value
import Idealize.ShloMosaic.Lib.ValueIdx

set_option maxRecDepth 16384

noncomputable section

namespace Cert.KernelIdeal.Region1

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the corner of its buffer. -/
theorem origin : (![0, 0] : Fin 2 → Nat) = fun _ => 0 := funext fun a => by fin_cases a <;> rfl

/-- Row `r` of grid point `t`'s block is row `t * 4000 + r` of the array: the 100 blocks of 4000 rows tile its 400000 rows. -/
def rowOf (t : Fin cfg1.N) (r : Fin 4000) : Fin 400000 :=
  ⟨t.val * 4000 + r.val, by have hN := N_1; have ht : t.val < grid1.N := t.isLt; have hr := r.isLt; omega⟩

/-- The region's output as one function of the arrays it finds: row `e` of the two gathered arrays through the edge perceptron. -/
def G (A0 : S400000x128.Idx → EReal) (A1 : S400000x128.Idx → EReal) (A2 : S128x128.Idx → EReal) (A3 : S128x128.Idx → EReal) (A4 : S1x128.Idx → EReal) (A5 : S128x128.Idx → EReal) (A6 : S1x128.Idx → EReal) (A7 : S128x128.Idx → EReal) (A8 : S1x128.Idx → EReal) : S400000x128.Idx → EReal :=
  toArr fun r j => edge (fun k => A0 (ix2 r k)) (fun k => A1 (ix2 r k)) (fun k j => A2 (ix2 k j)) (fun k j => A3 (ix2 k j)) (fun j => A4 (ix2 0 j)) (fun k j => A5 (ix2 k j)) (fun j => A6 (ix2 0 j)) (fun k j => A7 (ix2 k j)) (fun j => A8 (ix2 0 j)) j

/-- The edge perceptron's value depends only on the values of its two rows, weights and biases. -/
theorem stage_congr {xj xj' xi xi' : Fin 128 → EReal} {wt wt' wb wb' : Fin 128 → Fin 128 → EReal} {b1 b1' : Fin 128 → EReal}
    {w2 w2' : Fin 128 → Fin 128 → EReal} {b2 b2' : Fin 128 → EReal} {w3 w3' : Fin 128 → Fin 128 → EReal} {b3 b3' : Fin 128 → EReal}
    (h0 : ∀ k, xj k = xj' k) (h1 : ∀ k, xi k = xi' k) (h2 : ∀ k j, wt k j = wt' k j) (h3 : ∀ k j, wb k j = wb' k j)
    (h4 : ∀ j, b1 j = b1' j) (h5 : ∀ k j, w2 k j = w2' k j) (h6 : ∀ j, b2 j = b2' j) (h7 : ∀ k j, w3 k j = w3' k j)
    (h8 : ∀ j, b3 j = b3' j) (q : Fin 128) :
    edge xj xi wt wb b1 w2 b2 w3 b3 q = edge xj' xi' wt' wb' b1' w2' b2' w3' b3' q := by
  obtain rfl : xj = xj' := funext h0
  obtain rfl : xi = xi' := funext h1
  obtain rfl : wt = wt' := funext fun k => funext (h2 k)
  obtain rfl : wb = wb' := funext fun k => funext (h3 k)
  obtain rfl : b1 = b1' := funext h4
  obtain rfl : w2 = w2' := funext fun k => funext (h5 k)
  obtain rfl : b2 = b2' := funext h6
  obtain rfl : w3 = w3' := funext fun k => funext (h7 k)
  obtain rfl : b3 = b3' := funext h8
  rfl

/-- The windows' block indices at every grid point, decided over the grid: a window that moves takes block `t` of
    rows and all columns; a weight or bias window always takes its one whole block. -/
theorem idx : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

-- reading one block's index in the array costs the same for every window; with many windows the sum passes the default budget
set_option maxHeartbeats 2000000 in
/-- What grid point `t` writes back is block `t` of `G` of the arrays the region finds: the body's stored value at
    row `r`, column `j` of the block is the row function of row `r` of the moving blocks and of the whole weight
    blocks, and row `r` of block `t` is row `t * 4000 + r` of the array. -/
theorem flushed (c : Dev nD) (t : Fin cfg1.N) :
    (dat1 V c).flushed 9 t = ((cfg1.win 9).blk t).view.read (Elt Ideal) (G (V c main_v12) (V c main_v19) (V c main_v21) (V c main_v23) (V c main_v34) (V c main_v27) (V c main_v35) (V c main_v31) (V c main_v36)) := by
  show (cfg1.win 9).cut (grid1.coords t) ((dat1 V c).after 9 t) = _
  rw [after1_9]
  unfold out1_9
  rw [View.canon_unit_zero origin]
  simp only [View.ld_unit_zero (S := S4000x128) origin, View.ld_unit_zero (S := S128x128) origin, View.ld_unit_zero (S := S1x128) origin]
  obtain ⟨e0a, e0b, e1a, e1b, e2a, e2b, e3a, e3b, e4a, e4b, e5a, e5b, e6a, e6b, e7a, e7b, e8a, e8b, eoa, eob⟩ := idx t
  funext y
  obtain ⟨p, q, rfl⟩ : ∃ (p : Fin 4000) (q : Fin 128), y = ix2 p q := ⟨y 0, y 1, eq_ix2 y⟩
  show k1_pay1 (k1_pay2 (iblk1 V c 0 t) (iblk1 V c 1 t) (iblk1 V c 2 t) (iblk1 V c 3 t) (iblk1 V c 4 t) (iblk1 V c 5 t) (iblk1 V c 6 t) (iblk1 V c 7 t)) (iblk1 V c 8 t) (ix2 p q) = G _ _ _ _ _ _ _ _ _ (((cfg1.win 9).blk t).view.emb (ix2 p q))
  refine (Cert.KPay.pay1 _ _ _ _ _ _ _ _ _ p q).trans ?_
  have ho : ((cfg1.win 9).blk t).view.emb (ix2 p q) = ix2 (rowOf t p) q :=
    funext fun a => Fin.ext (by
      match a with
      | ⟨0, _⟩ => show win1_9.index t (0 : Fin 2) * 4000 + 1 * p.val = t.val * 4000 + p.val; omega
      | ⟨1, _⟩ => show win1_9.index t (1 : Fin 2) * 128 + 1 * q.val = q.val; omega)
  have h0 : ∀ k : Fin 128, iblk1 V c 0 t (ix2 p k) = V c main_v12 (ix2 (rowOf t p) k) := fun k =>
    congrArg (V c main_v12) (funext fun a => Fin.ext (by
      match a with
      | ⟨0, _⟩ => show win1_0.index t (0 : Fin 2) * 4000 + 1 * p.val = t.val * 4000 + p.val; omega
      | ⟨1, _⟩ => show win1_0.index t (1 : Fin 2) * 128 + 1 * k.val = k.val; omega))
  have h1 : ∀ k : Fin 128, iblk1 V c 1 t (ix2 p k) = V c main_v19 (ix2 (rowOf t p) k) := fun k =>
    congrArg (V c main_v19) (funext fun a => Fin.ext (by
      match a with
      | ⟨0, _⟩ => show win1_1.index t (0 : Fin 2) * 4000 + 1 * p.val = t.val * 4000 + p.val; omega
      | ⟨1, _⟩ => show win1_1.index t (1 : Fin 2) * 128 + 1 * k.val = k.val; omega))
  have h2 : ∀ (k : Fin 128) (j : Fin 128), iblk1 V c 2 t (ix2 k j) = V c main_v21 (ix2 k j) := fun k j =>
    congrArg (V c main_v21) (funext fun a => Fin.ext (by
      match a with
      | ⟨0, _⟩ => show win1_2.index t (0 : Fin 2) * 128 + 1 * k.val = k.val; omega
      | ⟨1, _⟩ => show win1_2.index t (1 : Fin 2) * 128 + 1 * j.val = j.val; omega))
  have h3 : ∀ (k : Fin 128) (j : Fin 128), iblk1 V c 3 t (ix2 k j) = V c main_v23 (ix2 k j) := fun k j =>
    congrArg (V c main_v23) (funext fun a => Fin.ext (by
      match a with
      | ⟨0, _⟩ => show win1_3.index t (0 : Fin 2) * 128 + 1 * k.val = k.val; omega
      | ⟨1, _⟩ => show win1_3.index t (1 : Fin 2) * 128 + 1 * j.val = j.val; omega))
  have h4 : ∀ j : Fin 128, iblk1 V c 4 t (ix2 0 j) = V c main_v34 (ix2 0 j) := fun j =>
    congrArg (V c main_v34) (funext fun a => Fin.ext (by
      match a with
      | ⟨0, _⟩ => show win1_4.index t (0 : Fin 2) * 1 + 1 * 0 = 0; omega
      | ⟨1, _⟩ => show win1_4.index t (1 : Fin 2) * 128 + 1 * j.val = j.val; omega))
  have h5 : ∀ (k : Fin 128) (j : Fin 128), iblk1 V c 5 t (ix2 k j) = V c main_v27 (ix2 k j) := fun k j =>
    congrArg (V c main_v27) (funext fun a => Fin.ext (by
      match a with
      | ⟨0, _⟩ => show win1_5.index t (0 : Fin 2) * 128 + 1 * k.val = k.val; omega
      | ⟨1, _⟩ => show win1_5.index t (1 : Fin 2) * 128 + 1 * j.val = j.val; omega))
  have h6 : ∀ j : Fin 128, iblk1 V c 6 t (ix2 0 j) = V c main_v35 (ix2 0 j) := fun j =>
    congrArg (V c main_v35) (funext fun a => Fin.ext (by
      match a with
      | ⟨0, _⟩ => show win1_6.index t (0 : Fin 2) * 1 + 1 * 0 = 0; omega
      | ⟨1, _⟩ => show win1_6.index t (1 : Fin 2) * 128 + 1 * j.val = j.val; omega))
  have h7 : ∀ (k : Fin 128) (j : Fin 128), iblk1 V c 7 t (ix2 k j) = V c main_v31 (ix2 k j) := fun k j =>
    congrArg (V c main_v31) (funext fun a => Fin.ext (by
      match a with
      | ⟨0, _⟩ => show win1_7.index t (0 : Fin 2) * 128 + 1 * k.val = k.val; omega
      | ⟨1, _⟩ => show win1_7.index t (1 : Fin 2) * 128 + 1 * j.val = j.val; omega))
  have h8 : ∀ j : Fin 128, iblk1 V c 8 t (ix2 0 j) = V c main_v36 (ix2 0 j) := fun j =>
    congrArg (V c main_v36) (funext fun a => Fin.ext (by
      match a with
      | ⟨0, _⟩ => show win1_8.index t (0 : Fin 2) * 1 + 1 * 0 = 0; omega
      | ⟨1, _⟩ => show win1_8.index t (1 : Fin 2) * 128 + 1 * j.val = j.val; omega))
  rw [ho]
  simp only [G, toArr_ix2]
  exact stage_congr h0 h1 h2 h3 h4 h5 h6 h7 h8 q

/-- An index of the array is in point `t`'s block iff each coordinate is in the block's range on its axis. -/
theorem mem_blk (t : Fin cfg1.N) (i : S400000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v37).slice (win1_9.rect t)).set ↔ _
  rw [View.set_slice_whole, Rect.mem_set_unit]
  exact Iff.rfl

/-- Every index of the array lies in the block of the grid point numbered by its row divided by 4000. -/
theorem cover (i : S400000x128.Idx) :
    ∃ t : Fin cfg1.N, (cfg1.win 9).flush t = true ∧ i ∈ ((cfg1.win 9).blk t).view.set := by
  have hi0 : (i 0).val < 400000 := (i 0).isLt
  have hi1 : (i 1).val < 128 := (i 1).isLt
  have hN := N_1
  let t : Fin cfg1.N := ⟨(i 0).val / 4000, by show (i 0).val / 4000 < grid1.N; omega⟩
  obtain ⟨e0a, e0b, e1a, e1b, e2a, e2b, e3a, e3b, e4a, e4b, e5a, e5b, e6a, e6b, e7a, e7b, e8a, e8b, eoa, eob⟩ := idx t
  refine ⟨t, flush1_9 t, ?_⟩
  rw [mem_blk]
  intro a
  match a with
  | ⟨0, _⟩ =>
    show win1_9.index t (0 : Fin 2) * 4000 ≤ (i 0).val ∧ (i 0).val < win1_9.index t (0 : Fin 2) * 4000 + 4000
    rw [eoa]
    show (i 0).val / 4000 * 4000 ≤ (i 0).val ∧ (i 0).val < (i 0).val / 4000 * 4000 + 4000
    omega
  | ⟨1, _⟩ =>
    show win1_9.index t (1 : Fin 2) * 128 ≤ (i 1).val ∧ (i 1).val < win1_9.index t (1 : Fin 2) * 128 + 128
    rw [eob]
    omega

/-- The region's output array after its last grid point is `G` of the arrays the region found. -/
theorem final (c : Dev nD) : (dat1 V c).arrAt 9 cfg1.N = G (V c main_v12) (V c main_v19) (V c main_v21) (V c main_v23) (V c main_v34) (V c main_v27) (V c main_v35) (V c main_v31) (V c main_v36) :=
  (dat1 V c).arrAt_eq_of_cover 9 _ (fun t _ => flushed V c t) cover

end Cert.KernelIdeal.Region1

end
-- ==== Proof.KReg2.lean ====
/-
  The node perceptron region of layer 0, in closed form.

  The region's grid has ten points; point `t` loads rows `5000 t … 5000 t + 4999` of the summed messages and the
  whole weight and bias blocks, and stores the two-stage perceptron of every loaded row. The ten stored blocks
  tile the output array, so after the region row `r` of the array is the perceptron of row `r` of the sums.
-/
import proofs.«146966_j79087527788652_1_alg».proof.Proof.Gen.KernelIdeal.Frame
import proofs.«146966_j79087527788652_1_alg».proof.Proof.Spec
import proofs.«146966_j79087527788652_1_alg».proof.Proof.KPay
import Idealize.ShloMosaic.Lib.Pipeline.Value
import Idealize.ShloMosaic.Lib.ValueIdx

set_option maxRecDepth 16384

noncomputable section

namespace Cert.KernelIdeal.Region2

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the corner of its buffer. -/
theorem origin : (![0, 0] : Fin 2 → Nat) = fun _ => 0 := funext fun a => by fin_cases a <;> rfl

/-- Row `r` of grid point `t`'s block is row `t * 5000 + r` of the array: the 10 blocks of 5000 rows tile its 50000 rows. -/
def rowOf (t : Fin cfg2.N) (r : Fin 5000) : Fin 50000 :=
  ⟨t.val * 5000 + r.val, by have hN := N_2; have ht : t.val < grid2.N := t.isLt; have hr := r.isLt; omega⟩

/-- The region's output as one function of the arrays it finds: row `r` of the sums through the node perceptron. -/
def G (A0 : S50000x128.Idx → EReal) (A1 : S128x128.Idx → EReal) (A2 : S1x128.Idx → EReal) (A3 : S128x128.Idx → EReal) (A4 : S1x128.Idx → EReal) : S50000x128.Idx → EReal :=
  toArr fun r j => node (fun k => A0 (ix2 r k)) (fun k j => A1 (ix2 k j)) (fun j => A2 (ix2 0 j)) (fun k j => A3 (ix2 k j)) (fun j => A4 (ix2 0 j)) j

/-- The node perceptron's value depends only on the values of its row, weights and biases. -/
theorem stage_congr {a a' : Fin 128 → EReal} {w1 w1' : Fin 128 → Fin 128 → EReal} {b1 b1' : Fin 128 → EReal}
    {w2 w2' : Fin 128 → Fin 128 → EReal} {b2 b2' : Fin 128 → EReal}
    (h0 : ∀ k, a k = a' k) (h1 : ∀ k j, w1 k j = w1' k j) (h2 : ∀ j, b1 j = b1' j) (h3 : ∀ k j, w2 k j = w2' k j)
    (h4 : ∀ j, b2 j = b2' j) (q : Fin 128) :
    node a w1 b1 w2 b2 q = node a' w1' b1' w2' b2' q := by
  obtain rfl : a = a' := funext h0
  obtain rfl : w1 = w1' := funext fun k => funext (h1 k)
  obtain rfl : b1 = b1' := funext h2
  obtain rfl : w2 = w2' := funext fun k => funext (h3 k)
  obtain rfl : b2 = b2' := funext h4
  rfl

/-- The windows' block indices at every grid point, decided over the grid: a window that moves takes block `t` of
    rows and all columns; a weight or bias window always takes its one whole block. -/
theorem idx : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

-- reading one block's index in the array costs the same for every window; with many windows the sum passes the default budget
set_option maxHeartbeats 2000000 in
/-- What grid point `t` writes back is block `t` of `G` of the arrays the region finds: the body's stored value at
    row `r`, column `j` of the block is the row function of row `r` of the moving blocks and of the whole weight
    blocks, and row `r` of block `t` is row `t * 5000 + r` of the array. -/
theorem flushed (c : Dev nD) (t : Fin cfg2.N) :
    (dat2 V c).flushed 5 t = ((cfg2.win 5).blk t).view.read (Elt Ideal) (G (V c main_v40) (V c main_v42) (V c main_v49) (V c main_v46) (V c main_v50)) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x128) origin, View.ld_unit_zero (S := S1x128) origin]
  obtain ⟨e0a, e0b, e1a, e1b, e2a, e2b, e3a, e3b, e4a, e4b, eoa, eob⟩ := idx t
  funext y
  obtain ⟨p, q, rfl⟩ : ∃ (p : Fin 5000) (q : Fin 128), y = ix2 p q := ⟨y 0, y 1, eq_ix2 y⟩
  show k2_pay1 (iblk2 V c 0 t) (iblk2 V c 1 t) (iblk2 V c 2 t) (iblk2 V c 3 t) (iblk2 V c 4 t) (ix2 p q) = G _ _ _ _ _ (((cfg2.win 5).blk t).view.emb (ix2 p q))
  refine (Cert.KPay.pay2 _ _ _ _ _ p q).trans ?_
  have ho : ((cfg2.win 5).blk t).view.emb (ix2 p q) = ix2 (rowOf t p) q :=
    funext fun a => Fin.ext (by
      match a with
      | ⟨0, _⟩ => show win2_5.index t (0 : Fin 2) * 5000 + 1 * p.val = t.val * 5000 + p.val; omega
      | ⟨1, _⟩ => show win2_5.index t (1 : Fin 2) * 128 + 1 * q.val = q.val; omega)
  have h0 : ∀ k : Fin 128, iblk2 V c 0 t (ix2 p k) = V c main_v40 (ix2 (rowOf t p) k) := fun k =>
    congrArg (V c main_v40) (funext fun a => Fin.ext (by
      match a with
      | ⟨0, _⟩ => show win2_0.index t (0 : Fin 2) * 5000 + 1 * p.val = t.val * 5000 + p.val; omega
      | ⟨1, _⟩ => show win2_0.index t (1 : Fin 2) * 128 + 1 * k.val = k.val; omega))
  have h1 : ∀ (k : Fin 128) (j : Fin 128), iblk2 V c 1 t (ix2 k j) = V c main_v42 (ix2 k j) := fun k j =>
    congrArg (V c main_v42) (funext fun a => Fin.ext (by
      match a with
      | ⟨0, _⟩ => show win2_1.index t (0 : Fin 2) * 128 + 1 * k.val = k.val; omega
      | ⟨1, _⟩ => show win2_1.index t (1 : Fin 2) * 128 + 1 * j.val = j.val; omega))
  have h2 : ∀ j : Fin 128, iblk2 V c 2 t (ix2 0 j) = V c main_v49 (ix2 0 j) := fun j =>
    congrArg (V c main_v49) (funext fun a => Fin.ext (by
      match a with
      | ⟨0, _⟩ => show win2_2.index t (0 : Fin 2) * 1 + 1 * 0 = 0; omega
      | ⟨1, _⟩ => show win2_2.index t (1 : Fin 2) * 128 + 1 * j.val = j.val; omega))
  have h3 : ∀ (k : Fin 128) (j : Fin 128), iblk2 V c 3 t (ix2 k j) = V c main_v46 (ix2 k j) := fun k j =>
    congrArg (V c main_v46) (funext fun a => Fin.ext (by
      match a with
      | ⟨0, _⟩ => show win2_3.index t (0 : Fin 2) * 128 + 1 * k.val = k.val; omega
      | ⟨1, _⟩ => show win2_3.index t (1 : Fin 2) * 128 + 1 * j.val = j.val; omega))
  have h4 : ∀ j : Fin 128, iblk2 V c 4 t (ix2 0 j) = V c main_v50 (ix2 0 j) := fun j =>
    congrArg (V c main_v50) (funext fun a => Fin.ext (by
      match a with
      | ⟨0, _⟩ => show win2_4.index t (0 : Fin 2) * 1 + 1 * 0 = 0; omega
      | ⟨1, _⟩ => show win2_4.index t (1 : Fin 2) * 128 + 1 * j.val = j.val; omega))
  rw [ho]
  simp only [G, toArr_ix2]
  exact stage_congr h0 h1 h2 h3 h4 q

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v51).slice (win2_5.rect t)).set ↔ _
  rw [View.set_slice_whole, Rect.mem_set_unit]
  exact Iff.rfl

/-- Every index of the array lies in the block of the grid point numbered by its row divided by 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN := N_2
  let t : Fin cfg2.N := ⟨(i 0).val / 5000, by show (i 0).val / 5000 < grid2.N; omega⟩
  obtain ⟨e0a, e0b, e1a, e1b, e2a, e2b, e3a, e3b, e4a, e4b, eoa, eob⟩ := idx t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [eoa]
    show (i 0).val / 5000 * 5000 ≤ (i 0).val ∧ (i 0).val < (i 0).val / 5000 * 5000 + 5000
    omega
  | ⟨1, _⟩ =>
    show win2_5.index t (1 : Fin 2) * 128 ≤ (i 1).val ∧ (i 1).val < win2_5.index t (1 : Fin 2) * 128 + 128
    rw [eob]
    omega

/-- The region's output array after its last grid point is `G` of the arrays the region found. -/
theorem final (c : Dev nD) : (dat2 V c).arrAt 5 cfg2.N = G (V c main_v40) (V c main_v42) (V c main_v49) (V c main_v46) (V c main_v50) :=
  (dat2 V c).arrAt_eq_of_cover 5 _ (fun t _ => flushed V c t) cover

end Cert.KernelIdeal.Region2

end
-- ==== Proof.KReg3.lean ====
/-
  The edge perceptron region of layer 1, in closed form.

  The region's grid has a hundred points; point `t` loads rows `4000 t … 4000 t + 3999` of the two gathered
  arrays (the feature rows of every edge's source and of its target) and the whole weight and bias blocks, and
  stores, for every loaded edge, the three-stage perceptron of its pair of rows, the first stage taken as the source
  row against the upper weights plus the target row against the lower weights. The hundred stored blocks tile the
  output array, so after the region row `e` of the array is the perceptron of row `e` of the two gathered arrays.
-/
import proofs.«146966_j79087527788652_1_alg».proof.Proof.Gen.KernelIdeal.Frame
import proofs.«146966_j79087527788652_1_alg».proof.Proof.Spec
import proofs.«146966_j79087527788652_1_alg».proof.Proof.KPay
import Idealize.ShloMosaic.Lib.Pipeline.Value
import Idealize.ShloMosaic.Lib.ValueIdx

set_option maxRecDepth 16384

noncomputable section

namespace Cert.KernelIdeal.Region3

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the corner of its buffer. -/
theorem origin : (![0, 0] : Fin 2 → Nat) = fun _ => 0 := funext fun a => by fin_cases a <;> rfl

/-- Row `r` of grid point `t`'s block is row `t * 4000 + r` of the array: the 100 blocks of 4000 rows tile its 400000 rows. -/
def rowOf (t : Fin cfg3.N) (r : Fin 4000) : Fin 400000 :=
  ⟨t.val * 4000 + r.val, by have hN := N_3; have ht : t.val < grid3.N := t.isLt; have hr := r.isLt; omega⟩

/-- The region's output as one function of the arrays it finds: row `e` of the two gathered arrays through the edge perceptron. -/
def G (A0 : S400000x128.Idx → EReal) (A1 : S400000x128.Idx → EReal) (A2 : S128x128.Idx → EReal) (A3 : S128x128.Idx → EReal) (A4 : S1x128.Idx → EReal) (A5 : S128x128.Idx → EReal) (A6 : S1x128.Idx → EReal) (A7 : S128x128.Idx → EReal) (A8 : S1x128.Idx → EReal) : S400000x128.Idx → EReal :=
  toArr fun r j => edge (fun k => A0 (ix2 r k)) (fun k => A1 (ix2 r k)) (fun k j => A2 (ix2 k j)) (fun k j => A3 (ix2 k j)) (fun j => A4 (ix2 0 j)) (fun k j => A5 (ix2 k j)) (fun j => A6 (ix2 0 j)) (fun k j => A7 (ix2 k j)) (fun j => A8 (ix2 0 j)) j

/-- The edge perceptron's value depends only on the values of its two rows, weights and biases. -/
theorem stage_congr {xj xj' xi xi' : Fin 128 → EReal} {wt wt' wb wb' : Fin 128 → Fin 128 → EReal} {b1 b1' : Fin 128 → EReal}
    {w2 w2' : Fin 128 → Fin 128 → EReal} {b2 b2' : Fin 128 → EReal} {w3 w3' : Fin 128 → Fin 128 → EReal} {b3 b3' : Fin 128 → EReal}
    (h0 : ∀ k, xj k = xj' k) (h1 : ∀ k, xi k = xi' k) (h2 : ∀ k j, wt k j = wt' k j) (h3 : ∀ k j, wb k j = wb' k j)
    (h4 : ∀ j, b1 j = b1' j) (h5 : ∀ k j, w2 k j = w2' k j) (h6 : ∀ j, b2 j = b2' j) (h7 : ∀ k j, w3 k j = w3' k j)
    (h8 : ∀ j, b3 j = b3' j) (q : Fin 128) :
    edge xj xi wt wb b1 w2 b2 w3 b3 q = edge xj' xi' wt' wb' b1' w2' b2' w3' b3' q := by
  obtain rfl : xj = xj' := funext h0
  obtain rfl : xi = xi' := funext h1
  obtain rfl : wt = wt' := funext fun k => funext (h2 k)
  obtain rfl : wb = wb' := funext fun k => funext (h3 k)
  obtain rfl : b1 = b1' := funext h4
  obtain rfl : w2 = w2' := funext fun k => funext (h5 k)
  obtain rfl : b2 = b2' := funext h6
  obtain rfl : w3 = w3' := funext fun k => funext (h7 k)
  obtain rfl : b3 = b3' := funext h8
  rfl

/-- The windows' block indices at every grid point, decided over the grid: a window that moves takes block `t` of
    rows and all columns; a weight or bias window always takes its one whole block. -/
theorem idx : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0 :=
  (by decide +kernel : ∀ t : Fin grid3.N, _)

-- reading one block's index in the array costs the same for every window; with many windows the sum passes the default budget
set_option maxHeartbeats 2000000 in
/-- What grid point `t` writes back is block `t` of `G` of the arrays the region finds: the body's stored value at
    row `r`, column `j` of the block is the row function of row `r` of the moving blocks and of the whole weight
    blocks, and row `r` of block `t` is row `t * 4000 + r` of the array. -/
theorem flushed (c : Dev nD) (t : Fin cfg3.N) :
    (dat3 V c).flushed 9 t = ((cfg3.win 9).blk t).view.read (Elt Ideal) (G (V c main_v58) (V c main_v65) (V c main_v67) (V c main_v69) (V c main_v80) (V c main_v73) (V c main_v81) (V c main_v77) (V c main_v82)) := by
  show (cfg3.win 9).cut (grid3.coords t) ((dat3 V c).after 9 t) = _
  rw [after3_9]
  unfold out3_9
  rw [View.canon_unit_zero origin]
  simp only [View.ld_unit_zero (S := S4000x128) origin, View.ld_unit_zero (S := S128x128) origin, View.ld_unit_zero (S := S1x128) origin]
  obtain ⟨e0a, e0b, e1a, e1b, e2a, e2b, e3a, e3b, e4a, e4b, e5a, e5b, e6a, e6b, e7a, e7b, e8a, e8b, eoa, eob⟩ := idx t
  funext y
  obtain ⟨p, q, rfl⟩ : ∃ (p : Fin 4000) (q : Fin 128), y = ix2 p q := ⟨y 0, y 1, eq_ix2 y⟩
  show k3_pay1 (k3_pay2 (iblk3 V c 0 t) (iblk3 V c 1 t) (iblk3 V c 2 t) (iblk3 V c 3 t) (iblk3 V c 4 t) (iblk3 V c 5 t) (iblk3 V c 6 t) (iblk3 V c 7 t)) (iblk3 V c 8 t) (ix2 p q) = G _ _ _ _ _ _ _ _ _ (((cfg3.win 9).blk t).view.emb (ix2 p q))
  refine (Cert.KPay.pay3 _ _ _ _ _ _ _ _ _ p q).trans ?_
  have ho : ((cfg3.win 9).blk t).view.emb (ix2 p q) = ix2 (rowOf t p) q :=
    funext fun a => Fin.ext (by
      match a with
      | ⟨0, _⟩ => show win3_9.index t (0 : Fin 2) * 4000 + 1 * p.val = t.val * 4000 + p.val; omega
      | ⟨1, _⟩ => show win3_9.index t (1 : Fin 2) * 128 + 1 * q.val = q.val; omega)
  have h0 : ∀ k : Fin 128, iblk3 V c 0 t (ix2 p k) = V c main_v58 (ix2 (rowOf t p) k) := fun k =>
    congrArg (V c main_v58) (funext fun a => Fin.ext (by
      match a with
      | ⟨0, _⟩ => show win3_0.index t (0 : Fin 2) * 4000 + 1 * p.val = t.val * 4000 + p.val; omega
      | ⟨1, _⟩ => show win3_0.index t (1 : Fin 2) * 128 + 1 * k.val = k.val; omega))
  have h1 : ∀ k : Fin 128, iblk3 V c 1 t (ix2 p k) = V c main_v65 (ix2 (rowOf t p) k) := fun k =>
    congrArg (V c main_v65) (funext fun a => Fin.ext (by
      match a with
      | ⟨0, _⟩ => show win3_1.index t (0 : Fin 2) * 4000 + 1 * p.val = t.val * 4000 + p.val; omega
      | ⟨1, _⟩ => show win3_1.index t (1 : Fin 2) * 128 + 1 * k.val = k.val; omega))
  have h2 : ∀ (k : Fin 128) (j : Fin 128), iblk3 V c 2 t (ix2 k j) = V c main_v67 (ix2 k j) := fun k j =>
    congrArg (V c main_v67) (funext fun a => Fin.ext (by
      match a with
      | ⟨0, _⟩ => show win3_2.index t (0 : Fin 2) * 128 + 1 * k.val = k.val; omega
      | ⟨1, _⟩ => show win3_2.index t (1 : Fin 2) * 128 + 1 * j.val = j.val; omega))
  have h3 : ∀ (k : Fin 128) (j : Fin 128), iblk3 V c 3 t (ix2 k j) = V c main_v69 (ix2 k j) := fun k j =>
    congrArg (V c main_v69) (funext fun a => Fin.ext (by
      match a with
      | ⟨0, _⟩ => show win3_3.index t (0 : Fin 2) * 128 + 1 * k.val = k.val; omega
      | ⟨1, _⟩ => show win3_3.index t (1 : Fin 2) * 128 + 1 * j.val = j.val; omega))
  have h4 : ∀ j : Fin 128, iblk3 V c 4 t (ix2 0 j) = V c main_v80 (ix2 0 j) := fun j =>
    congrArg (V c main_v80) (funext fun a => Fin.ext (by
      match a with
      | ⟨0, _⟩ => show win3_4.index t (0 : Fin 2) * 1 + 1 * 0 = 0; omega
      | ⟨1, _⟩ => show win3_4.index t (1 : Fin 2) * 128 + 1 * j.val = j.val; omega))
  have h5 : ∀ (k : Fin 128) (j : Fin 128), iblk3 V c 5 t (ix2 k j) = V c main_v73 (ix2 k j) := fun k j =>
    congrArg (V c main_v73) (funext fun a => Fin.ext (by
      match a with
      | ⟨0, _⟩ => show win3_5.index t (0 : Fin 2) * 128 + 1 * k.val = k.val; omega
      | ⟨1, _⟩ => show win3_5.index t (1 : Fin 2) * 128 + 1 * j.val = j.val; omega))
  have h6 : ∀ j : Fin 128, iblk3 V c 6 t (ix2 0 j) = V c main_v81 (ix2 0 j) := fun j =>
    congrArg (V c main_v81) (funext fun a => Fin.ext (by
      match a with
      | ⟨0, _⟩ => show win3_6.index t (0 : Fin 2) * 1 + 1 * 0 = 0; omega
      | ⟨1, _⟩ => show win3_6.index t (1 : Fin 2) * 128 + 1 * j.val = j.val; omega))
  have h7 : ∀ (k : Fin 128) (j : Fin 128), iblk3 V c 7 t (ix2 k j) = V c main_v77 (ix2 k j) := fun k j =>
    congrArg (V c main_v77) (funext fun a => Fin.ext (by
      match a with
      | ⟨0, _⟩ => show win3_7.index t (0 : Fin 2) * 128 + 1 * k.val = k.val; omega
      | ⟨1, _⟩ => show win3_7.index t (1 : Fin 2) * 128 + 1 * j.val = j.val; omega))
  have h8 : ∀ j : Fin 128, iblk3 V c 8 t (ix2 0 j) = V c main_v82 (ix2 0 j) := fun j =>
    congrArg (V c main_v82) (funext fun a => Fin.ext (by
      match a with
      | ⟨0, _⟩ => show win3_8.index t (0 : Fin 2) * 1 + 1 * 0 = 0; omega
      | ⟨1, _⟩ => show win3_8.index t (1 : Fin 2) * 128 + 1 * j.val = j.val; omega))
  rw [ho]
  simp only [G, toArr_ix2]
  exact stage_congr h0 h1 h2 h3 h4 h5 h6 h7 h8 q

/-- An index of the array is in point `t`'s block iff each coordinate is in the block's range on its axis. -/
theorem mem_blk (t : Fin cfg3.N) (i : S400000x128.Idx) :
    i ∈ ((cfg3.win 9).blk t).view.set ↔ ∀ a : Fin 2, win3_9.index t a * S4000x128.size a ≤ (i a).val ∧ (i a).val < win3_9.index t a * S4000x128.size a + S4000x128.size a := by
  show i ∈ ((View.whole main_v83).slice (win3_9.rect t)).set ↔ _
  rw [View.set_slice_whole, Rect.mem_set_unit]
  exact Iff.rfl

/-- Every index of the array lies in the block of the grid point numbered by its row divided by 4000. -/
theorem cover (i : S400000x128.Idx) :
    ∃ t : Fin cfg3.N, (cfg3.win 9).flush t = true ∧ i ∈ ((cfg3.win 9).blk t).view.set := by
  have hi0 : (i 0).val < 400000 := (i 0).isLt
  have hi1 : (i 1).val < 128 := (i 1).isLt
  have hN := N_3
  let t : Fin cfg3.N := ⟨(i 0).val / 4000, by show (i 0).val / 4000 < grid3.N; omega⟩
  obtain ⟨e0a, e0b, e1a, e1b, e2a, e2b, e3a, e3b, e4a, e4b, e5a, e5b, e6a, e6b, e7a, e7b, e8a, e8b, eoa, eob⟩ := idx t
  refine ⟨t, flush3_9 t, ?_⟩
  rw [mem_blk]
  intro a
  match a with
  | ⟨0, _⟩ =>
    show win3_9.index t (0 : Fin 2) * 4000 ≤ (i 0).val ∧ (i 0).val < win3_9.index t (0 : Fin 2) * 4000 + 4000
    rw [eoa]
    show (i 0).val / 4000 * 4000 ≤ (i 0).val ∧ (i 0).val < (i 0).val / 4000 * 4000 + 4000
    omega
  | ⟨1, _⟩ =>
    show win3_9.index t (1 : Fin 2) * 128 ≤ (i 1).val ∧ (i 1).val < win3_9.index t (1 : Fin 2) * 128 + 128
    rw [eob]
    omega

/-- The region's output array after its last grid point is `G` of the arrays the region found. -/
theorem final (c : Dev nD) : (dat3 V c).arrAt 9 cfg3.N = G (V c main_v58) (V c main_v65) (V c main_v67) (V c main_v69) (V c main_v80) (V c main_v73) (V c main_v81) (V c main_v77) (V c main_v82) :=
  (dat3 V c).arrAt_eq_of_cover 9 _ (fun t _ => flushed V c t) cover

end Cert.KernelIdeal.Region3

end
-- ==== Proof.KReg4.lean ====
/-
  The node perceptron region of layer 1, in closed form.

  The region's grid has ten points; point `t` loads rows `5000 t … 5000 t + 4999` of the summed messages and the
  whole weight and bias blocks, and stores the two-stage perceptron of every loaded row. The ten stored blocks
  tile the output array, so after the region row `r` of the array is the perceptron of row `r` of the sums.
-/
import proofs.«146966_j79087527788652_1_alg».proof.Proof.Gen.KernelIdeal.Frame
import proofs.«146966_j79087527788652_1_alg».proof.Proof.Spec
import proofs.«146966_j79087527788652_1_alg».proof.Proof.KPay
import Idealize.ShloMosaic.Lib.Pipeline.Value
import Idealize.ShloMosaic.Lib.ValueIdx

set_option maxRecDepth 16384

noncomputable section

namespace Cert.KernelIdeal.Region4

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the corner of its buffer. -/
theorem origin : (![0, 0] : Fin 2 → Nat) = fun _ => 0 := funext fun a => by fin_cases a <;> rfl

/-- Row `r` of grid point `t`'s block is row `t * 5000 + r` of the array: the 10 blocks of 5000 rows tile its 50000 rows. -/
def rowOf (t : Fin cfg4.N) (r : Fin 5000) : Fin 50000 :=
  ⟨t.val * 5000 + r.val, by have hN := N_4; have ht : t.val < grid4.N := t.isLt; have hr := r.isLt; omega⟩

/-- The region's output as one function of the arrays it finds: row `r` of the sums through the node perceptron. -/
def G (A0 : S50000x128.Idx → EReal) (A1 : S128x128.Idx → EReal) (A2 : S1x128.Idx → EReal) (A3 : S128x128.Idx → EReal) (A4 : S1x128.Idx → EReal) : S50000x128.Idx → EReal :=
  toArr fun r j => node (fun k => A0 (ix2 r k)) (fun k j => A1 (ix2 k j)) (fun j => A2 (ix2 0 j)) (fun k j => A3 (ix2 k j)) (fun j => A4 (ix2 0 j)) j

/-- The node perceptron's value depends only on the values of its row, weights and biases. -/
theorem stage_congr {a a' : Fin 128 → EReal} {w1 w1' : Fin 128 → Fin 128 → EReal} {b1 b1' : Fin 128 → EReal}
    {w2 w2' : Fin 128 → Fin 128 → EReal} {b2 b2' : Fin 128 → EReal}
    (h0 : ∀ k, a k = a' k) (h1 : ∀ k j, w1 k j = w1' k j) (h2 : ∀ j, b1 j = b1' j) (h3 : ∀ k j, w2 k j = w2' k j)
    (h4 : ∀ j, b2 j = b2' j) (q : Fin 128) :
    node a w1 b1 w2 b2 q = node a' w1' b1' w2' b2' q := by
  obtain rfl : a = a' := funext h0
  obtain rfl : w1 = w1' := funext fun k => funext (h1 k)
  obtain rfl : b1 = b1' := funext h2
  obtain rfl : w2 = w2' := funext fun k => funext (h3 k)
  obtain rfl : b2 = b2' := funext h4
  rfl

/-- The windows' block indices at every grid point, decided over the grid: a window that moves takes block `t` of
    rows and all columns; a weight or bias window always takes its one whole block. -/
theorem idx : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

-- reading one block's index in the array costs the same for every window; with many windows the sum passes the default budget
set_option maxHeartbeats 2000000 in
/-- What grid point `t` writes back is block `t` of `G` of the arrays the region finds: the body's stored value at
    row `r`, column `j` of the block is the row function of row `r` of the moving blocks and of the whole weight
    blocks, and row `r` of block `t` is row `t * 5000 + r` of the array. -/
theorem flushed (c : Dev nD) (t : Fin cfg4.N) :
    (dat4 V c).flushed 5 t = ((cfg4.win 5).blk t).view.read (Elt Ideal) (G (V c main_v86) (V c main_v88) (V c main_v95) (V c main_v92) (V c main_v96)) := by
  show (cfg4.win 5).cut (grid4.coords t) ((dat4 V c).after 5 t) = _
  rw [after4_5]
  unfold out4_5
  rw [View.canon_unit_zero origin]
  simp only [View.ld_unit_zero (S := S5000x128) origin, View.ld_unit_zero (S := S128x128) origin, View.ld_unit_zero (S := S1x128) origin]
  obtain ⟨e0a, e0b, e1a, e1b, e2a, e2b, e3a, e3b, e4a, e4b, eoa, eob⟩ := idx t
  funext y
  obtain ⟨p, q, rfl⟩ : ∃ (p : Fin 5000) (q : Fin 128), y = ix2 p q := ⟨y 0, y 1, eq_ix2 y⟩
  show k4_pay1 (iblk4 V c 0 t) (iblk4 V c 1 t) (iblk4 V c 2 t) (iblk4 V c 3 t) (iblk4 V c 4 t) (ix2 p q) = G _ _ _ _ _ (((cfg4.win 5).blk t).view.emb (ix2 p q))
  refine (Cert.KPay.pay4 _ _ _ _ _ p q).trans ?_
  have ho : ((cfg4.win 5).blk t).view.emb (ix2 p q) = ix2 (rowOf t p) q :=
    funext fun a => Fin.ext (by
      match a with
      | ⟨0, _⟩ => show win4_5.index t (0 : Fin 2) * 5000 + 1 * p.val = t.val * 5000 + p.val; omega
      | ⟨1, _⟩ => show win4_5.index t (1 : Fin 2) * 128 + 1 * q.val = q.val; omega)
  have h0 : ∀ k : Fin 128, iblk4 V c 0 t (ix2 p k) = V c main_v86 (ix2 (rowOf t p) k) := fun k =>
    congrArg (V c main_v86) (funext fun a => Fin.ext (by
      match a with
      | ⟨0, _⟩ => show win4_0.index t (0 : Fin 2) * 5000 + 1 * p.val = t.val * 5000 + p.val; omega
      | ⟨1, _⟩ => show win4_0.index t (1 : Fin 2) * 128 + 1 * k.val = k.val; omega))
  have h1 : ∀ (k : Fin 128) (j : Fin 128), iblk4 V c 1 t (ix2 k j) = V c main_v88 (ix2 k j) := fun k j =>
    congrArg (V c main_v88) (funext fun a => Fin.ext (by
      match a with
      | ⟨0, _⟩ => show win4_1.index t (0 : Fin 2) * 128 + 1 * k.val = k.val; omega
      | ⟨1, _⟩ => show win4_1.index t (1 : Fin 2) * 128 + 1 * j.val = j.val; omega))
  have h2 : ∀ j : Fin 128, iblk4 V c 2 t (ix2 0 j) = V c main_v95 (ix2 0 j) := fun j =>
    congrArg (V c main_v95) (funext fun a => Fin.ext (by
      match a with
      | ⟨0, _⟩ => show win4_2.index t (0 : Fin 2) * 1 + 1 * 0 = 0; omega
      | ⟨1, _⟩ => show win4_2.index t (1 : Fin 2) * 128 + 1 * j.val = j.val; omega))
  have h3 : ∀ (k : Fin 128) (j : Fin 128), iblk4 V c 3 t (ix2 k j) = V c main_v92 (ix2 k j) := fun k j =>
    congrArg (V c main_v92) (funext fun a => Fin.ext (by
      match a with
      | ⟨0, _⟩ => show win4_3.index t (0 : Fin 2) * 128 + 1 * k.val = k.val; omega
      | ⟨1, _⟩ => show win4_3.index t (1 : Fin 2) * 128 + 1 * j.val = j.val; omega))
  have h4 : ∀ j : Fin 128, iblk4 V c 4 t (ix2 0 j) = V c main_v96 (ix2 0 j) := fun j =>
    congrArg (V c main_v96) (funext fun a => Fin.ext (by
      match a with
      | ⟨0, _⟩ => show win4_4.index t (0 : Fin 2) * 1 + 1 * 0 = 0; omega
      | ⟨1, _⟩ => show win4_4.index t (1 : Fin 2) * 128 + 1 * j.val = j.val; omega))
  rw [ho]
  simp only [G, toArr_ix2]
  exact stage_congr h0 h1 h2 h3 h4 q

/-- An index of the array is in point `t`'s block iff each coordinate is in the block's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v97).slice (win4_5.rect t)).set ↔ _
  rw [View.set_slice_whole, Rect.mem_set_unit]
  exact Iff.rfl

/-- Every index of the array lies in the block of the grid point numbered by its row divided by 5000. -/
theorem cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN := N_4
  let t : Fin cfg4.N := ⟨(i 0).val / 5000, by show (i 0).val / 5000 < grid4.N; omega⟩
  obtain ⟨e0a, e0b, e1a, e1b, e2a, e2b, e3a, e3b, e4a, e4b, eoa, eob⟩ := idx t
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    rw [eoa]
    show (i 0).val / 5000 * 5000 ≤ (i 0).val ∧ (i 0).val < (i 0).val / 5000 * 5000 + 5000
    omega
  | ⟨1, _⟩ =>
    show win4_5.index t (1 : Fin 2) * 128 ≤ (i 1).val ∧ (i 1).val < win4_5.index t (1 : Fin 2) * 128 + 128
    rw [eob]
    omega

/-- The region's output array after its last grid point is `G` of the arrays the region found. -/
theorem final (c : Dev nD) : (dat4 V c).arrAt 5 cfg4.N = G (V c main_v86) (V c main_v88) (V c main_v95) (V c main_v92) (V c main_v96) :=
  (dat4 V c).arrAt_eq_of_cover 5 _ (fun t _ => flushed V c t) cover

end Cert.KernelIdeal.Region4

end
-- ==== Proof.KReg5.lean ====
/-
  The output projection region, in closed form.

  The region's grid has ten points; point `t` loads rows `5000 t … 5000 t + 4999` of the node features, the whole
  weight matrix and the bias row, and stores the affine image of every loaded row. The ten stored blocks tile
  the output array, so after the region the array is the affine image of every row of the features.
-/
import proofs.«146966_j79087527788652_1_alg».proof.Proof.Gen.KernelIdeal.Frame
import proofs.«146966_j79087527788652_1_alg».proof.Proof.Spec
import proofs.«146966_j79087527788652_1_alg».proof.Proof.KPay
import Idealize.ShloMosaic.Lib.Pipeline.Value
import Idealize.ShloMosaic.Lib.ValueIdx

set_option maxRecDepth 16384

noncomputable section

namespace Cert.KernelIdeal.Region5

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the corner of its buffer. -/
theorem origin : (![0, 0] : Fin 2 → Nat) = fun _ => 0 := funext fun a => by fin_cases a <;> rfl

/-- Row `r` of grid point `t`'s block is row `t * 5000 + r` of the array: the 10 blocks of 5000 rows tile its 50000 rows. -/
def rowOf (t : Fin cfg5.N) (r : Fin 5000) : Fin 50000 :=
  ⟨t.val * 5000 + r.val, by have hN := N_5; have ht : t.val < grid5.N := t.isLt; have hr := r.isLt; omega⟩

/-- The region's output as one function of the arrays it finds: row `r` of the features through the affine map. -/
def G (A0 : S50000x128.Idx → EReal) (A1 : S128x16.Idx → EReal) (A2 : S1x16.Idx → EReal) : S50000x16.Idx → EReal :=
  toArr fun r j => affine (fun k => A0 (ix2 r k)) (fun k j => A1 (ix2 k j)) (fun j => A2 (ix2 0 j)) j

/-- The affine map's value depends only on the values of its row, weights and bias. -/
theorem stage_congr {K N : Nat} {x x' : Fin K → EReal} {w w' : Fin K → Fin N → EReal} {b b' : Fin N → EReal}
    (h0 : ∀ k, x k = x' k) (h1 : ∀ k j, w k j = w' k j) (h2 : ∀ j, b j = b' j) (q : Fin N) :
    affine x w b q = affine x' w' b' q := by
  obtain rfl : x = x' := funext h0
  obtain rfl : w = w' := funext fun k => funext (h1 k)
  obtain rfl : b = b' := funext h2
  rfl

/-- The windows' block indices at every grid point, decided over the grid: a window that moves takes block `t` of
    rows and all columns; a weight or bias window always takes its one whole block. -/
theorem idx : ∀ t : Fin cfg5.N,
    win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

-- reading one block's index in the array costs the same for every window; with many windows the sum passes the default budget
set_option maxHeartbeats 2000000 in
/-- What grid point `t` writes back is block `t` of `G` of the arrays the region finds: the body's stored value at
    row `r`, column `j` of the block is the row function of row `r` of the moving blocks and of the whole weight
    blocks, and row `r` of block `t` is row `t * 5000 + r` of the array. -/
theorem flushed (c : Dev nD) (t : Fin cfg5.N) :
    (dat5 V c).flushed 3 t = ((cfg5.win 3).blk t).view.read (Elt Ideal) (G (V c main_v97) (V c main_arg5) (V c main_v98)) := by
  show (cfg5.win 3).cut (grid5.coords t) ((dat5 V c).after 3 t) = _
  rw [after5_3]
  unfold out5_3
  rw [View.canon_unit_zero origin]
  simp only [View.ld_unit_zero (S := S5000x128) origin, View.ld_unit_zero (S := S128x16) origin, View.ld_unit_zero (S := S1x16) origin]
  obtain ⟨e0a, e0b, e1a, e1b, e2a, e2b, eoa, eob⟩ := idx t
  funext y
  obtain ⟨p, q, rfl⟩ : ∃ (p : Fin 5000) (q : Fin 16), y = ix2 p q := ⟨y 0, y 1, eq_ix2 y⟩
  show k5_pay1 (iblk5 V c 0 t) (iblk5 V c 1 t) (iblk5 V c 2 t) (ix2 p q) = G _ _ _ (((cfg5.win 3).blk t).view.emb (ix2 p q))
  refine (Cert.KPay.pay5 _ _ _ p q).trans ?_
  have ho : ((cfg5.win 3).blk t).view.emb (ix2 p q) = ix2 (rowOf t p) q :=
    funext fun a => Fin.ext (by
      match a with
      | ⟨0, _⟩ => show win5_3.index t (0 : Fin 2) * 5000 + 1 * p.val = t.val * 5000 + p.val; omega
      | ⟨1, _⟩ => show win5_3.index t (1 : Fin 2) * 16 + 1 * q.val = q.val; omega)
  have h0 : ∀ k : Fin 128, iblk5 V c 0 t (ix2 p k) = V c main_v97 (ix2 (rowOf t p) k) := fun k =>
    congrArg (V c main_v97) (funext fun a => Fin.ext (by
      match a with
      | ⟨0, _⟩ => show win5_0.index t (0 : Fin 2) * 5000 + 1 * p.val = t.val * 5000 + p.val; omega
      | ⟨1, _⟩ => show win5_0.index t (1 : Fin 2) * 128 + 1 * k.val = k.val; omega))
  have h1 : ∀ (k : Fin 128) (j : Fin 16), iblk5 V c 1 t (ix2 k j) = V c main_arg5 (ix2 k j) := fun k j =>
    congrArg (V c main_arg5) (funext fun a => Fin.ext (by
      match a with
      | ⟨0, _⟩ => show win5_1.index t (0 : Fin 2) * 128 + 1 * k.val = k.val; omega
      | ⟨1, _⟩ => show win5_1.index t (1 : Fin 2) * 16 + 1 * j.val = j.val; omega))
  have h2 : ∀ j : Fin 16, iblk5 V c 2 t (ix2 0 j) = V c main_v98 (ix2 0 j) := fun j =>
    congrArg (V c main_v98) (funext fun a => Fin.ext (by
      match a with
      | ⟨0, _⟩ => show win5_2.index t (0 : Fin 2) * 1 + 1 * 0 = 0; omega
      | ⟨1, _⟩ => show win5_2.index t (1 : Fin 2) * 16 + 1 * j.val = j.val; omega))
  rw [ho]
  simp only [G, toArr_ix2]
  exact stage_congr h0 h1 h2 q

/-- An index of the array is in point `t`'s block iff each coordinate is in the block's range on its axis. -/
theorem mem_blk (t : Fin cfg5.N) (i : S50000x16.Idx) :
    i ∈ ((cfg5.win 3).blk t).view.set ↔ ∀ a : Fin 2, win5_3.index t a * S5000x16.size a ≤ (i a).val ∧ (i a).val < win5_3.index t a * S5000x16.size a + S5000x16.size a := by
  show i ∈ ((View.whole main_v99).slice (win5_3.rect t)).set ↔ _
  rw [View.set_slice_whole, Rect.mem_set_unit]
  exact Iff.rfl

/-- Every index of the array lies in the block of the grid point numbered by its row divided by 5000. -/
theorem cover (i : S50000x16.Idx) :
    ∃ t : Fin cfg5.N, (cfg5.win 3).flush t = true ∧ i ∈ ((cfg5.win 3).blk t).view.set := by
  have hi0 : (i 0).val < 50000 := (i 0).isLt
  have hi1 : (i 1).val < 16 := (i 1).isLt
  have hN := N_5
  let t : Fin cfg5.N := ⟨(i 0).val / 5000, by show (i 0).val / 5000 < grid5.N; omega⟩
  obtain ⟨e0a, e0b, e1a, e1b, e2a, e2b, eoa, eob⟩ := idx t
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    rw [eoa]
    show (i 0).val / 5000 * 5000 ≤ (i 0).val ∧ (i 0).val < (i 0).val / 5000 * 5000 + 5000
    omega
  | ⟨1, _⟩ =>
    show win5_3.index t (1 : Fin 2) * 16 ≤ (i 1).val ∧ (i 1).val < win5_3.index t (1 : Fin 2) * 16 + 16
    rw [eob]
    omega

/-- The region's output array after its last grid point is `G` of the arrays the region found. -/
theorem final (c : Dev nD) : (dat5 V c).arrAt 3 cfg5.N = G (V c main_v97) (V c main_arg5) (V c main_v98) :=
  (dat5 V c).arrAt_eq_of_cover 3 _ (fun t _ => flushed V c t) cover

end Cert.KernelIdeal.Region5

end
-- ==== Proof.KStage.lean ====
/-
  Each region's function of the arrays it finds, against the stage of the specification it computes.

  A region applies one row map — an affine map, the edge perceptron or the node perceptron — to every row of the
  array that moves, with weight and bias arrays that stay. The specification writes the same row map with the weights
  taken from the network's stacked parameters: layer `l`'s slice of a stack of matrices, the upper and the lower half
  of the first edge stage's matrix, a bias vector laid out as one row. So once every weight array is known, entry by
  entry, to be that slice, the region's function IS the specification's stage, for arbitrary moving arrays: both
  sides are the same expression after the entries are rewritten.
-/
import proofs.«146966_j79087527788652_1_alg».proof.Proof.KReg0
import proofs.«146966_j79087527788652_1_alg».proof.Proof.KReg1
import proofs.«146966_j79087527788652_1_alg».proof.Proof.KReg2
import proofs.«146966_j79087527788652_1_alg».proof.Proof.KReg3
import proofs.«146966_j79087527788652_1_alg».proof.Proof.KReg4
import proofs.«146966_j79087527788652_1_alg».proof.Proof.KReg5
import proofs.«146966_j79087527788652_1_alg».proof.Proof.Spec
import Idealize.ShloMosaic.Lib.ValueIdx

noncomputable section

namespace Cert.KernelIdeal.Stage

open Cert.KernelIdeal Cert.GraphNet Idealize.ShloMosaic Idealize.ShloMosaic.ValueIdx

/-- The input projection: when the bias window holds the bias vector as its one row, the region's function of the
    arrays is the specification's embedding. -/
theorem embed_of (A0 : S50000x32.Idx → EReal) (A1 : S32x128.Idx → EReal) (A2 : S1x128.Idx → EReal) (b : Arr1 128)
    (hb : ∀ j : Fin 128, A2 (ix2 0 j) = b (ix1 j)) :
    Region0.G A0 A1 A2 = Cert.GraphNet.embed A0 A1 b := by
  unfold Region0.G Cert.GraphNet.embed
  simp only [hb]

/-- The edge stage of layer `l`: when the windows hold the layer's slices of the stacked weights — the upper and the lower
    half of the first stage's matrix, then each later stage's matrix and bias row — the region's function of the two
    gathered arrays is the layer's messages. -/
theorem messages_of1 (l : Fin 2) (XS XD : S400000x128.Idx → EReal) (A2 A3 : S128x128.Idx → EReal) (A4 : S1x128.Idx → EReal)
    (A5 : S128x128.Idx → EReal) (A6 : S1x128.Idx → EReal) (A7 : S128x128.Idx → EReal) (A8 : S1x128.Idx → EReal)
    (w1a : Arr3 2 256 128) (b1a : Arr2 2 128) (w1b : Arr3 2 128 128) (b1b : Arr2 2 128) (w1c : Arr3 2 128 128) (b1c : Arr2 2 128)
    (h2 : ∀ (k j : Fin 128), A2 (ix2 k j) = w1a (ix3 l (Cert.GraphNet.lo k) j))
    (h3 : ∀ (k j : Fin 128), A3 (ix2 k j) = w1a (ix3 l (Cert.GraphNet.hi k) j))
    (h4 : ∀ j : Fin 128, A4 (ix2 0 j) = b1a (ix2 l j))
    (h5 : ∀ (k j : Fin 128), A5 (ix2 k j) = w1b (ix3 l k j))
    (h6 : ∀ j : Fin 128, A6 (ix2 0 j) = b1b (ix2 l j))
    (h7 : ∀ (k j : Fin 128), A7 (ix2 k j) = w1c (ix3 l k j))
    (h8 : ∀ j : Fin 128, A8 (ix2 0 j) = b1c (ix2 l j)) :
    Region1.G XS XD A2 A3 A4 A5 A6 A7 A8 = Cert.GraphNet.messages l XS XD w1a b1a w1b b1b w1c b1c := by
  unfold Region1.G Cert.GraphNet.messages
  simp only [h2, h3, h4, h5, h6, h7, h8]

/-- The node stage of layer `l`: when the windows hold the layer's slices of the two stages' matrices and bias rows, the
    region's function of the array of totals is the layer's node update. -/
theorem update_of2 (l : Fin 2) (AG : S50000x128.Idx → EReal) (A1 : S128x128.Idx → EReal) (A2 : S1x128.Idx → EReal)
    (A3 : S128x128.Idx → EReal) (A4 : S1x128.Idx → EReal)
    (w2a : Arr3 2 128 128) (b2a : Arr2 2 128) (w2b : Arr3 2 128 128) (b2b : Arr2 2 128)
    (h1 : ∀ (k j : Fin 128), A1 (ix2 k j) = w2a (ix3 l k j))
    (h2 : ∀ j : Fin 128, A2 (ix2 0 j) = b2a (ix2 l j))
    (h3 : ∀ (k j : Fin 128), A3 (ix2 k j) = w2b (ix3 l k j))
    (h4 : ∀ j : Fin 128, A4 (ix2 0 j) = b2b (ix2 l j)) :
    Region2.G AG A1 A2 A3 A4 = Cert.GraphNet.update l AG w2a b2a w2b b2b := by
  unfold Region2.G Cert.GraphNet.update
  simp only [h1, h2, h3, h4]

/-- The edge stage of layer `l`: when the windows hold the layer's slices of the stacked weights — the upper and the lower
    half of the first stage's matrix, then each later stage's matrix and bias row — the region's function of the two
    gathered arrays is the layer's messages. -/
theorem messages_of3 (l : Fin 2) (XS XD : S400000x128.Idx → EReal) (A2 A3 : S128x128.Idx → EReal) (A4 : S1x128.Idx → EReal)
    (A5 : S128x128.Idx → EReal) (A6 : S1x128.Idx → EReal) (A7 : S128x128.Idx → EReal) (A8 : S1x128.Idx → EReal)
    (w1a : Arr3 2 256 128) (b1a : Arr2 2 128) (w1b : Arr3 2 128 128) (b1b : Arr2 2 128) (w1c : Arr3 2 128 128) (b1c : Arr2 2 128)
    (h2 : ∀ (k j : Fin 128), A2 (ix2 k j) = w1a (ix3 l (Cert.GraphNet.lo k) j))
    (h3 : ∀ (k j : Fin 128), A3 (ix2 k j) = w1a (ix3 l (Cert.GraphNet.hi k) j))
    (h4 : ∀ j : Fin 128, A4 (ix2 0 j) = b1a (ix2 l j))
    (h5 : ∀ (k j : Fin 128), A5 (ix2 k j) = w1b (ix3 l k j))
    (h6 : ∀ j : Fin 128, A6 (ix2 0 j) = b1b (ix2 l j))
    (h7 : ∀ (k j : Fin 128), A7 (ix2 k j) = w1c (ix3 l k j))
    (h8 : ∀ j : Fin 128, A8 (ix2 0 j) = b1c (ix2 l j)) :
    Region3.G XS XD A2 A3 A4 A5 A6 A7 A8 = Cert.GraphNet.messages l XS XD w1a b1a w1b b1b w1c b1c := by
  unfold Region3.G Cert.GraphNet.messages
  simp only [h2, h3, h4, h5, h6, h7, h8]

/-- The node stage of layer `l`: when the windows hold the layer's slices of the two stages' matrices and bias rows, the
    region's function of the array of totals is the layer's node update. -/
theorem update_of4 (l : Fin 2) (AG : S50000x128.Idx → EReal) (A1 : S128x128.Idx → EReal) (A2 : S1x128.Idx → EReal)
    (A3 : S128x128.Idx → EReal) (A4 : S1x128.Idx → EReal)
    (w2a : Arr3 2 128 128) (b2a : Arr2 2 128) (w2b : Arr3 2 128 128) (b2b : Arr2 2 128)
    (h1 : ∀ (k j : Fin 128), A1 (ix2 k j) = w2a (ix3 l k j))
    (h2 : ∀ j : Fin 128, A2 (ix2 0 j) = b2a (ix2 l j))
    (h3 : ∀ (k j : Fin 128), A3 (ix2 k j) = w2b (ix3 l k j))
    (h4 : ∀ j : Fin 128, A4 (ix2 0 j) = b2b (ix2 l j)) :
    Region4.G AG A1 A2 A3 A4 = Cert.GraphNet.update l AG w2a b2a w2b b2b := by
  unfold Region4.G Cert.GraphNet.update
  simp only [h1, h2, h3, h4]

/-- The output projection: when the bias window holds the bias vector as its one row, the region's function of the
    arrays is the specification's projection. -/
theorem project_of (A0 : S50000x128.Idx → EReal) (A1 : S128x16.Idx → EReal) (A2 : S1x16.Idx → EReal) (b : Arr1 16)
    (hb : ∀ j : Fin 16, A2 (ix2 0 j) = b (ix1 j)) :
    Region5.G A0 A1 A2 = Cert.GraphNet.project A0 A1 b := by
  unfold Region5.G Cert.GraphNet.project
  simp only [hb]

end Cert.KernelIdeal.Stage

end
-- ==== Proof.KValue.lean ====
/-
  The idealized kernel's result buffer holds the network of the launch arrays.

  The run's last memory (`W12`) is a fold through twelve segments. Walking it back from the result buffer:
  the result is the output projection region's array, which in closed form is the affine image of every row of the
  array the second layer's node region left; that array is the node perceptron of the sums a host scatter-add made
  of the second layer's edge region's array; that array is the edge perceptron of two host gathers of the first
  layer's node array; and so on down to the input projection of the launch arrays. Every weight and bias block a
  region reads is a slice of a launch array, read at an index. The two gathers and the scatter-add depend on the
  edge list only and are carried as the three maps of `graph`, never opened. Composed, the result buffer is
  `net (graph edges) inputs weights…`.
-/
import proofs.«146966_j79087527788652_1_alg».proof.Proof.KRun
import proofs.«146966_j79087527788652_1_alg».proof.Proof.KEntry
import proofs.«146966_j79087527788652_1_alg».proof.Proof.KStage

set_option maxRecDepth 16384

noncomputable section

namespace Cert.KernelIdeal.Value

open Cert.KernelIdeal Cert.KernelIdeal.Gen Cert.KernelIdeal.Entry Cert.GraphNet
open Idealize.ShloMosaic Idealize.ShloMosaic.TcCoe Idealize.ShloMosaic.ValueIdx Idealize.SL.Sem

variable (m : (ℓ : Loc nD τ sig) → Buf (Elt Ideal) ℓ) (ρ : Dev nD → PrngReg)

/-- The three host maps of the edge list, as this program applies them: the rows of every edge's source, the rows
    of its target, and the sum of edge rows into their target nodes from an all-zero array. -/
def graph (e : Edges) : Graph :=
  ⟨fun x => Host.gather gather_S50000x128_S400000x1_S400000x128_1_0_n_n_0_1_1128 x (srcIdx e),
   fun x => Host.gather gather_S50000x128_S400000x1_S400000x128_1_0_n_n_0_1_1128 x (dstIdx e),
   fun u => Host.scatterAdd (F := Ideal) (φ := .f32) scatter_S50000x128_S400000x1_S400000x128_1_0_0_1 zeros (dstRaw e) u⟩

/-- A launch array of core `c`. -/
abbrev arg (c : Dev nD) (b : Ref sig .tc) : Buf (Elt Ideal) ((c : Thread nD τ).loc b) := m ((c : Thread nD τ).loc b)

/-- The node features after the input projection. -/
def feat0 (c : Dev nD) : Arr2 50000 128 := embed (arg m c main_arg0) (arg m c main_arg3) (arg m c main_arg4)

/-- The edge messages of layer `l` from node features `x`. -/
def msgs (c : Dev nD) (l : Fin 2) (x : Arr2 50000 128) : Arr2 400000 128 :=
  messages l ((graph (arg m c main_arg2)).src x) ((graph (arg m c main_arg2)).dst x)
    (arg m c main_arg7) (arg m c main_arg8) (arg m c main_arg9) (arg m c main_arg10) (arg m c main_arg11) (arg m c main_arg12)

/-- The node features after layer `l` from node features `x`. -/
def feat (c : Dev nD) (l : Fin 2) (x : Arr2 50000 128) : Arr2 50000 128 :=
  update l ((graph (arg m c main_arg2)).add (msgs m c l x))
    (arg m c main_arg13) (arg m c main_arg14) (arg m c main_arg15) (arg m c main_arg16)

/-- After region 0 its output array is the input projection of the launch arrays. -/
theorem at_v5 (c : Dev nD) : W2 m ρ c (Proc.devRef .tc main_v5) = feat0 m c :=
  (W2_arr m ρ c 3).trans ((Region0.final (V1 m ρ) c).trans (by
    rw [V1_main_arg0 m ρ c, V1_main_arg3 m ρ c]
    exact Stage.embed_of _ _ _ _ (fun j => V1_main_v4 m ρ c j)))

/-- After region 1 its output array is the first layer's messages. -/
theorem at_v37 (c : Dev nD) : W4 m ρ c (Proc.devRef .tc main_v37) = msgs m c 0 (feat0 m c) :=
  (W4_arr m ρ c 9).trans ((Region1.final (V3 m ρ) c).trans (by
    rw [V3_main_v12 m ρ c, V3_main_v19 m ρ c, at_v5 m ρ c]
    exact Stage.messages_of1 0 _ _ _ _ _ _ _ _ _ _ _ _ _ _ _
      (V3_main_v21 m ρ c) (V3_main_v23 m ρ c) (V3_main_v34 m ρ c) (V3_main_v27 m ρ c) (V3_main_v35 m ρ c)
      (V3_main_v31 m ρ c) (V3_main_v36 m ρ c)))

/-- After region 2 its output array is the node features after the first layer. -/
theorem at_v51 (c : Dev nD) : W6 m ρ c (Proc.devRef .tc main_v51) = feat m c 0 (feat0 m c) :=
  (W6_arr m ρ c 5).trans ((Region2.final (V5 m ρ) c).trans (by
    rw [V5_main_v40 m ρ c, at_v37 m ρ c]
    exact Stage.update_of2 0 _ _ _ _ _ _ _ _ _
      (V5_main_v42 m ρ c) (V5_main_v49 m ρ c) (V5_main_v46 m ρ c) (V5_main_v50 m ρ c)))

/-- After region 3 its output array is the second layer's messages. -/
theorem at_v83 (c : Dev nD) : W8 m ρ c (Proc.devRef .tc main_v83) = msgs m c 1 (feat m c 0 (feat0 m c)) :=
  (W8_arr m ρ c 9).trans ((Region3.final (V7 m ρ) c).trans (by
    rw [V7_main_v58 m ρ c, V7_main_v65 m ρ c, at_v51 m ρ c]
    exact Stage.messages_of3 1 _ _ _ _ _ _ _ _ _ _ _ _ _ _ _
      (V7_main_v67 m ρ c) (V7_main_v69 m ρ c) (V7_main_v80 m ρ c) (V7_main_v73 m ρ c) (V7_main_v81 m ρ c)
      (V7_main_v77 m ρ c) (V7_main_v82 m ρ c)))

/-- After region 4 its output array is the node features after the second layer. -/
theorem at_v97 (c : Dev nD) : W10 m ρ c (Proc.devRef .tc main_v97) = feat m c 1 (feat m c 0 (feat0 m c)) :=
  (W10_arr m ρ c 5).trans ((Region4.final (V9 m ρ) c).trans (by
    rw [V9_main_v86 m ρ c, at_v83 m ρ c]
    exact Stage.update_of4 1 _ _ _ _ _ _ _ _ _
      (V9_main_v88 m ρ c) (V9_main_v95 m ρ c) (V9_main_v92 m ρ c) (V9_main_v96 m ρ c)))

/-- After the last region the result buffer is the output projection of the second layer's features. -/
theorem at_v99 (c : Dev nD) : W12 m ρ c (Proc.devRef .tc main_v99)
    = project (feat m c 1 (feat m c 0 (feat0 m c))) (arg m c main_arg5) (arg m c main_arg6) :=
  (W12_arr m ρ c 3).trans ((Region5.final (V11 m ρ) c).trans (by
    rw [V11_main_v97 m ρ c, at_v97 m ρ c, V11_main_arg5 m ρ c]
    exact Stage.project_of _ _ _ _ (fun j => V11_main_v98 m ρ c j)))

/-- The result buffer after the run is the network of the launch arrays. -/
theorem result (c : Dev nD) : W12 m ρ c (Proc.devRef .tc main_v99)
    = net (graph (arg m c main_arg2)) (arg m c main_arg0) (arg m c main_arg3) (arg m c main_arg4) (arg m c main_arg5)
        (arg m c main_arg6) (arg m c main_arg7) (arg m c main_arg8) (arg m c main_arg9) (arg m c main_arg10)
        (arg m c main_arg11) (arg m c main_arg12) (arg m c main_arg13) (arg m c main_arg14) (arg m c main_arg15)
        (arg m c main_arg16) :=
  (at_v99 m ρ c).trans rfl

end Cert.KernelIdeal.Value

end
-- ==== Proof.KRunValue.lean ====
/-
  The idealized kernel's run, read: every weakly fair execution terminates without a fault with the result buffer at
  the network of the launch arrays and every argument array as launched. Both are read off the run's last memory:
  the result by the walk back through the regions, each argument by the generated walk back to the launch memory.
-/
import proofs.«146966_j79087527788652_1_alg».proof.Proof.KValue

set_option maxRecDepth 16384

noncomputable section

namespace Cert.KernelIdeal.Value

open Cert.KernelIdeal Cert.KernelIdeal.Gen Cert.KernelIdeal.Entry Cert.GraphNet
open Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v99)
        = net (graph (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ Cert.KernelIdeal.Last.result_mem).trans (result m ρ c),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c),
      (h c _ (mem_uc main_arg8 (by decide))).trans (W12_main_arg8 m ρ c),
      (h c _ (mem_uc main_arg9 (by decide))).trans (W12_main_arg9 m ρ c),
      (h c _ (mem_uc main_arg10 (by decide))).trans (W12_main_arg10 m ρ c),
      (h c _ (mem_uc main_arg11 (by decide))).trans (W12_main_arg11 m ρ c),
      (h c _ (mem_uc main_arg12 (by decide))).trans (W12_main_arg12 m ρ c),
      (h c _ (mem_uc main_arg13 (by decide))).trans (W12_main_arg13 m ρ c),
      (h c _ (mem_uc main_arg14 (by decide))).trans (W12_main_arg14 m ρ c),
      (h c _ (mem_uc main_arg15 (by decide))).trans (W12_main_arg15 m ρ c),
      (h c _ (mem_uc main_arg16 (by decide))).trans (W12_main_arg16 m ρ c)⟩)
    (Cert.KernelIdeal.Last.run_last m ρ)

end Cert.KernelIdeal.Value

end
-- ==== Proof.RefNet.lean ====
/-
  The reference program computes the network of the specification.

  Read at a row and a column, every dense stage of the reference is an affine map of a row of the stage before:
  its contraction is the sum, over the shared axis, of the products of the operand's row with the layer's slice of
  the stacked weights, and its bias is one row of the stacked biases repeated down the rows. The rectifier is the
  maximum with the all-zero word. The two gathered arrays joined along the columns read, at column `k`, the first
  array for `k < 128` and the second at `k - 128` otherwise, which is the specification's `beside`; the edge
  perceptron on such a row is the specification's `edge` by `edge_of_beside`.

  The gathers and the accumulating scatter are never opened. They are taken as they stand for the three maps of
  the specification's `Graph` (`graph`), and the second layer, which builds its index arrays and its all-zero
  array again by the same operations from the same edge list, uses the same three maps.
-/
import proofs.«146966_j79087527788652_1_alg».proof.Proof.Gen.ReferenceIdeal.Read
import proofs.«146966_j79087527788652_1_alg».proof.Proof.Spec

noncomputable section

namespace Cert.RefNet

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.GraphNet

/-- A float array of the reference, read at the extended reals. -/
abbrev Arr (S : Shape) : Type := (⟨S, .f32⟩ : BufTy).Contents (Elt Ideal)

/-- The integer edge list. -/
abbrev Edges : Type := (⟨S2x400000, .i32⟩ : BufTy).Contents (Elt Ideal)

/-- The three maps of the edge list, as the reference applies them: the rows of every edge's source, those of its
    target, and the sum of the edge messages into their target nodes from the all-zero array. -/
def graph (e : Edges) : Graph where
  src := fun x => Host.gather gather_S50000x128_S400000x1_S400000x128_1_0_n_n_0_1_1128 x (val_main_v13 (F := Ideal) e)
  dst := fun x => Host.gather gather_S50000x128_S400000x1_S400000x128_1_0_n_n_0_1_1128 x (val_main_v20 (F := Ideal) e)
  add := fun u => Host.scatterAdd (F := Ideal) (φ := .f32) scatter_S50000x128_S400000x1_S400000x128_1_0_0_1 (val_main_v49 (F := Ideal)) (val_main_v50 (F := Ideal) e) u

/-! ## The second layer uses the same three maps

Its index arrays and its all-zero array are other stages of the program, built by the same operations from the same
edge list, so they are the same arrays. -/

theorem src_idx_again (e : Edges) : val_main_v74 (F := Ideal) e = val_main_v13 (F := Ideal) e := rfl
theorem dst_idx_again (e : Edges) : val_main_v81 (F := Ideal) e = val_main_v20 (F := Ideal) e := rfl
theorem add_idx_again (e : Edges) : val_main_v111 (F := Ideal) e = val_main_v50 (F := Ideal) e := rfl
theorem zeros_again : val_main_v110 (F := Ideal) = val_main_v49 (F := Ideal) := rfl

/-! ## A layer's slice of the stacked weights and biases, read at an index

Slicing layer `l` off the leading axis and dropping that unit axis reads the stacked array at `(l, k, j)`; the
row-major position `k * 128 + j` of the reshaped index has quotient `k` and remainder `j` by `128`. A bias row is
first given a unit leading axis and then repeated down the rows, so every row reads the stacked array at `(l, j)`. -/

theorem w_v24 (x : Arr S2x256x128) (k : Fin 256) (j : Fin 128) : val_main_v24 (F := Ideal) x (ix2 k j) = x (ix3 0 k j) := by
  rw [val_main_v24_apply, val_main_v23_apply]
  refine congrArg x (funext fun a => Fin.ext ?_)
  have hk := k.isLt
  have hj := j.isLt
  match a with
  | ⟨0, _⟩ => rfl
  | ⟨1, _⟩ =>
    show (k.val * 128 + j.val) / 128 % 256 = k.val
    omega
  | ⟨2, _⟩ =>
    show (k.val * 128 + j.val) % 128 = j.val
    omega

theorem w_v33 (x : Arr S2x128x128) (k : Fin 128) (j : Fin 128) : val_main_v33 (F := Ideal) x (ix2 k j) = x (ix3 0 k j) := by
  rw [val_main_v33_apply, val_main_v32_apply]
  refine congrArg x (funext fun a => Fin.ext ?_)
  have hk := k.isLt
  have hj := j.isLt
  match a with
  | ⟨0, _⟩ => rfl
  | ⟨1, _⟩ =>
    show (k.val * 128 + j.val) / 128 % 128 = k.val
    omega
  | ⟨2, _⟩ =>
    show (k.val * 128 + j.val) % 128 = j.val
    omega

theorem w_v42 (x : Arr S2x128x128) (k : Fin 128) (j : Fin 128) : val_main_v42 (F := Ideal) x (ix2 k j) = x (ix3 0 k j) := w_v33 x k j
theorem w_v53 (x : Arr S2x128x128) (k : Fin 128) (j : Fin 128) : val_main_v53 (F := Ideal) x (ix2 k j) = x (ix3 0 k j) := w_v33 x k j
theorem w_v62 (x : Arr S2x128x128) (k : Fin 128) (j : Fin 128) : val_main_v62 (F := Ideal) x (ix2 k j) = x (ix3 0 k j) := w_v33 x k j

theorem w_v85 (x : Arr S2x256x128) (k : Fin 256) (j : Fin 128) : val_main_v85 (F := Ideal) x (ix2 k j) = x (ix3 1 k j) := by
  rw [val_main_v85_apply, val_main_v84_apply]
  refine congrArg x (funext fun a => Fin.ext ?_)
  have hk := k.isLt
  have hj := j.isLt
  match a with
  | ⟨0, _⟩ => rfl
  | ⟨1, _⟩ =>
    show (k.val * 128 + j.val) / 128 % 256 = k.val
    omega
  | ⟨2, _⟩ =>
    show (k.val * 128 + j.val) % 128 = j.val
    omega

theorem w_v94 (x : Arr S2x128x128) (k : Fin 128) (j : Fin 128) : val_main_v94 (F := Ideal) x (ix2 k j) = x (ix3 1 k j) := by
  rw [val_main_v94_apply, val_main_v93_apply]
  refine congrArg x (funext fun a => Fin.ext ?_)
  have hk := k.isLt
  have hj := j.isLt
  match a with
  | ⟨0, _⟩ => rfl
  | ⟨1, _⟩ =>
    show (k.val * 128 + j.val) / 128 % 128 = k.val
    omega
  | ⟨2, _⟩ =>
    show (k.val * 128 + j.val) % 128 = j.val
    omega

theorem w_v103 (x : Arr S2x128x128) (k : Fin 128) (j : Fin 128) : val_main_v103 (F := Ideal) x (ix2 k j) = x (ix3 1 k j) := w_v94 x k j
theorem w_v114 (x : Arr S2x128x128) (k : Fin 128) (j : Fin 128) : val_main_v114 (F := Ideal) x (ix2 k j) = x (ix3 1 k j) := w_v94 x k j
theorem w_v123 (x : Arr S2x128x128) (k : Fin 128) (j : Fin 128) : val_main_v123 (F := Ideal) x (ix2 k j) = x (ix3 1 k j) := w_v94 x k j

theorem b_v29 (x : Arr S2x128) (e : Fin 400000) (j : Fin 128) : val_main_v29 (F := Ideal) x (ix2 e j) = x (ix2 0 j) := by
  rw [val_main_v29_apply, val_main_v28_apply, val_main_v27_apply, val_main_v26_apply]
  refine congrArg x (funext fun a => Fin.ext ?_)
  match a with
  | ⟨0, _⟩ => rfl
  | ⟨1, _⟩ => exact Nat.mod_eq_of_lt j.isLt

theorem b_v38 (x : Arr S2x128) (e : Fin 400000) (j : Fin 128) : val_main_v38 (F := Ideal) x (ix2 e j) = x (ix2 0 j) := b_v29 x e j
theorem b_v47 (x : Arr S2x128) (e : Fin 400000) (j : Fin 128) : val_main_v47 (F := Ideal) x (ix2 e j) = x (ix2 0 j) := b_v29 x e j

theorem b_v58 (x : Arr S2x128) (r : Fin 50000) (j : Fin 128) : val_main_v58 (F := Ideal) x (ix2 r j) = x (ix2 0 j) := by
  rw [val_main_v58_apply, val_main_v57_apply, val_main_v56_apply, val_main_v55_apply]
  refine congrArg x (funext fun a => Fin.ext ?_)
  match a with
  | ⟨0, _⟩ => rfl
  | ⟨1, _⟩ => exact Nat.mod_eq_of_lt j.isLt

theorem b_v67 (x : Arr S2x128) (r : Fin 50000) (j : Fin 128) : val_main_v67 (F := Ideal) x (ix2 r j) = x (ix2 0 j) := b_v58 x r j

theorem b_v90 (x : Arr S2x128) (e : Fin 400000) (j : Fin 128) : val_main_v90 (F := Ideal) x (ix2 e j) = x (ix2 1 j) := by
  rw [val_main_v90_apply, val_main_v89_apply, val_main_v88_apply, val_main_v87_apply]
  refine congrArg x (funext fun a => Fin.ext ?_)
  match a with
  | ⟨0, _⟩ => rfl
  | ⟨1, _⟩ => exact Nat.mod_eq_of_lt j.isLt

theorem b_v99 (x : Arr S2x128) (e : Fin 400000) (j : Fin 128) : val_main_v99 (F := Ideal) x (ix2 e j) = x (ix2 1 j) := b_v90 x e j
theorem b_v108 (x : Arr S2x128) (e : Fin 400000) (j : Fin 128) : val_main_v108 (F := Ideal) x (ix2 e j) = x (ix2 1 j) := b_v90 x e j

theorem b_v119 (x : Arr S2x128) (r : Fin 50000) (j : Fin 128) : val_main_v119 (F := Ideal) x (ix2 r j) = x (ix2 1 j) := by
  rw [val_main_v119_apply, val_main_v118_apply, val_main_v117_apply, val_main_v116_apply]
  refine congrArg x (funext fun a => Fin.ext ?_)
  match a with
  | ⟨0, _⟩ => rfl
  | ⟨1, _⟩ => exact Nat.mod_eq_of_lt j.isLt

theorem b_v128 (x : Arr S2x128) (r : Fin 50000) (j : Fin 128) : val_main_v128 (F := Ideal) x (ix2 r j) = x (ix2 1 j) := b_v119 x r j

/-! ## The rectifier

The zero it compares against is the all-zero word repeated over the array. -/

theorem relu_E (y : Arr S400000x128) (e : Fin 400000) (j : Fin 128) :
    maximumf (F := Ideal) (s := S400000x128) (φ := .f32) y (val_main_call0_v0 (F := Ideal)) (ix2 e j) = relu (y (ix2 e j)) := by
  have h : val_main_call0_v0 (F := Ideal) (ix2 e j) = zero := by
    rw [val_main_call0_v0_apply, val_main_call0_cst_apply]
    rfl
  exact congrArg (max (y (ix2 e j))) h

theorem relu_N (y : Arr S50000x128) (r : Fin 50000) (j : Fin 128) :
    maximumf (F := Ideal) (s := S50000x128) (φ := .f32) y (val_main_call2_v0 (F := Ideal)) (ix2 r j) = relu (y (ix2 r j)) := by
  have h : val_main_call2_v0 (F := Ideal) (ix2 r j) = zero := by
    rw [val_main_call2_v0_apply, val_main_call2_cst_apply]
    rfl
  exact congrArg (max (y (ix2 r j))) h

/-! ## Two arrays laid side by side

Joined along the columns, column `k` of row `e` is the first array's for `k < 128` and the second's at `k - 128`
otherwise. -/

theorem beside_E (a b : Arr S400000x128) (e : Fin 400000) (k : Fin 256) :
    concatenate S400000x256 1 [⟨S400000x128, a⟩, ⟨S400000x128, b⟩] concatenates_S400000x128_S400000x128_S400000x256_d1 (ix2 e k)
      = beside (fun k => a (ix2 e k)) (fun k => b (ix2 e k)) k := by
  unfold beside
  split
  · next h =>
    exact concatenate_pair_apply_left (t := S400000x256) (s₁ := S400000x128) (s₂ := S400000x128) 1 a b concatenates_S400000x128_S400000x128_S400000x256_d1 (ix2 e k) rfl (ix2 e ⟨k.val, h⟩)
      (fun c => by
        match c with
        | ⟨0, _⟩ => rfl
        | ⟨1, _⟩ => rfl)
  · next h =>
    exact concatenate_pair_apply_right (t := S400000x256) (s₁ := S400000x128) (s₂ := S400000x128) 1 a b concatenates_S400000x128_S400000x128_S400000x256_d1 (ix2 e k) rfl rfl (ix2 e ⟨k.val - 128, by omega⟩)
      (fun c hc => by
        match c with
        | ⟨0, _⟩ => rfl
        | ⟨1, _⟩ => exact absurd rfl hc)
      (by
        show k.val - 128 + 128 = k.val
        omega)

variable (x0 : Arr S50000x32) (x2 : Edges) (x3 : Arr S32x128) (x4 : Arr S128) (x5 : Arr S128x16) (x6 : Arr S16)
  (x7 : Arr S2x256x128) (x8 : Arr S2x128) (x9 : Arr S2x128x128) (x10 : Arr S2x128) (x11 : Arr S2x128x128) (x12 : Arr S2x128)
  (x13 : Arr S2x128x128) (x14 : Arr S2x128) (x15 : Arr S2x128x128) (x16 : Arr S2x128)

/-! ## The stages of the reference, read at a row and a column

A dense stage is a contraction plus a repeated bias row: at row `e`, column `j` it is the affine image of row `e` of
its operand. -/

/-- The input projection. -/
theorem row_v7 (r : Fin 50000) (j : Fin 128) :
    val_main_v7 (F := Ideal) x0 x3 x4 (ix2 r j)
      = affine (fun k => x0 (ix2 r k)) (fun k j => x3 (ix2 k j)) (fun j => x4 (ix1 j)) j := by
  have hl : ∀ k : Fin 32, lidx_main_v4 (ix2 r j) k = ix2 r k := fun k => funext fun a => by
    match a with
    | ⟨0, _⟩ => rfl
    | ⟨1, _⟩ => rfl
  have hr : ∀ k : Fin 32, ridx_main_v4 (ix2 r j) k = ix2 k j := fun k => funext fun a => by
    match a with
    | ⟨0, _⟩ => rfl
    | ⟨1, _⟩ => rfl
  have hb : idx_main_v5 (idx_main_v6 (ix2 r j)) = ix1 j := funext fun a => by
    match a with
    | ⟨0, _⟩ => rfl
  rw [val_main_v7_apply, val_main_v4_apply, val_main_v6_apply, val_main_v5_apply, hb]
  simp only [hl, hr]
  rfl

theorem embed_eq : val_main_v7 (F := Ideal) x0 x3 x4 = embed x0 x3 x4 :=
  arr2_ext _ _ fun r j => row_v7 x0 x3 x4 r j

/-- The two gathered arrays of the first layer, side by side. -/
theorem row_v22 (e : Fin 400000) (k : Fin 256) :
    val_main_v22 (F := Ideal) x0 x2 x3 x4 (ix2 e k)
      = beside (fun k => val_main_v14 (F := Ideal) x0 x2 x3 x4 (ix2 e k)) (fun k => val_main_v21 (F := Ideal) x0 x2 x3 x4 (ix2 e k)) k :=
  beside_E (val_main_v14 (F := Ideal) x0 x2 x3 x4) (val_main_v21 (F := Ideal) x0 x2 x3 x4) e k

/-- The first stage of the first layer's edge perceptron, before its rectifier. -/
theorem row_v30 (e : Fin 400000) (j : Fin 128) :
    val_main_v30 (F := Ideal) x0 x2 x3 x4 x7 x8 (ix2 e j)
      = affine (fun k => val_main_v22 (F := Ideal) x0 x2 x3 x4 (ix2 e k)) (fun k j => x7 (ix3 0 k j)) (fun j => x8 (ix2 0 j)) j := by
  have hl : ∀ k : Fin 256, lidx_main_v25 (ix2 e j) k = ix2 e k := fun k => funext fun a => by
    match a with
    | ⟨0, _⟩ => rfl
    | ⟨1, _⟩ => rfl
  have hr : ∀ k : Fin 256, ridx_main_v25 (ix2 e j) k = ix2 k j := fun k => funext fun a => by
    match a with
    | ⟨0, _⟩ => rfl
    | ⟨1, _⟩ => rfl
  rw [val_main_v30_apply, val_main_v25_apply, b_v29]
  simp only [hl, hr, w_v24]
  rfl

theorem row_v31 (e : Fin 400000) (j : Fin 128) :
    val_main_v31 (F := Ideal) x0 x2 x3 x4 x7 x8 (ix2 e j) = relu (val_main_v30 (F := Ideal) x0 x2 x3 x4 x7 x8 (ix2 e j)) :=
  relu_E (val_main_v30 (F := Ideal) x0 x2 x3 x4 x7 x8) e j

theorem row_v39 (e : Fin 400000) (j : Fin 128) :
    val_main_v39 (F := Ideal) x0 x2 x3 x4 x7 x8 x9 x10 (ix2 e j)
      = affine (fun k => val_main_v31 (F := Ideal) x0 x2 x3 x4 x7 x8 (ix2 e k)) (fun k j => x9 (ix3 0 k j)) (fun j => x10 (ix2 0 j)) j := by
  have hl : ∀ k : Fin 128, lidx_main_v34 (ix2 e j) k = ix2 e k := fun k => funext fun a => by
    match a with
    | ⟨0, _⟩ => rfl
    | ⟨1, _⟩ => rfl
  have hr : ∀ k : Fin 128, ridx_main_v34 (ix2 e j) k = ix2 k j := fun k => funext fun a => by
    match a with
    | ⟨0, _⟩ => rfl
    | ⟨1, _⟩ => rfl
  rw [val_main_v39_apply, val_main_v34_apply, b_v38]
  simp only [hl, hr, w_v33]
  rfl

theorem row_v40 (e : Fin 400000) (j : Fin 128) :
    val_main_v40 (F := Ideal) x0 x2 x3 x4 x7 x8 x9 x10 (ix2 e j) = relu (val_main_v39 (F := Ideal) x0 x2 x3 x4 x7 x8 x9 x10 (ix2 e j)) :=
  relu_E (val_main_v39 (F := Ideal) x0 x2 x3 x4 x7 x8 x9 x10) e j

theorem row_v48 (e : Fin 400000) (j : Fin 128) :
    val_main_v48 (F := Ideal) x0 x2 x3 x4 x7 x8 x9 x10 x11 x12 (ix2 e j)
      = affine (fun k => val_main_v40 (F := Ideal) x0 x2 x3 x4 x7 x8 x9 x10 (ix2 e k)) (fun k j => x11 (ix3 0 k j)) (fun j => x12 (ix2 0 j)) j := by
  have hl : ∀ k : Fin 128, lidx_main_v43 (ix2 e j) k = ix2 e k := fun k => funext fun a => by
    match a with
    | ⟨0, _⟩ => rfl
    | ⟨1, _⟩ => rfl
  have hr : ∀ k : Fin 128, ridx_main_v43 (ix2 e j) k = ix2 k j := fun k => funext fun a => by
    match a with
    | ⟨0, _⟩ => rfl
    | ⟨1, _⟩ => rfl
  rw [val_main_v48_apply, val_main_v43_apply, b_v47]
  simp only [hl, hr, w_v42]
  rfl

/-- The edge messages of the first layer. -/
theorem messages0_eq :
    val_main_v48 (F := Ideal) x0 x2 x3 x4 x7 x8 x9 x10 x11 x12
      = messages 0 (val_main_v14 (F := Ideal) x0 x2 x3 x4) (val_main_v21 (F := Ideal) x0 x2 x3 x4) x7 x8 x9 x10 x11 x12 := by
  refine arr2_ext _ _ fun e j => ?_
  rw [row_v48]
  simp only [row_v40, row_v39, row_v31, row_v30, row_v22]
  exact congrFun (edge_of_beside _ _ _ _ _ _ _ _) j

theorem row_v59 (r : Fin 50000) (j : Fin 128) :
    val_main_v59 (F := Ideal) x0 x2 x3 x4 x7 x8 x9 x10 x11 x12 x13 x14 (ix2 r j)
      = affine (fun k => val_main_v51 (F := Ideal) x0 x2 x3 x4 x7 x8 x9 x10 x11 x12 (ix2 r k)) (fun k j => x13 (ix3 0 k j)) (fun j => x14 (ix2 0 j)) j := by
  have hl : ∀ k : Fin 128, lidx_main_v54 (ix2 r j) k = ix2 r k := fun k => funext fun a => by
    match a with
    | ⟨0, _⟩ => rfl
    | ⟨1, _⟩ => rfl
  have hr : ∀ k : Fin 128, ridx_main_v54 (ix2 r j) k = ix2 k j := fun k => funext fun a => by
    match a with
    | ⟨0, _⟩ => rfl
    | ⟨1, _⟩ => rfl
  rw [val_main_v59_apply, val_main_v54_apply, b_v58]
  simp only [hl, hr, w_v53]
  rfl

theorem row_v60 (r : Fin 50000) (j : Fin 128) :
    val_main_v60 (F := Ideal) x0 x2 x3 x4 x7 x8 x9 x10 x11 x12 x13 x14 (ix2 r j)
      = relu (val_main_v59 (F := Ideal) x0 x2 x3 x4 x7 x8 x9 x10 x11 x12 x13 x14 (ix2 r j)) :=
  relu_N (val_main_v59 (F := Ideal) x0 x2 x3 x4 x7 x8 x9 x10 x11 x12 x13 x14) r j

theorem row_v68 (r : Fin 50000) (j : Fin 128) :
    val_main_v68 (F := Ideal) x0 x2 x3 x4 x7 x8 x9 x10 x11 x12 x13 x14 x15 x16 (ix2 r j)
      = affine (fun k => val_main_v60 (F := Ideal) x0 x2 x3 x4 x7 x8 x9 x10 x11 x12 x13 x14 (ix2 r k)) (fun k j => x15 (ix3 0 k j)) (fun j => x16 (ix2 0 j)) j := by
  have hl : ∀ k : Fin 128, lidx_main_v63 (ix2 r j) k = ix2 r k := fun k => funext fun a => by
    match a with
    | ⟨0, _⟩ => rfl
    | ⟨1, _⟩ => rfl
  have hr : ∀ k : Fin 128, ridx_main_v63 (ix2 r j) k = ix2 k j := fun k => funext fun a => by
    match a with
    | ⟨0, _⟩ => rfl
    | ⟨1, _⟩ => rfl
  rw [val_main_v68_apply, val_main_v63_apply, b_v67]
  simp only [hl, hr, w_v62]
  rfl

/-- The node update of the first layer. -/
theorem update0_eq :
    val_main_v68 (F := Ideal) x0 x2 x3 x4 x7 x8 x9 x10 x11 x12 x13 x14 x15 x16
      = update 0 (val_main_v51 (F := Ideal) x0 x2 x3 x4 x7 x8 x9 x10 x11 x12) x13 x14 x15 x16 := by
  refine arr2_ext _ _ fun r j => ?_
  rw [row_v68]
  simp only [row_v60, row_v59]
  rfl

/-- The first layer: its gathers and its scatter are the three maps of `graph`. -/
theorem layer0_eq :
    val_main_v68 (F := Ideal) x0 x2 x3 x4 x7 x8 x9 x10 x11 x12 x13 x14 x15 x16
      = layer (graph x2) 0 (val_main_v7 (F := Ideal) x0 x3 x4) x7 x8 x9 x10 x11 x12 x13 x14 x15 x16 := by
  have h : val_main_v51 (F := Ideal) x0 x2 x3 x4 x7 x8 x9 x10 x11 x12
      = (graph x2).add (messages 0 ((graph x2).src (val_main_v7 (F := Ideal) x0 x3 x4)) ((graph x2).dst (val_main_v7 (F := Ideal) x0 x3 x4)) x7 x8 x9 x10 x11 x12) :=
    congrArg (graph x2).add (messages0_eq x0 x2 x3 x4 x7 x8 x9 x10 x11 x12)
  rw [update0_eq, h]
  rfl

/-! ## The second layer -/

/-- The two gathered arrays of the second layer, side by side. -/
theorem row_v83 (e : Fin 400000) (k : Fin 256) :
    val_main_v83 (F := Ideal) x0 x2 x3 x4 x7 x8 x9 x10 x11 x12 x13 x14 x15 x16 (ix2 e k)
      = beside (fun k => val_main_v75 (F := Ideal) x0 x2 x3 x4 x7 x8 x9 x10 x11 x12 x13 x14 x15 x16 (ix2 e k))
          (fun k => val_main_v82 (F := Ideal) x0 x2 x3 x4 x7 x8 x9 x10 x11 x12 x13 x14 x15 x16 (ix2 e k)) k :=
  beside_E (val_main_v75 (F := Ideal) x0 x2 x3 x4 x7 x8 x9 x10 x11 x12 x13 x14 x15 x16) (val_main_v82 (F := Ideal) x0 x2 x3 x4 x7 x8 x9 x10 x11 x12 x13 x14 x15 x16) e k

theorem row_v91 (e : Fin 400000) (j : Fin 128) :
    val_main_v91 (F := Ideal) x0 x2 x3 x4 x7 x8 x9 x10 x11 x12 x13 x14 x15 x16 (ix2 e j)
      = affine (fun k => val_main_v83 (F := Ideal) x0 x2 x3 x4 x7 x8 x9 x10 x11 x12 x13 x14 x15 x16 (ix2 e k)) (fun k j => x7 (ix3 1 k j)) (fun j => x8 (ix2 1 j)) j := by
  have hl : ∀ k : Fin 256, lidx_main_v86 (ix2 e j) k = ix2 e k := fun k => funext fun a => by
    match a with
    | ⟨0, _⟩ => rfl
    | ⟨1, _⟩ => rfl
  have hr : ∀ k : Fin 256, ridx_main_v86 (ix2 e j) k = ix2 k j := fun k => funext fun a => by
    match a with
    | ⟨0, _⟩ => rfl
    | ⟨1, _⟩ => rfl
  rw [val_main_v91_apply, val_main_v86_apply, b_v90]
  simp only [hl, hr, w_v85]
  rfl

theorem row_v92 (e : Fin 400000) (j : Fin 128) :
    val_main_v92 (F := Ideal) x0 x2 x3 x4 x7 x8 x9 x10 x11 x12 x13 x14 x15 x16 (ix2 e j)
      = relu (val_main_v91 (F := Ideal) x0 x2 x3 x4 x7 x8 x9 x10 x11 x12 x13 x14 x15 x16 (ix2 e j)) :=
  relu_E (val_main_v91 (F := Ideal) x0 x2 x3 x4 x7 x8 x9 x10 x11 x12 x13 x14 x15 x16) e j

theorem row_v100 (e : Fin 400000) (j : Fin 128) :
    val_main_v100 (F := Ideal) x0 x2 x3 x4 x7 x8 x9 x10 x11 x12 x13 x14 x15 x16 (ix2 e j)
      = affine (fun k => val_main_v92 (F := Ideal) x0 x2 x3 x4 x7 x8 x9 x10 x11 x12 x13 x14 x15 x16 (ix2 e k)) (fun k j => x9 (ix3 1 k j)) (fun j => x10 (ix2 1 j)) j := by
  have hl : ∀ k : Fin 128, lidx_main_v95 (ix2 e j) k = ix2 e k := fun k => funext fun a => by
    match a with
    | ⟨0, _⟩ => rfl
    | ⟨1, _⟩ => rfl
  have hr : ∀ k : Fin 128, ridx_main_v95 (ix2 e j) k = ix2 k j := fun k => funext fun a => by
    match a with
    | ⟨0, _⟩ => rfl
    | ⟨1, _⟩ => rfl
  rw [val_main_v100_apply, val_main_v95_apply, b_v99]
  simp only [hl, hr, w_v94]
  rfl

theorem row_v101 (e : Fin 400000) (j : Fin 128) :
    val_main_v101 (F := Ideal) x0 x2 x3 x4 x7 x8 x9 x10 x11 x12 x13 x14 x15 x16 (ix2 e j)
      = relu (val_main_v100 (F := Ideal) x0 x2 x3 x4 x7 x8 x9 x10 x11 x12 x13 x14 x15 x16 (ix2 e j)) :=
  relu_E (val_main_v100 (F := Ideal) x0 x2 x3 x4 x7 x8 x9 x10 x11 x12 x13 x14 x15 x16) e j

theorem row_v109 (e : Fin 400000) (j : Fin 128) :
    val_main_v109 (F := Ideal) x0 x2 x3 x4 x7 x8 x9 x10 x11 x12 x13 x14 x15 x16 (ix2 e j)
      = affine (fun k => val_main_v101 (F := Ideal) x0 x2 x3 x4 x7 x8 x9 x10 x11 x12 x13 x14 x15 x16 (ix2 e k)) (fun k j => x11 (ix3 1 k j)) (fun j => x12 (ix2 1 j)) j := by
  have hl : ∀ k : Fin 128, lidx_main_v104 (ix2 e j) k = ix2 e k := fun k => funext fun a => by
    match a with
    | ⟨0, _⟩ => rfl
    | ⟨1, _⟩ => rfl
  have hr : ∀ k : Fin 128, ridx_main_v104 (ix2 e j) k = ix2 k j := fun k => funext fun a => by
    match a with
    | ⟨0, _⟩ => rfl
    | ⟨1, _⟩ => rfl
  rw [val_main_v109_apply, val_main_v104_apply, b_v108]
  simp only [hl, hr, w_v103]
  rfl

/-- The edge messages of the second layer. -/
theorem messages1_eq :
    val_main_v109 (F := Ideal) x0 x2 x3 x4 x7 x8 x9 x10 x11 x12 x13 x14 x15 x16
      = messages 1 (val_main_v75 (F := Ideal) x0 x2 x3 x4 x7 x8 x9 x10 x11 x12 x13 x14 x15 x16)
          (val_main_v82 (F := Ideal) x0 x2 x3 x4 x7 x8 x9 x10 x11 x12 x13 x14 x15 x16) x7 x8 x9 x10 x11 x12 := by
  refine arr2_ext _ _ fun e j => ?_
  rw [row_v109]
  simp only [row_v101, row_v100, row_v92, row_v91, row_v83]
  exact congrFun (edge_of_beside _ _ _ _ _ _ _ _) j

theorem row_v120 (r : Fin 50000) (j : Fin 128) :
    val_main_v120 (F := Ideal) x0 x2 x3 x4 x7 x8 x9 x10 x11 x12 x13 x14 x15 x16 (ix2 r j)
      = affine (fun k => val_main_v112 (F := Ideal) x0 x2 x3 x4 x7 x8 x9 x10 x11 x12 x13 x14 x15 x16 (ix2 r k)) (fun k j => x13 (ix3 1 k j)) (fun j => x14 (ix2 1 j)) j := by
  have hl : ∀ k : Fin 128, lidx_main_v115 (ix2 r j) k = ix2 r k := fun k => funext fun a => by
    match a with
    | ⟨0, _⟩ => rfl
    | ⟨1, _⟩ => rfl
  have hr : ∀ k : Fin 128, ridx_main_v115 (ix2 r j) k = ix2 k j := fun k => funext fun a => by
    match a with
    | ⟨0, _⟩ => rfl
    | ⟨1, _⟩ => rfl
  rw [val_main_v120_apply, val_main_v115_apply, b_v119]
  simp only [hl, hr, w_v114]
  rfl

theorem row_v121 (r : Fin 50000) (j : Fin 128) :
    val_main_v121 (F := Ideal) x0 x2 x3 x4 x7 x8 x9 x10 x11 x12 x13 x14 x15 x16 (ix2 r j)
      = relu (val_main_v120 (F := Ideal) x0 x2 x3 x4 x7 x8 x9 x10 x11 x12 x13 x14 x15 x16 (ix2 r j)) :=
  relu_N (val_main_v120 (F := Ideal) x0 x2 x3 x4 x7 x8 x9 x10 x11 x12 x13 x14 x15 x16) r j

theorem row_v129 (r : Fin 50000) (j : Fin 128) :
    val_main_v129 (F := Ideal) x0 x2 x3 x4 x7 x8 x9 x10 x11 x12 x13 x14 x15 x16 (ix2 r j)
      = affine (fun k => val_main_v121 (F := Ideal) x0 x2 x3 x4 x7 x8 x9 x10 x11 x12 x13 x14 x15 x16 (ix2 r k)) (fun k j => x15 (ix3 1 k j)) (fun j => x16 (ix2 1 j)) j := by
  have hl : ∀ k : Fin 128, lidx_main_v124 (ix2 r j) k = ix2 r k := fun k => funext fun a => by
    match a with
    | ⟨0, _⟩ => rfl
    | ⟨1, _⟩ => rfl
  have hr : ∀ k : Fin 128, ridx_main_v124 (ix2 r j) k = ix2 k j := fun k => funext fun a => by
    match a with
    | ⟨0, _⟩ => rfl
    | ⟨1, _⟩ => rfl
  rw [val_main_v129_apply, val_main_v124_apply, b_v128]
  simp only [hl, hr, w_v123]
  rfl

/-- The node update of the second layer. -/
theorem update1_eq :
    val_main_v129 (F := Ideal) x0 x2 x3 x4 x7 x8 x9 x10 x11 x12 x13 x14 x15 x16
      = update 1 (val_main_v112 (F := Ideal) x0 x2 x3 x4 x7 x8 x9 x10 x11 x12 x13 x14 x15 x16) x13 x14 x15 x16 := by
  refine arr2_ext _ _ fun r j => ?_
  rw [row_v129]
  simp only [row_v121, row_v120]
  rfl

/-- The second layer's gathers read the first layer's result through the same index arrays. -/
theorem src1_eq :
    val_main_v75 (F := Ideal) x0 x2 x3 x4 x7 x8 x9 x10 x11 x12 x13 x14 x15 x16
      = (graph x2).src (val_main_v68 (F := Ideal) x0 x2 x3 x4 x7 x8 x9 x10 x11 x12 x13 x14 x15 x16) :=
  congrArg (Host.gather gather_S50000x128_S400000x1_S400000x128_1_0_n_n_0_1_1128
    (val_main_v68 (F := Ideal) x0 x2 x3 x4 x7 x8 x9 x10 x11 x12 x13 x14 x15 x16)) (src_idx_again x2)

theorem dst1_eq :
    val_main_v82 (F := Ideal) x0 x2 x3 x4 x7 x8 x9 x10 x11 x12 x13 x14 x15 x16
      = (graph x2).dst (val_main_v68 (F := Ideal) x0 x2 x3 x4 x7 x8 x9 x10 x11 x12 x13 x14 x15 x16) :=
  congrArg (Host.gather gather_S50000x128_S400000x1_S400000x128_1_0_n_n_0_1_1128
    (val_main_v68 (F := Ideal) x0 x2 x3 x4 x7 x8 x9 x10 x11 x12 x13 x14 x15 x16)) (dst_idx_again x2)

/-- The second layer's scatter adds into the same all-zero array through the same index array. -/
theorem add1_eq :
    val_main_v112 (F := Ideal) x0 x2 x3 x4 x7 x8 x9 x10 x11 x12 x13 x14 x15 x16
      = (graph x2).add (val_main_v109 (F := Ideal) x0 x2 x3 x4 x7 x8 x9 x10 x11 x12 x13 x14 x15 x16) := by
  show Host.scatterAdd (F := Ideal) (φ := .f32) scatter_S50000x128_S400000x1_S400000x128_1_0_0_1 (val_main_v110 (F := Ideal)) (val_main_v111 (F := Ideal) x2) _
    = Host.scatterAdd (F := Ideal) (φ := .f32) scatter_S50000x128_S400000x1_S400000x128_1_0_0_1 (val_main_v49 (F := Ideal)) (val_main_v50 (F := Ideal) x2) _
  rw [zeros_again, add_idx_again]

theorem layer1_eq :
    val_main_v129 (F := Ideal) x0 x2 x3 x4 x7 x8 x9 x10 x11 x12 x13 x14 x15 x16
      = layer (graph x2) 1 (val_main_v68 (F := Ideal) x0 x2 x3 x4 x7 x8 x9 x10 x11 x12 x13 x14 x15 x16) x7 x8 x9 x10 x11 x12 x13 x14 x15 x16 := by
  rw [update1_eq, add1_eq, messages1_eq, src1_eq, dst1_eq]
  rfl

/-! ## The output projection and the whole network -/

theorem row_v133 (r : Fin 50000) (j : Fin 16) :
    val_main_v133 (F := Ideal) x0 x2 x3 x4 x5 x6 x7 x8 x9 x10 x11 x12 x13 x14 x15 x16 (ix2 r j)
      = affine (fun k => val_main_v129 (F := Ideal) x0 x2 x3 x4 x7 x8 x9 x10 x11 x12 x13 x14 x15 x16 (ix2 r k)) (fun k j => x5 (ix2 k j)) (fun j => x6 (ix1 j)) j := by
  have hl : ∀ k : Fin 128, lidx_main_v130 (ix2 r j) k = ix2 r k := fun k => funext fun a => by
    match a with
    | ⟨0, _⟩ => rfl
    | ⟨1, _⟩ => rfl
  have hr : ∀ k : Fin 128, ridx_main_v130 (ix2 r j) k = ix2 k j := fun k => funext fun a => by
    match a with
    | ⟨0, _⟩ => rfl
    | ⟨1, _⟩ => rfl
  have hb : idx_main_v131 (idx_main_v132 (ix2 r j)) = ix1 j := funext fun a => by
    match a with
    | ⟨0, _⟩ => rfl
  rw [val_main_v133_apply, val_main_v130_apply, val_main_v132_apply, val_main_v131_apply, hb]
  simp only [hl, hr]
  rfl

theorem project_eq :
    val_main_v133 (F := Ideal) x0 x2 x3 x4 x5 x6 x7 x8 x9 x10 x11 x12 x13 x14 x15 x16
      = project (val_main_v129 (F := Ideal) x0 x2 x3 x4 x7 x8 x9 x10 x11 x12 x13 x14 x15 x16) x5 x6 :=
  arr2_ext _ _ fun r j => row_v133 x0 x2 x3 x4 x5 x6 x7 x8 x9 x10 x11 x12 x13 x14 x15 x16 r j

/-- The reference's result is the network of the specification on the reference's own gather and scatter maps. -/
theorem result_eq :
    val_main_v133 (F := Ideal) x0 x2 x3 x4 x5 x6 x7 x8 x9 x10 x11 x12 x13 x14 x15 x16
      = net (graph x2) x0 x3 x4 x5 x6 x7 x8 x9 x10 x11 x12 x13 x14 x15 x16 := by
  rw [project_eq, layer1_eq, layer0_eq, embed_eq]
  rfl

end Cert.RefNet

end
-- ==== Proof.Bridge.lean ====
/-
  The edge list's three maps are the same in the two programs.

  The kernel program and the reference build the gather indices of the edges' sources and targets, the scatter
  indices of the targets and the all-zero array by the same operations on the same literals: a row of the edge list,
  a negative entry moved up by the number of nodes, the result set as a column; the zero word repeated over the
  array. The two programs name their shapes and their gather and scatter records apart, but each pair has the same
  extents and the same dimension numbers. So the arrays and the records are equal by unfolding the names, and with
  them the three maps: the rows gathered at the sources, the rows gathered at the targets, and the sum of the edge
  messages into their target nodes.
-/
import proofs.«146966_j79087527788652_1_alg».proof.Proof.RefNet
import proofs.«146966_j79087527788652_1_alg».proof.Proof.KEntryB

set_option maxRecDepth 16384

noncomputable section

namespace Cert.Bridge

open Idealize.ShloMosaic

/-- The gather indices of the edges' sources. -/
theorem src_eq (e : Cert.KernelIdeal.Entry.Edges) :
    Cert.KernelIdeal.Entry.srcIdx e = Cert.ReferenceIdeal.Read.val_main_v13 (F := Ideal) e := rfl

/-- The gather indices of the edges' targets. -/
theorem dst_eq (e : Cert.KernelIdeal.Entry.Edges) :
    Cert.KernelIdeal.Entry.dstIdx e = Cert.ReferenceIdeal.Read.val_main_v20 (F := Ideal) e := rfl

/-- The scatter indices of the edges' targets. -/
theorem raw_eq (e : Cert.KernelIdeal.Entry.Edges) :
    Cert.KernelIdeal.Entry.dstRaw e = Cert.ReferenceIdeal.Read.val_main_v50 (F := Ideal) e := rfl

/-- The all-zero array a scatter adds into. -/
theorem zeros_eq : Cert.KernelIdeal.Entry.zeros = Cert.ReferenceIdeal.Read.val_main_v49 (F := Ideal) := rfl

/-- The two gather records have the same dimension numbers. -/
theorem gather_rec_eq : Cert.KernelIdeal.gather_S50000x128_S400000x1_S400000x128_1_0_n_n_0_1_1128
    = Cert.ReferenceIdeal.gather_S50000x128_S400000x1_S400000x128_1_0_n_n_0_1_1128 := rfl

/-- The two scatter records have the same dimension numbers. -/
theorem scatter_rec_eq : Cert.KernelIdeal.scatter_S50000x128_S400000x1_S400000x128_1_0_0_1
    = Cert.ReferenceIdeal.scatter_S50000x128_S400000x1_S400000x128_1_0_0_1 := rfl

/-- The kernel program's three maps of the edge list are the reference's. -/
theorem graph_eq (e : Cert.KernelIdeal.Entry.Edges) :
    (⟨fun x => Host.gather Cert.KernelIdeal.gather_S50000x128_S400000x1_S400000x128_1_0_n_n_0_1_1128 x (Cert.KernelIdeal.Entry.srcIdx e),
      fun x => Host.gather Cert.KernelIdeal.gather_S50000x128_S400000x1_S400000x128_1_0_n_n_0_1_1128 x (Cert.KernelIdeal.Entry.dstIdx e),
      fun u => Host.scatterAdd (F := Ideal) (φ := .f32) Cert.KernelIdeal.scatter_S50000x128_S400000x1_S400000x128_1_0_0_1
        Cert.KernelIdeal.Entry.zeros (Cert.KernelIdeal.Entry.dstRaw e) u⟩ : Cert.GraphNet.Graph) = Cert.RefNet.graph e := rfl

end Cert.Bridge

end
-- ==== Proof.lean ====
/-
  The certificate of a message-passing network's kernel against its plain array reference.

  Both programs send node inputs through an input projection, two message-passing layers and an output projection;
  the gathers of every edge's end points and the sums of edge messages into their target nodes are the same host
  operations in both. They differ in how the dense stages are arranged: the kernel tiles every stage over blocks of
  rows (each block through a matrix product into a zero accumulator, plus a bias row, through the rectifier), casting
  operands to a narrower float format first; the reference applies whole-array products. And in the first stage of the
  edge perceptron the reference lays the two gathered rows side by side and multiplies by the whole 256-row weight
  matrix, where the kernel multiplies the first row by the upper half of the weights, the second by the lower half,
  and adds. On the extended reals a change of float format is the identity, a product into a zero accumulator is the
  plain sum of products, a tiling by row blocks is invisible row by row, and a sum over 256 indices is the sum over
  its two halves (commutativity and associativity only, so no finiteness of the inputs is used). So both results
  are one function, `Cert.GraphNet.net`, of the argument arrays: the kernel's by reading its run's last memory back
  through its six regions, the reference's by reading its run one operation at a time; and the three host maps of the
  edge list are the same terms in both programs.

  The three frames are the generated ones (the reference's is its generated run with the result dropped); the
  idealization rewrote nothing, so `preserves` is trivial.
-/
import proofs.«146966_j79087527788652_1_alg».proof.Defs
import proofs.«146966_j79087527788652_1_alg».proof.Proof.Gen.Kernel
import proofs.«146966_j79087527788652_1_alg».proof.Proof.Gen.Kernel.Skeleton
import proofs.«146966_j79087527788652_1_alg».proof.Proof.Gen.Kernel.Launch
import proofs.«146966_j79087527788652_1_alg».proof.Proof.Gen.Kernel.Points
import proofs.«146966_j79087527788652_1_alg».proof.Proof.Gen.Kernel.Frame
import proofs.«146966_j79087527788652_1_alg».proof.Proof.Gen.KernelIdeal
import proofs.«146966_j79087527788652_1_alg».proof.Proof.Gen.KernelIdeal.Skeleton
import proofs.«146966_j79087527788652_1_alg».proof.Proof.Gen.KernelIdeal.Launch
import proofs.«146966_j79087527788652_1_alg».proof.Proof.Gen.KernelIdeal.Points
import proofs.«146966_j79087527788652_1_alg».proof.Proof.Gen.KernelIdeal.Frame
import proofs.«146966_j79087527788652_1_alg».proof.Proof.Gen.ReferenceIdeal
import proofs.«146966_j79087527788652_1_alg».proof.Proof.Gen.ReferenceIdeal.Run
import proofs.«146966_j79087527788652_1_alg».proof.Proof.Gen.ReferenceIdeal.Read
import proofs.«146966_j79087527788652_1_alg».proof.Proof.Gen.Pre_finite_inputs
import proofs.«146966_j79087527788652_1_alg».proof.Proof.KRunValue
import proofs.«146966_j79087527788652_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the network of the argument arrays; the memories agree on the arguments; the host maps of the
    edge list are the same terms. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v133_eq, Cert.RefNet.result_eq, h0, h2, h3, h4, h5, h6, h7, h8, h9, h10, h11, h12, h13, h14, h15, h16]
  exact congrArg (fun g => Cert.GraphNet.net g _ _ _ _ _ _ _ _ _ _ _ _ _ _ _) (Cert.Bridge.graph_eq _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
